-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_arg9 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S10x1x64 : Shape := ⟨3, ![10, 1, 64]⟩
abbrev S1x1x64 : Shape := ⟨3, ![1, 1, 64]⟩

abbrev nBuf : Space → Nat
  | .hbm => 119
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x64, .f32⟩
  | .hbm, ⟨47, _⟩ => ⟨S50000x64, .bf16⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .bf16⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S10x1x64, .f32⟩
  | .hbm, ⟨67, _⟩ => ⟨S10x1x64, .f32⟩
  | .hbm, ⟨68, _⟩ => ⟨S_, .f32⟩
  | .hbm, ⟨69, _⟩ => ⟨S1x64, .f32⟩
  | .hbm, ⟨70, _⟩ => ⟨S_, .f32⟩
  | .hbm, ⟨71, _⟩ => ⟨S1x64, .f32⟩
  | .hbm, ⟨72, _⟩ => ⟨S_, .f32⟩
  | .hbm, ⟨73, _⟩ => ⟨S1x64, .f32⟩
  | .hbm, ⟨74, _⟩ => ⟨S1x64, .f32⟩
  | .hbm, ⟨75, _⟩ => ⟨S_, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S50000x64, .f32⟩
  | .hbm, ⟨83, _⟩ => ⟨S50000x64, .bf16⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000x64, .bf16⟩
  | .hbm, ⟨93, _⟩ => ⟨S850000x64, .f32⟩
  | .hbm, ⟨94, _⟩ => ⟨S850000x1, .f32⟩
  | .hbm, ⟨95, _⟩ => ⟨S850000x64, .f32⟩
  | .hbm, ⟨96, _⟩ => ⟨S850000x64, .f32⟩
  | .hbm, ⟨97, _⟩ => ⟨S_, .f32⟩
  | .hbm, ⟨98, _⟩ => ⟨S50000x64, .f32⟩
  | .hbm, ⟨99, _⟩ => ⟨S850000x1, .i32⟩
  | .hbm, ⟨100, _⟩ => ⟨S50000x64, .f32⟩
  | .hbm, ⟨101, _⟩ => ⟨S1x64, .f32⟩
  | .hbm, ⟨102, _⟩ => ⟨S10x1x64, .f32⟩
  | .hbm, ⟨103, _⟩ => ⟨S10x1x64, .f32⟩
  | .hbm, ⟨104, _⟩ => ⟨S_, .f32⟩
  | .hbm, ⟨105, _⟩ => ⟨S1x64, .f32⟩
  | .hbm, ⟨106, _⟩ => ⟨S_, .f32⟩
  | .hbm, ⟨107, _⟩ => ⟨S1x64, .f32⟩
  | .hbm, ⟨108, _⟩ => ⟨S_, .f32⟩
  | .hbm, ⟨109, _⟩ => ⟨S1x64, .f32⟩
  | .hbm, ⟨110, _⟩ => ⟨S1x64, .f32⟩
  | .hbm, ⟨111, _⟩ => ⟨S_, .f32⟩
  | .hbm, ⟨112, _⟩ => ⟨S1x64, .f32⟩
  | .hbm, ⟨113, _⟩ => ⟨S1x64, .f32⟩
  | .hbm, ⟨114, _⟩ => ⟨S1x64, .f32⟩
  | .hbm, ⟨115, _⟩ => ⟨S1x64, .f32⟩
  | .hbm, ⟨116, _⟩ => ⟨S1x64, .f32⟩
  | .hbm, ⟨117, _⟩ => ⟨S1x64, .f32⟩
  | .hbm, ⟨118, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S64x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S1x64, .f32⟩
  | .local _ .vmem, ⟨25, _⟩ => ⟨S1x1x64, .f32⟩
  | .local _ .vmem, ⟨26, _⟩ => ⟨S1x1x64, .f32⟩
  | .local _ .vmem, ⟨27, _⟩ => ⟨S1x1x64, .f32⟩
  | .local _ .vmem, ⟨28, _⟩ => ⟨S1x1x64, .f32⟩
  | .local _ .vmem, ⟨29, _⟩ => ⟨S5000x64, .f32⟩
  | .local _ .vmem, ⟨30, _⟩ => ⟨S5000x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46_0 : Ref sig .tc := ⟨.hbm, 66, rfl⟩
abbrev main_v46_1 : Ref sig .tc := ⟨.hbm, 67, rfl⟩
abbrev main_cst_8 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74_0 : Ref sig .tc := ⟨.hbm, 102, rfl⟩
abbrev main_v74_1 : Ref sig .tc := ⟨.hbm, 103, rfl⟩
abbrev main_cst_15 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_cst_17 : Ref sig .tc := ⟨.hbm, 108, rfl⟩
abbrev main_v77 : Ref sig .tc := ⟨.hbm, 109, rfl⟩
abbrev main_v78 : Ref sig .tc := ⟨.hbm, 110, rfl⟩
abbrev main_cst_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x1x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S64 : S5000x64.Reduces [0] S64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  reducesTo_S10x1x64_S1x64_d0 : S10x1x64.ReducesTo [0] S1x64
  h_S_ : 0 < S_.numel
  bcast_S_S1x64 : S_.BroadcastsInDim S1x64 (![] : Fin 0 → Fin S1x64.rank)
  inb_S64x64_S64x64_0_0 : ∀ a, (![0, 0] : Fin 2 → Nat) a + S64x64.size a ≤ S64x64.size a
  h_S64x64 : 0 < S64x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S10x1x64.size a
  hwx1_2 : ∀ i : grid1.Coords, EltTy.bits .f32 = 32 ∨ (Rect.block (s := S10x1x64) S1x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S10x1x64.size a
  hwx1_3 : ∀ i : grid1.Coords, EltTy.bits .f32 = 32 ∨ (Rect.block (s := S10x1x64) S1x1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x64.size a ≤ S10x1x64.size a
  hwx3_2 : ∀ i : grid3.Coords, EltTy.bits .f32 = 32 ∨ (Rect.block (s := S10x1x64) S1x1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x64.size a ≤ S10x1x64.size a
  hwx3_3 : ∀ i : grid3.Coords, EltTy.bits .f32 = 32 ∨ (Rect.block (s := S10x1x64) S1x1x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_0) S1x1x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46_1) S1x1x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg6) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v72) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74_0) S1x1x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v74_1) S1x1x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v72) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v85) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 177
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x64, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x64, .f32⟩
  | 56 => ⟨S850000x1, .f32⟩
  | 57 => ⟨S850000x64, .f32⟩
  | 58 => ⟨S850000x64, .f32⟩
  | 59 => ⟨S_, .f32⟩
  | 60 => ⟨S50000x64, .f32⟩
  | 61 => ⟨S850000x1, .i32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S64, .f32⟩
  | 68 => ⟨S_, .f32⟩
  | 69 => ⟨S64, .f32⟩
  | 70 => ⟨S64, .f32⟩
  | 71 => ⟨S_, .i32⟩
  | 72 => ⟨S_, .f32⟩
  | 73 => ⟨S64, .f32⟩
  | 74 => ⟨S1x64, .f32⟩
  | 75 => ⟨S_, .f32⟩
  | 76 => ⟨S1x64, .f32⟩
  | 77 => ⟨S1x64, .f32⟩
  | 78 => ⟨S50000x64, .f32⟩
  | 79 => ⟨S50000x64, .f32⟩
  | 80 => ⟨S50000x64, .f32⟩
  | 81 => ⟨S_, .f32⟩
  | 82 => ⟨S_, .f32⟩
  | 83 => ⟨S_, .f32⟩
  | 84 => ⟨S_, .f32⟩
  | 85 => ⟨S64, .f32⟩
  | 86 => ⟨S64, .f32⟩
  | 87 => ⟨S64, .f32⟩
  | 88 => ⟨S_, .f32⟩
  | 89 => ⟨S_, .i1⟩
  | 90 => ⟨S_, .f32⟩
  | 91 => ⟨S_, .f32⟩
  | 92 => ⟨S64, .f32⟩
  | 93 => ⟨S64, .f32⟩
  | 94 => ⟨S1x64, .f32⟩
  | 95 => ⟨S50000x64, .f32⟩
  | 96 => ⟨S50000x64, .f32⟩
  | 97 => ⟨S_, .f32⟩
  | 98 => ⟨S64, .f32⟩
  | 99 => ⟨S64, .f32⟩
  | 100 => ⟨S64, .f32⟩
  | 101 => ⟨S1x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x64, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x64, .f32⟩
  | 123 => ⟨S850000x1, .f32⟩
  | 124 => ⟨S850000x64, .f32⟩
  | 125 => ⟨S850000x64, .f32⟩
  | 126 => ⟨S_, .f32⟩
  | 127 => ⟨S50000x64, .f32⟩
  | _ => ⟨S50000x128, .f32⟩

abbrev hbmTy0_1 (i : Nat) : BufTy := match i % 128 with
  | 0 => ⟨S850000x1, .i32⟩
  | 1 => ⟨S50000x64, .f32⟩
  | 2 => ⟨S1x64, .f32⟩
  | 3 => ⟨S50000x64, .f32⟩
  | 4 => ⟨S50000x64, .f32⟩
  | 5 => ⟨S_, .f32⟩
  | 6 => ⟨S64, .f32⟩
  | 7 => ⟨S_, .f32⟩
  | 8 => ⟨S64, .f32⟩
  | 9 => ⟨S64, .f32⟩
  | 10 => ⟨S_, .i32⟩
  | 11 => ⟨S_, .f32⟩
  | 12 => ⟨S64, .f32⟩
  | 13 => ⟨S1x64, .f32⟩
  | 14 => ⟨S_, .f32⟩
  | 15 => ⟨S1x64, .f32⟩
  | 16 => ⟨S1x64, .f32⟩
  | 17 => ⟨S50000x64, .f32⟩
  | 18 => ⟨S50000x64, .f32⟩
  | 19 => ⟨S50000x64, .f32⟩
  | 20 => ⟨S_, .f32⟩
  | 21 => ⟨S_, .f32⟩
  | 22 => ⟨S_, .f32⟩
  | 23 => ⟨S_, .f32⟩
  | 24 => ⟨S64, .f32⟩
  | 25 => ⟨S64, .f32⟩
  | 26 => ⟨S64, .f32⟩
  | 27 => ⟨S_, .f32⟩
  | 28 => ⟨S_, .i1⟩
  | 29 => ⟨S_, .f32⟩
  | 30 => ⟨S_, .f32⟩
  | 31 => ⟨S64, .f32⟩
  | 32 => ⟨S64, .f32⟩
  | 33 => ⟨S1x64, .f32⟩
  | 34 => ⟨S50000x64, .f32⟩
  | 35 => ⟨S50000x64, .f32⟩
  | 36 => ⟨S_, .f32⟩
  | 37 => ⟨S64, .f32⟩
  | 38 => ⟨S64, .f32⟩
  | 39 => ⟨S64, .f32⟩
  | 40 => ⟨S1x64, .f32⟩
  | 41 => ⟨S50000x64, .f32⟩
  | 42 => ⟨S50000x64, .f32⟩
  | 43 => ⟨S1x64, .f32⟩
  | 44 => ⟨S50000x64, .f32⟩
  | 45 => ⟨S50000x64, .f32⟩
  | 46 => ⟨S1x64, .f32⟩
  | 47 => ⟨S50000x64, .f32⟩
  | 48 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_cst_0 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_cst_1 : Ref sig .tc := ⟨.hbm, 82, rfl⟩
abbrev main_call0_v8 : Ref sig .tc := ⟨.hbm, 83, rfl⟩
abbrev main_call0_cst_2 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_cst_3 : Ref sig .tc := ⟨.hbm, 88, rfl⟩
abbrev main_call0_v12 : Ref sig .tc := ⟨.hbm, 89, rfl⟩
abbrev main_call0_cst_4 : Ref sig .tc := ⟨.hbm, 90, rfl⟩
abbrev main_call0_call0_v0 : Ref sig .tc := ⟨.hbm, 91, rfl⟩
abbrev main_call0_call0_v1 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_11 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_call1_cst : Ref sig .tc := ⟨.hbm, 110, rfl⟩
abbrev main_call1_v0 : Ref sig .tc := ⟨.hbm, 111, rfl⟩
abbrev main_v65 : Ref sig .tc := ⟨.hbm, 112, rfl⟩
abbrev main_v66 : Ref sig .tc := ⟨.hbm, 113, rfl⟩
abbrev main_c_12 : Ref sig .tc := ⟨.hbm, 114, rfl⟩
abbrev main_v67 : Ref sig .tc := ⟨.hbm, 115, rfl⟩
abbrev main_v68 : Ref sig .tc := ⟨.hbm, 116, rfl⟩
abbrev main_c_13 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_14 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_15 : Ref sig .tc := ⟨.hbm, 133, rfl⟩
abbrev main_v83 : Ref sig .tc := ⟨.hbm, 134, rfl⟩
abbrev main_cst_16 : Ref sig .tc := ⟨.hbm, 135, rfl⟩
abbrev main_v84 : Ref sig .tc := ⟨.hbm, 136, rfl⟩
abbrev main_v85 : Ref sig .tc := ⟨.hbm, 137, rfl⟩
abbrev main_c_17 : Ref sig .tc := ⟨.hbm, 138, rfl⟩
abbrev main_call2_cst : Ref sig .tc := ⟨.hbm, 139, rfl⟩
abbrev main_call2_v0 : Ref sig .tc := ⟨.hbm, 140, rfl⟩
abbrev main_call2_v1 : Ref sig .tc := ⟨.hbm, 141, rfl⟩
abbrev main_call2_cst_0 : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_call2_v5 : Ref sig .tc := ⟨.hbm, 146, rfl⟩
abbrev main_call2_v6 : Ref sig .tc := ⟨.hbm, 147, rfl⟩
abbrev main_call2_v7 : Ref sig .tc := ⟨.hbm, 148, rfl⟩
abbrev main_call2_cst_1 : Ref sig .tc := ⟨.hbm, 149, rfl⟩
abbrev main_call2_v8 : Ref sig .tc := ⟨.hbm, 150, rfl⟩
abbrev main_call2_cst_2 : Ref sig .tc := ⟨.hbm, 151, rfl⟩
abbrev main_call2_v9 : Ref sig .tc := ⟨.hbm, 152, rfl⟩
abbrev main_call2_v10 : Ref sig .tc := ⟨.hbm, 153, rfl⟩
abbrev main_call2_v11 : Ref sig .tc := ⟨.hbm, 154, rfl⟩
abbrev main_call2_cst_3 : Ref sig .tc := ⟨.hbm, 155, rfl⟩
abbrev main_call2_v12 : Ref sig .tc := ⟨.hbm, 156, rfl⟩
abbrev main_call2_cst_4 : Ref sig .tc := ⟨.hbm, 157, rfl⟩
abbrev main_call2_call0_v0 : Ref sig .tc := ⟨.hbm, 158, rfl⟩
abbrev main_call2_call0_v1 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_cst_18 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The idealized kernel's run with its result named: every weakly fair execution of the entry function ends, nothing
  faulting, the argument arrays as launched, and the result array holding what the last of the five pipelines leaves —
  the buffer contents at the tenth boundary of the fold through the host stretches and the pipelines.

  The final state is read against the last thread state, which holds every unscoped buffer at that boundary's contents;
  the frame claim keeps only the arguments of it, and here the result buffer is kept as well.
-/
import proofs.«112019_j89378269429931_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the ten segments, the last thread state read against the final state, the result buffer and
    each argument taken from it. -/
theorem run : θ_run defs (onTc (τ := τ) (main (F := F))) ⟨m, fun _ => 0, ρ⟩ (fun r => ∀ c : Dev nD,
      r.2.mem ((c.tc : Thread nD τ).loc main_v85) = W10 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v85 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.KRun

end
-- ==== Proof.LibConcat2.lean ====
/-
  Reading what a buffer holds after a line of host operations.

  A line of host operations is a fold: each operation overwrites its result buffer with its function of its operand
  buffers.  What a buffer holds afterwards is therefore a nest of those functions over the contents the line started
  from, and one rewriting pass computes it: at an operation's own result buffer the fold gives the function's value, at
  any other buffer what was there before.

  One operation stops such a pass: a concatenation takes its operands as a LIST of (shape, array) pairs, and a rewriting
  pass does not enter that list.  For two operands we give the concatenation a form with the operands as plain
  arguments; the pass folds a concatenation into this form as soon as it meets one and then continues inside the two
  operands.
-/
import Idealize.ShloMosaic.Lib.StableHlo.Run

namespace Cert.HostLine

open Idealize.ShloMosaic Idealize.ShloMosaic.StableHlo

/-- The concatenation of two arrays along an axis, the two arrays as plain arguments. -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- A concatenation of two operands is `concat2` of them. -/
theorem concat2_fold {α : Type} (t : Shape) (a : Fin t.rank) (s1 s2 : Shape) (h : Shape.Concatenates [s1, s2] t a)
    (x : s1.Idx → α) (y : s2.Idx → α) :
    concatenate t a [⟨s1, x⟩, ⟨s2, y⟩] h = concat2 t a s1 s2 h x y := rfl

/-- Computes `after ops V b` for a literal line `ops`, as the operations' functions nested over `V` at the buffers the
    line reads but does not write; two-operand concatenations come out as `concat2`. -/
macro "host_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_fold]))

end Cert.HostLine
-- ==== Proof.Graph.lean ====
/-
  The graph part of the network, shared by the tiled program and the reference: the edge list with its self loops, the
  index normalisation of a gather, the inverse square roots of the degrees and their products along the edges, the
  aggregation of an array of node features along the edges into the nodes, and the column means and variances as the tiled
  program forms them from its per-tile sums. Each is the host operations' own functions, composed.
-/
import proofs.«112019_j89378269429931_2_alg».proof.KernelIdeal
import proofs.«112019_j89378269429931_2_alg».proof.Proof.Gen.KernelIdeal
import proofs.«112019_j89378269429931_2_alg».proof.Proof.LibConcat2
import Idealize.ShloMosaic.PureOps.Ideal

noncomputable section

namespace Cert.Graph

open Cert.KernelIdeal Cert.KernelIdeal.Gen Cert.HostLine
open Idealize.ShloMosaic Idealize.ShloMosaic.TcCoe Idealize.ShloMosaic.StableHlo

/-- The node numbers 0 … 49999: the self loops. -/
def loops : IVec S50000 32 := iotaInDim S50000 32 0

/-- Row k of the edge list followed by the self loops. -/
def srcOf (E : IVec S2x800000 32) : IVec S850000 32 :=
  concat2 S850000 0 S800000 S50000 concatenates_S800000_S50000_S850000_d0
    (shapeCast S800000 (extractStridedSlice S1x800000 ![0, 0] E slices_S2x800000_S1x800000_0_0) shapeCasts_S1x800000_S800000) loops

def dstOf (E : IVec S2x800000 32) : IVec S850000 32 :=
  concat2 S850000 0 S800000 S50000 concatenates_S800000_S50000_S850000_d0
    (shapeCast S800000 (extractStridedSlice S1x800000 ![1, 0] E slices_S2x800000_S1x800000_1_0) shapeCasts_S1x800000_S800000) loops

/-- An index vector as a gather takes it: a negative index counted from the end, then one index per row. -/
def wrapIdx (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The inverse square roots of the in-degrees (never below the square root of 1e12). -/
def dinvOf (dst : IVec S850000 32) : FVec Ideal S50000 .f32 :=
  Host.rsqrt (maximumf
    (Host.scatterAdd scatter_S50000_S850000x1_S850000_n_0_0_1
      (broadcastInDim S50000 ![] bcast_S_S50000 (constant S_ .f32 0x00000000#32))
      (broadcastInDim S850000x1 ![0] bcast_S850000_S850000x1_0 dst)
      (broadcastInDim S850000 ![] bcast_S_S850000 (constant S_ .f32 0x3F800000#32)))
    (broadcastInDim S50000 ![] bcast_S_S50000 (constant S_ .f32 0x2B8CBCCC#32)))

/-- The edge weights: the product of the two end points' inverse root degrees. -/
def normOf (src dst : IVec S850000 32) : FVec Ideal S850000 .f32 :=
  mulf (Host.gather gather_S50000_S850000x1_S850000_n_0_n_n_0_1_1 (dinvOf dst) (wrapIdx src))
    (Host.gather gather_S50000_S850000x1_S850000_n_0_n_n_0_1_1 (dinvOf dst) (wrapIdx dst))

/-- The aggregation: every edge carries its source's row, weighted, into its target's row. -/
def aggOf (src dst : IVec S850000 32) (norm : FVec Ideal S850000 .f32) (h : FVec Ideal S50000x64 .f32) : FVec Ideal S50000x64 .f32 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 dst)
    (mulf (Host.gather gather_S50000x64_S850000x1_S850000x64_1_0_n_n_0_1_164 h (wrapIdx src))
      (broadcastInDim S850000x64 ![0, 1] bcast_S850000x1_S850000x64_0_1 (broadcastInDim S850000x1 ![0] bcast_S850000_S850000x1_0 norm)))

/-- A vector of 64 as a row. -/
def rowOfVec (b : FVec Ideal S64 .f32) : FVec Ideal S1x64 .f32 := shapeCast S1x64 b shapeCasts_S64_S1x64

/-- The column means from the per-tile sums. -/
def meanOfTiles (s : FVec Ideal S10x1x64 .f32) : FVec Ideal S1x64 .f32 :=
  Host.divf (Host.reduceAdd s (constant S_ .f32 0x00000000#32) reducesTo_S10x1x64_S1x64_d0 h_S_)
    (broadcastInDim S1x64 ![] bcast_S_S1x64 (constant S_ .f32 0x47435000#32))

/-- The column variances from the per-tile sums and sums of squares: the mean square minus the squared mean. -/
def varOfTiles (s q : FVec Ideal S10x1x64 .f32) : FVec Ideal S1x64 .f32 :=
  subf (meanOfTiles q) (mulf (meanOfTiles s) (meanOfTiles s))

end Cert.Graph

end
-- ==== Proof.KHost.lean ====
/-
  What the tiled program's five host stretches leave in the buffers the pipelines and later stretches read, from any
  contents: the edge list's two rows and the edge weights; the aggregation of a feature array and the bias as a row; the
  column means and variances from the per-tile sums, and the scale and shift as rows. And the buffers a stretch leaves alone.
-/
import proofs.«112019_j89378269429931_2_alg».proof.Proof.Gen.KernelIdeal.Launch
import proofs.«112019_j89378269429931_2_alg».proof.Proof.Graph
import Idealize.ShloMosaic.Lib.ValueIdx

set_option maxRecDepth 16384

noncomputable section

namespace Cert.KernelIdeal.KHost

open Cert.KernelIdeal Cert.KernelIdeal.Gen Cert.Graph Cert.HostLine
open Idealize.ShloMosaic Idealize.ShloMosaic.TcCoe Idealize.SL.Sem Idealize.ShloMosaic.StableHlo

variable (W : Valuation τ sig (Elt Ideal))

/-- The buffer in the goal is written by no operation of the named stretch. -/
macro "kept " l:ident : tactic => `(tactic| (
  refine StableHlo.after_of_forall_not_mem _ _ (List.forall_iff_forall_mem.mp ?_)
  simp only [$l:ident, List.Forall, nullary_writes, unary_writes, binary_writes, ternary_writes, quaternary_writes,
    reshape_writes, Finset.mem_singleton]
  repeat' apply And.intro
  all_goals exact devRef_ne_of_ne (by decide)))

/-! ## The first stretch: the edge list and the edge weights -/

theorem h0_src : after hostOps0 W (Proc.devRef .tc main_v3) = srcOf (W (Proc.devRef .tc main_arg1)) := by
  host_line; rfl

theorem h0_dst : after hostOps0 W (Proc.devRef .tc main_v6) = dstOf (W (Proc.devRef .tc main_arg1)) := by
  host_line; rfl

theorem h0_norm : after hostOps0 W (Proc.devRef .tc main_v28)
    = normOf (srcOf (W (Proc.devRef .tc main_arg1))) (dstOf (W (Proc.devRef .tc main_arg1))) := by
  host_line; rfl

theorem h0_keep_arg0 : after hostOps0 W (Proc.devRef .tc main_arg0) = W (Proc.devRef .tc main_arg0) := by kept hostOps0
theorem h0_keep_arg2 : after hostOps0 W (Proc.devRef .tc main_arg2) = W (Proc.devRef .tc main_arg2) := by kept hostOps0
theorem h0_keep_arg3 : after hostOps0 W (Proc.devRef .tc main_arg3) = W (Proc.devRef .tc main_arg3) := by kept hostOps0
theorem h0_keep_arg4 : after hostOps0 W (Proc.devRef .tc main_arg4) = W (Proc.devRef .tc main_arg4) := by kept hostOps0
theorem h0_keep_arg5 : after hostOps0 W (Proc.devRef .tc main_arg5) = W (Proc.devRef .tc main_arg5) := by kept hostOps0
theorem h0_keep_arg6 : after hostOps0 W (Proc.devRef .tc main_arg6) = W (Proc.devRef .tc main_arg6) := by kept hostOps0
theorem h0_keep_arg7 : after hostOps0 W (Proc.devRef .tc main_arg7) = W (Proc.devRef .tc main_arg7) := by kept hostOps0
theorem h0_keep_arg8 : after hostOps0 W (Proc.devRef .tc main_arg8) = W (Proc.devRef .tc main_arg8) := by kept hostOps0
theorem h0_keep_arg9 : after hostOps0 W (Proc.devRef .tc main_arg9) = W (Proc.devRef .tc main_arg9) := by kept hostOps0

/-! ## The second stretch: the first aggregation, and the first bias as a row -/

theorem h1_agg : after hostOps1 W (Proc.devRef .tc main_v44)
    = aggOf (W (Proc.devRef .tc main_v3)) (W (Proc.devRef .tc main_v6)) (W (Proc.devRef .tc main_v28)) (W (Proc.devRef .tc main_v29)) := by
  host_line; rfl

theorem h1_bias : after hostOps1 W (Proc.devRef .tc main_v45) = rowOfVec (W (Proc.devRef .tc main_arg3)) := by
  host_line; rfl

theorem h1_keep_v3 : after hostOps1 W (Proc.devRef .tc main_v3) = W (Proc.devRef .tc main_v3) := by kept hostOps1
theorem h1_keep_v6 : after hostOps1 W (Proc.devRef .tc main_v6) = W (Proc.devRef .tc main_v6) := by kept hostOps1
theorem h1_keep_v28 : after hostOps1 W (Proc.devRef .tc main_v28) = W (Proc.devRef .tc main_v28) := by kept hostOps1
theorem h1_keep_arg4 : after hostOps1 W (Proc.devRef .tc main_arg4) = W (Proc.devRef .tc main_arg4) := by kept hostOps1
theorem h1_keep_arg5 : after hostOps1 W (Proc.devRef .tc main_arg5) = W (Proc.devRef .tc main_arg5) := by kept hostOps1
theorem h1_keep_arg6 : after hostOps1 W (Proc.devRef .tc main_arg6) = W (Proc.devRef .tc main_arg6) := by kept hostOps1
theorem h1_keep_arg7 : after hostOps1 W (Proc.devRef .tc main_arg7) = W (Proc.devRef .tc main_arg7) := by kept hostOps1
theorem h1_keep_arg8 : after hostOps1 W (Proc.devRef .tc main_arg8) = W (Proc.devRef .tc main_arg8) := by kept hostOps1
theorem h1_keep_arg9 : after hostOps1 W (Proc.devRef .tc main_arg9) = W (Proc.devRef .tc main_arg9) := by kept hostOps1

/-! ## The third stretch: the first mean and variance, the first scale and shift as rows -/

theorem h2_mean : after hostOps2 W (Proc.devRef .tc main_v50) = meanOfTiles (W (Proc.devRef .tc main_v46_0)) := by
  host_line; rfl

theorem h2_var : after hostOps2 W (Proc.devRef .tc main_v54)
    = varOfTiles (W (Proc.devRef .tc main_v46_0)) (W (Proc.devRef .tc main_v46_1)) := by
  host_line; rfl

theorem h2_scale : after hostOps2 W (Proc.devRef .tc main_v55) = rowOfVec (W (Proc.devRef .tc main_arg4)) := by
  host_line; rfl

theorem h2_shift : after hostOps2 W (Proc.devRef .tc main_v56) = rowOfVec (W (Proc.devRef .tc main_arg5)) := by
  host_line; rfl

theorem h2_keep_v44 : after hostOps2 W (Proc.devRef .tc main_v44) = W (Proc.devRef .tc main_v44) := by kept hostOps2
theorem h2_keep_v45 : after hostOps2 W (Proc.devRef .tc main_v45) = W (Proc.devRef .tc main_v45) := by kept hostOps2
theorem h2_keep_v3 : after hostOps2 W (Proc.devRef .tc main_v3) = W (Proc.devRef .tc main_v3) := by kept hostOps2
theorem h2_keep_v6 : after hostOps2 W (Proc.devRef .tc main_v6) = W (Proc.devRef .tc main_v6) := by kept hostOps2
theorem h2_keep_v28 : after hostOps2 W (Proc.devRef .tc main_v28) = W (Proc.devRef .tc main_v28) := by kept hostOps2
theorem h2_keep_arg6 : after hostOps2 W (Proc.devRef .tc main_arg6) = W (Proc.devRef .tc main_arg6) := by kept hostOps2
theorem h2_keep_arg7 : after hostOps2 W (Proc.devRef .tc main_arg7) = W (Proc.devRef .tc main_arg7) := by kept hostOps2
theorem h2_keep_arg8 : after hostOps2 W (Proc.devRef .tc main_arg8) = W (Proc.devRef .tc main_arg8) := by kept hostOps2
theorem h2_keep_arg9 : after hostOps2 W (Proc.devRef .tc main_arg9) = W (Proc.devRef .tc main_arg9) := by kept hostOps2

/-! ## The fourth stretch: the second aggregation, and the second bias as a row -/

theorem h3_agg : after hostOps3 W (Proc.devRef .tc main_v72)
    = aggOf (W (Proc.devRef .tc main_v3)) (W (Proc.devRef .tc main_v6)) (W (Proc.devRef .tc main_v28)) (W (Proc.devRef .tc main_v57)) := by
  host_line; rfl

theorem h3_bias : after hostOps3 W (Proc.devRef .tc main_v73) = rowOfVec (W (Proc.devRef .tc main_arg7)) := by
  host_line; rfl

theorem h3_keep_arg8 : after hostOps3 W (Proc.devRef .tc main_arg8) = W (Proc.devRef .tc main_arg8) := by kept hostOps3
theorem h3_keep_arg9 : after hostOps3 W (Proc.devRef .tc main_arg9) = W (Proc.devRef .tc main_arg9) := by kept hostOps3

/-! ## The fifth stretch: the second mean and variance, the second scale and shift as rows -/

theorem h4_mean : after hostOps4 W (Proc.devRef .tc main_v78) = meanOfTiles (W (Proc.devRef .tc main_v74_0)) := by
  host_line; rfl

theorem h4_var : after hostOps4 W (Proc.devRef .tc main_v82)
    = varOfTiles (W (Proc.devRef .tc main_v74_0)) (W (Proc.devRef .tc main_v74_1)) := by
  host_line; rfl

theorem h4_scale : after hostOps4 W (Proc.devRef .tc main_v83) = rowOfVec (W (Proc.devRef .tc main_arg8)) := by
  host_line; rfl

theorem h4_shift : after hostOps4 W (Proc.devRef .tc main_v84) = rowOfVec (W (Proc.devRef .tc main_arg9)) := by
  host_line; rfl

theorem h4_keep_v72 : after hostOps4 W (Proc.devRef .tc main_v72) = W (Proc.devRef .tc main_v72) := by kept hostOps4
theorem h4_keep_v73 : after hostOps4 W (Proc.devRef .tc main_v73) = W (Proc.devRef .tc main_v73) := by kept hostOps4

end Cert.KernelIdeal.KHost

end
-- ==== Proof.KSpec.lean ====
/-
  The whole-array functions the five pipelines compute, index by index on the extended reals, over literal shapes:
  a matrix product, per-tile column sums and sums of squares, and the normalisation of an array by per-column rows.
-/
import Idealize.ShloMosaic.PureOps.Ideal
import Idealize.ShloMosaic.Lib.ValueIdx

noncomputable section

namespace Cert.KSpec

open Idealize.ShloMosaic Idealize.ShloMosaic.ValueIdx

abbrev SN64 : Shape := ⟨2, ![50000, 64]⟩
abbrev SN128 : Shape := ⟨2, ![50000, 128]⟩
abbrev SRow : Shape := ⟨2, ![1, 64]⟩
abbrev STiles : Shape := ⟨3, ![10, 1, 64]⟩

/-- Row r of tile t among the 50000 rows. -/
def rowOf (t : Fin 10) (r : Fin 5000) : Fin 50000 := ⟨t.val * 5000 + r.val, by omega⟩

/-- Per tile and column: the sum over the tile's rows of the entry plus the column's bias. -/
def tileSum (a : SN64.Idx → EReal) (b : SRow.Idx → EReal) : STiles.Idx → EReal :=
  fun i => ∑ r : Fin 5000, (a (ix2 (rowOf (i 0) r) (i 2)) + b (ix2 (0 : Fin 1) (i 2)))

/-- Per tile and column: the sum over the tile's rows of the square of the entry plus the column's bias. -/
def tileSumSq (a : SN64.Idx → EReal) (b : SRow.Idx → EReal) : STiles.Idx → EReal :=
  fun i => ∑ r : Fin 5000, ((a (ix2 (rowOf (i 0) r) (i 2)) + b (ix2 (0 : Fin 1) (i 2)))
    * (a (ix2 (rowOf (i 0) r) (i 2)) + b (ix2 (0 : Fin 1) (i 2))))

/-- One entry of a normalised array: the entry plus its bias, centred, scaled by the inverse deviation, then the affine map. -/
def bnEntry (a b μ σ γ β : EReal) : EReal :=
  ((a + b) - μ) * Ideal.rsqrt (σ + Ideal.ofBits .f32 0x3727C5AC#32) * γ + β

/-- The normalisation of a whole array by per-column rows. -/
def bnArr (a : SN64.Idx → EReal) (b μ σ γ β : SRow.Idx → EReal) : SN64.Idx → EReal :=
  fun i => bnEntry (a i) (b (ix2 (0 : Fin 1) (i 1))) (μ (ix2 (0 : Fin 1) (i 1))) (σ (ix2 (0 : Fin 1) (i 1)))
    (γ (ix2 (0 : Fin 1) (i 1))) (β (ix2 (0 : Fin 1) (i 1)))

/-- A matrix product, entry by entry. -/
def mmArr {K : Nat} (x : (⟨2, ![50000, K]⟩ : Shape).Idx → EReal) (w : (⟨2, ![K, 64]⟩ : Shape).Idx → EReal) : SN64.Idx → EReal :=
  fun i => ∑ k : Fin K, x (ix2 (i 0) k) * w (ix2 k (i 1))

/-- The rectified normalisation followed by a matrix product. -/
def bnReluMm (a : SN64.Idx → EReal) (b μ σ γ β : SRow.Idx → EReal) (w : (⟨2, ![64, 64]⟩ : Shape).Idx → EReal) : SN64.Idx → EReal :=
  mmArr (K := 64) (fun i => max (bnArr a b μ σ γ β i) 0) w

end Cert.KSpec

end
-- ==== Proof.KOut.lean ====
/-
  The tiled program's result as one function of its ten arguments: two rounds of (matrix product, aggregation along the
  edges, per-tile column sums, normalisation), the first rectified and fused with the second product.
-/
import proofs.«112019_j89378269429931_2_alg».proof.Proof.Graph
import proofs.«112019_j89378269429931_2_alg».proof.Proof.KSpec

noncomputable section

namespace Cert.Graph

open Cert.KernelIdeal Cert.KSpec
open Idealize.ShloMosaic

/-- The aggregated first layer before normalisation. -/
def agg1 (x : FVec Ideal S50000x128 .f32) (E : IVec S2x800000 32) (w1 : FVec Ideal S128x64 .f32) : FVec Ideal S50000x64 .f32 :=
  aggOf (srcOf E) (dstOf E) (normOf (srcOf E) (dstOf E)) (mmArr (K := 128) x w1)

/-- The second layer's features: the first layer normalised, rectified, times the second matrix. -/
def feat2 (x : FVec Ideal S50000x128 .f32) (E : IVec S2x800000 32) (w1 : FVec Ideal S128x64 .f32) (b1 g1 be1 : FVec Ideal S64 .f32)
    (w2 : FVec Ideal S64x64 .f32) : FVec Ideal S50000x64 .f32 :=
  bnReluMm (agg1 x E w1) (rowOfVec b1)
    (meanOfTiles (tileSum (agg1 x E w1) (rowOfVec b1)))
    (varOfTiles (tileSum (agg1 x E w1) (rowOfVec b1)) (tileSumSq (agg1 x E w1) (rowOfVec b1)))
    (rowOfVec g1) (rowOfVec be1) w2

/-- The aggregated second layer before normalisation. -/
def agg2 (x : FVec Ideal S50000x128 .f32) (E : IVec S2x800000 32) (w1 : FVec Ideal S128x64 .f32) (b1 g1 be1 : FVec Ideal S64 .f32)
    (w2 : FVec Ideal S64x64 .f32) : FVec Ideal S50000x64 .f32 :=
  aggOf (srcOf E) (dstOf E) (normOf (srcOf E) (dstOf E)) (feat2 x E w1 b1 g1 be1 w2)

/-- The tiled program's result. -/
def kernelOut (x : FVec Ideal S50000x128 .f32) (E : IVec S2x800000 32) (w1 : FVec Ideal S128x64 .f32) (b1 g1 be1 : FVec Ideal S64 .f32)
    (w2 : FVec Ideal S64x64 .f32) (b2 g2 be2 : FVec Ideal S64 .f32) : FVec Ideal S50000x64 .f32 :=
  bnArr (agg2 x E w1 b1 g1 be1 w2) (rowOfVec b2)
    (meanOfTiles (tileSum (agg2 x E w1 b1 g1 be1 w2) (rowOfVec b2)))
    (varOfTiles (tileSum (agg2 x E w1 b1 g1 be1 w2) (rowOfVec b2)) (tileSumSq (agg2 x E w1 b1 g1 be1 w2) (rowOfVec b2)))
    (rowOfVec g2) (rowOfVec be2)

end Cert.Graph

end
-- ==== Proof.KReg0.lean ====
/-
  The first pipeline (a matrix product, ten tiles of 5000 rows against the whole right matrix) as one whole-array function of
  the arrays it finds: every entry of the result is the row of the left matrix against the column of the right matrix.
-/
import proofs.«112019_j89378269429931_2_alg».proof.Proof.Gen.KernelIdeal.Frame
import proofs.«112019_j89378269429931_2_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal0

open Cert.KernelIdeal Cert.KernelIdeal.Gen Cert.KSpec
open Idealize.ShloMosaic Idealize.ShloMosaic.TcCoe Idealize.ShloMosaic.ValueIdx
open Idealize.SL Idealize.SL.Sem
open Idealize.ShloMosaic.Pipeline (Dat Cfg Window)

abbrev D0 := dot_S5000x128_S128x64_S5000x64_1_0_0_1_n_n

/-- The body's value at an entry of the tile: the row of the left tile against the column of the right matrix. -/
theorem mm_pay_apply (x : FVec Ideal S5000x128 .f32) (w : FVec Ideal S128x64 .f32) (p : Fin 5000) (q : Fin 64) :
    k0_pay1 x w (ix2 p q) = ∑ k : Fin 128, x (ix2 p k) * w (ix2 k q) := by
  unfold k0_pay1
  refine (Ideal.matmul_constant_zero_apply D0 none _ _ (ix2 p q)).trans ?_
  refine ((contrEquiv1 D0 128 rfl rfl).symm.sum_comp _).symm.trans ?_
  refine Finset.sum_congr rfl fun k _ => ?_
  have hl : D0.lhsIdx (ix2 p q) ((contrEquiv1 D0 128 rfl rfl).symm k) = ix2 p k := funext fun a => Fin.ext (by
    match a with
    | ⟨0, _⟩ => rfl
    | ⟨1, _⟩ => exact (D0.lhsIdx_val_of_single rfl _ _).trans (contrEquiv1_symm_val D0 128 rfl rfl k))
  have hr : D0.rhsIdx (ix2 p q) ((contrEquiv1 D0 128 rfl rfl).symm k) = ix2 k q := funext fun a => Fin.ext (by
    match a with
    | ⟨0, _⟩ => exact (D0.rhsIdx_val_of_single rfl _ _).trans (contrEquiv1_symm_val D0 128 rfl rfl k)
    | ⟨1, _⟩ => rfl)
  rw [hl, hr]
  rfl

variable (V : (c : Dev nD) → (b : Ref sig .tc) → Buf (Elt Ideal) ((c : Thread nD τ).loc b))

theorem hz : (![0, 0] : Fin 2 → Nat) = fun _ => 0 := funext fun a => by fin_cases a <;> rfl

/-- Where the blocks sit at each of the ten points: the left tile and the result move together down the rows, the right
    matrix stays. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left tile's row p is the result block's row p of the whole left matrix. -/
theorem blk_0 (c : Dev nD) (t : Fin cfg0.N) (p : Fin 5000) (q : Fin 64) (k : Fin 128) :
    iblk0 V c 0 t (ix2 p k) = V c main_arg0 (ix2 ((((cfg0.win 2).blk t).view.emb (ix2 p q)) 0) k) := by
  obtain ⟨e0, e0', e1, e1', e2, e2'⟩ := idx_facts t
  show V c main_arg0 (((cfg0.win 0).blk t).view.emb (ix2 p k)) = _
  refine congrArg _ (funext fun a => Fin.ext ?_)
  match a with
  | ⟨0, _⟩ => show win0_0.index t (0 : Fin 2) * 5000 + 1 * p.val = win0_2.index t (0 : Fin 2) * 5000 + 1 * p.val; omega
  | ⟨1, _⟩ => show win0_0.index t (1 : Fin 2) * 128 + 1 * k.val = k.val; omega

/-- The right matrix's block is the whole matrix, at every point. -/
theorem blk_1 (c : Dev nD) (t : Fin cfg0.N) (p : Fin 5000) (q : Fin 64) (k : Fin 128) :
    iblk0 V c 1 t (ix2 k q) = V c main_arg2 (ix2 k ((((cfg0.win 2).blk t).view.emb (ix2 p q)) 1)) := by
  obtain ⟨e0, e0', e1, e1', e2, e2'⟩ := idx_facts t
  show V c main_arg2 (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = win0_2.index t (1 : Fin 2) * 64 + 1 * q.val; omega

/-- What point t writes back is block t of the product. -/
theorem flushed (c : Dev nD) (t : Fin cfg0.N) :
    (dat0 V c).flushed 2 t = ((cfg0.win 2).blk t).view.read (Elt Ideal) (mmArr (K := 128) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
     = mmArr (K := 128) (V c main_arg0) (V c main_arg2) (((cfg0.win 2).blk t).view.emb (ix2 p q))
  refine (mm_pay_apply (iblk0 V c 0 t) (iblk0 V c 1 t) p q).trans ?_
  unfold mmArr
  refine Finset.sum_congr rfl fun k _ => ?_
  rw [blk_0 V c t p q k, blk_1 V c t p q k]

/-- An index of the result is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- Every row lies in the tile of its quotient by 5000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have ht : (i 0).val / 5000 < cfg0.N := by show _ < 10; omega
  obtain ⟨e0, e0', e1, e1', e2, e2'⟩ := idx_facts ⟨(i 0).val / 5000, ht⟩
  refine ⟨⟨(i 0).val / 5000, ht⟩, flush0_2 _, ?_⟩
  rw [mem_blk]
  intro a
  match a with
  | ⟨0, _⟩ => show win0_2.index _ (0 : Fin 2) * 5000 ≤ (i 0).val ∧ (i 0).val < win0_2.index _ (0 : Fin 2) * 5000 + 5000; simp only at e2; omega
  | ⟨1, _⟩ => show win0_2.index _ (1 : Fin 2) * 64 ≤ (i 1).val ∧ (i 1).val < win0_2.index _ (1 : Fin 2) * 64 + 64; omega

/-- The result array after the pipeline: the product. -/
theorem final (c : Dev nD) : (dat0 V c).arrAt 2 cfg0.N = mmArr (K := 128) (V c main_arg0) (V c main_arg2) :=
  (dat0 V c).arrAt_eq_of_cover 2 _ (fun t _ => flushed V c t) cover

end Cert.KernelIdeal.KVal0

end
-- ==== Proof.KReg1.lean ====
/-
  A pass of per-tile column sums (ten tiles of 5000 rows) as whole-array functions of the arrays it finds: for every tile and
  column, the sum over the tile's rows of the aggregated entry plus the column's bias, and the sum of the squares of the same.
-/
import proofs.«112019_j89378269429931_2_alg».proof.Proof.Gen.KernelIdeal.Frame
import proofs.«112019_j89378269429931_2_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal1

open Cert.KernelIdeal Cert.KernelIdeal.Gen Cert.KSpec
open Idealize.ShloMosaic Idealize.ShloMosaic.TcCoe Idealize.ShloMosaic.ValueIdx
open Idealize.SL Idealize.SL.Sem
open Idealize.ShloMosaic.Pipeline (Dat Cfg Window)

/-- The inserted index of the row reduction: row r, column q. -/
theorem lift_eq (q : Fin 64) (r : Fin 5000) : reduces_S5000x64_S64.lift (ix1 q) r = ix2 r q :=
  funext fun a => Fin.ext (by match a with | ⟨0, _⟩ => rfl | ⟨1, _⟩ => rfl)

/-- The body's first value: the sums of a tile's 5000 rows, bias added, column by column. -/
theorem pay_sum_apply (x0 : FVec Ideal S5000x64 .f32) (x1 : FVec Ideal S1x64 .f32) (q : Fin 64) :
    k1_pay2 x0 x1 (ix3 0 0 q) = ∑ r : Fin 5000, (x0 (ix2 r q) + x1 (ix2 0 q)) := by
  unfold k1_pay2 k1_pay1
  simp only [shapeCast_self]
  refine (shapeCast_ab_1ab_apply _ _ 0 0 q).trans ?_
  refine (shapeCast_a_1a_apply _ _ 0 q).trans ?_
  refine (Ideal.multiReduction_add_single _ _ reduces_S5000x64_S64 _ _ (ix1 q)).trans ?_
  show (∑ r : Fin 5000, addf x0 (broadcastTo S5000x64 x1 broadcasts_S1x64_S5000x64) (reduces_S5000x64_S64.lift (ix1 q) r)) = _
  refine Finset.sum_congr rfl fun r _ => ?_
  rw [lift_eq q r, addf_apply, broadcastTo_1b_ab_apply]

/-- The body's second value: the sums of the squares. -/
theorem pay_sq_apply (x0 : FVec Ideal S5000x64 .f32) (x1 : FVec Ideal S1x64 .f32) (q : Fin 64) :
    k1_pay3 x0 x1 (ix3 0 0 q)
      = ∑ r : Fin 5000, ((x0 (ix2 r q) + x1 (ix2 0 q)) * (x0 (ix2 r q) + x1 (ix2 0 q))) := by
  unfold k1_pay3 k1_pay1
  simp only [shapeCast_self]
  refine (shapeCast_ab_1ab_apply _ _ 0 0 q).trans ?_
  refine (shapeCast_a_1a_apply _ _ 0 q).trans ?_
  refine (Ideal.multiReduction_add_single _ _ reduces_S5000x64_S64 _ _ (ix1 q)).trans ?_
  show (∑ r : Fin 5000, mulf (addf x0 (broadcastTo S5000x64 x1 broadcasts_S1x64_S5000x64)) (addf x0 (broadcastTo S5000x64 x1 broadcasts_S1x64_S5000x64)) (reduces_S5000x64_S64.lift (ix1 q) r)) = _
  refine Finset.sum_congr rfl fun r _ => ?_
  rw [lift_eq q r, mulf_apply, addf_apply, broadcastTo_1b_ab_apply]

variable (V : (c : Dev nD) → (b : Ref sig .tc) → Buf (Elt Ideal) ((c : Thread nD τ).loc b))

/-- Where the blocks sit at each of the ten points: the tile moves down the rows with the point, the bias row stays, each
    result block is the point's own slot. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- The tile's block at point t is rows 5000 t … 5000 t + 4999. -/
theorem blk_0 (c : Dev nD) (t : Fin cfg1.N) (r : Fin 5000) (q : Fin 64) :
    iblk1 V c 0 t (ix2 r q) = V c main_v44 (ix2 (rowOf ⟨t.val, t.isLt⟩ r) q) := by
  obtain ⟨e0, e0', e1, e1', e2, e2', e2'', e3, e3', e3''⟩ := idx_facts t
  show V c main_v44 (((cfg1.win 0).blk t).view.emb (ix2 r q)) = _
  refine congrArg _ (funext fun a => Fin.ext ?_)
  match a with
  | ⟨0, _⟩ => show win1_0.index t (0 : Fin 2) * 5000 + 1 * r.val = t.val * 5000 + r.val; omega
  | ⟨1, _⟩ => show win1_0.index t (1 : Fin 2) * 64 + 1 * q.val = q.val; omega

/-- The bias row's block is the whole row, at every point. -/
theorem blk_1 (c : Dev nD) (t : Fin cfg1.N) (q : Fin 64) :
    iblk1 V c 1 t (ix2 0 q) = V c main_v45 (ix2 (0 : Fin 1) q) := by
  obtain ⟨e0, e0', e1, e1', e2, e2', e2'', e3, e3', e3''⟩ := idx_facts t
  show V c main_v45 (((cfg1.win 1).blk t).view.emb (ix2 0 q)) = _
  refine congrArg _ (funext fun a => Fin.ext ?_)
  match a with
  | ⟨0, _⟩ => show win1_1.index t (0 : Fin 2) * 1 + 1 * 0 = 0; omega
  | ⟨1, _⟩ => show win1_1.index t (1 : Fin 2) * 64 + 1 * q.val = q.val; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The slot of point t in result array 0. -/
theorem emb_out2 (t : Fin cfg1.N) (q : Fin 64) :
    ((cfg1.win 2).blk t).view.emb (ix3 0 0 q) = (ix3 (⟨t.val, t.isLt⟩ : Fin 10) (0 : Fin 1) q : S10x1x64.Idx) := by
  obtain ⟨e0, e0', e1, e1', e2, e2', e2'', e3, e3', e3''⟩ := idx_facts t
  refine funext fun a => Fin.ext ?_
  match a with
  | ⟨0, _⟩ => show win1_2.index t (0 : Fin 3) * 1 + 1 * 0 = t.val; omega
  | ⟨1, _⟩ => show win1_2.index t (1 : Fin 3) * 1 + 1 * 0 = 0; omega
  | ⟨2, _⟩ => show win1_2.index t (2 : Fin 3) * 64 + 1 * q.val = q.val; omega

/-- The slot of point t in result array 1. -/
theorem emb_out3 (t : Fin cfg1.N) (q : Fin 64) :
    ((cfg1.win 3).blk t).view.emb (ix3 0 0 q) = (ix3 (⟨t.val, t.isLt⟩ : Fin 10) (0 : Fin 1) q : S10x1x64.Idx) := by
  obtain ⟨e0, e0', e1, e1', e2, e2', e2'', e3, e3', e3''⟩ := idx_facts t
  refine funext fun a => Fin.ext ?_
  match a with
  | ⟨0, _⟩ => show win1_3.index t (0 : Fin 3) * 1 + 1 * 0 = t.val; omega
  | ⟨1, _⟩ => show win1_3.index t (1 : Fin 3) * 1 + 1 * 0 = 0; omega
  | ⟨2, _⟩ => show win1_3.index t (2 : Fin 3) * 64 + 1 * q.val = q.val; omega

/-- What point t writes back to result array 0 is slot t of the tile sum. -/
theorem flushed_sum (c : Dev nD) (t : Fin cfg1.N) :
    (dat1 V c).flushed 2 t = ((cfg1.win 2).blk t).view.read (Elt Ideal) (tileSum (V c main_v44) (V c main_v45)) := by
  show (cfg1.win 2).cut (grid1.coords t) ((dat1 V c).after 2 t) = _
  rw [after1_2]
  unfold out1_2
  rw [View.canon_unit_zero hz3]
  simp only [View.ld_unit_zero (S := S5000x64) hz2, View.ld_unit_zero (S := S1x64) hz2]
  funext j
  obtain ⟨u0, u1, q, rfl⟩ : ∃ (u0 u1 : Fin 1) (q : Fin 64), j = ix3 u0 u1 q := ⟨j 0, j 1, j 2, eq_ix3 j⟩
  obtain rfl : u0 = 0 := Subsingleton.elim _ _
  obtain rfl : u1 = 0 := Subsingleton.elim _ _
  show k1_pay2 (iblk1 V c 0 t) (iblk1 V c 1 t) (ix3 0 0 q)
     = tileSum (V c main_v44) (V c main_v45) (((cfg1.win 2).blk t).view.emb (ix3 0 0 q))
  rw [emb_out2 t q]
  refine (pay_sum_apply (iblk1 V c 0 t) (iblk1 V c 1 t) q).trans ?_
  unfold tileSum
  refine Finset.sum_congr rfl fun r _ => ?_
  rw [blk_0 V c t r q, blk_1 V c t q]

/-- What point t writes back to result array 1 is slot t of the tile sq. -/
theorem flushed_sq (c : Dev nD) (t : Fin cfg1.N) :
    (dat1 V c).flushed 3 t = ((cfg1.win 3).blk t).view.read (Elt Ideal) (tileSumSq (V c main_v44) (V c main_v45)) := by
  show (cfg1.win 3).cut (grid1.coords t) ((dat1 V c).after 3 t) = _
  rw [after1_3]
  unfold out1_3
  rw [View.canon_unit_zero hz3]
  simp only [View.ld_unit_zero (S := S5000x64) hz2, View.ld_unit_zero (S := S1x64) hz2]
  funext j
  obtain ⟨u0, u1, q, rfl⟩ : ∃ (u0 u1 : Fin 1) (q : Fin 64), j = ix3 u0 u1 q := ⟨j 0, j 1, j 2, eq_ix3 j⟩
  obtain rfl : u0 = 0 := Subsingleton.elim _ _
  obtain rfl : u1 = 0 := Subsingleton.elim _ _
  show k1_pay3 (iblk1 V c 0 t) (iblk1 V c 1 t) (ix3 0 0 q)
     = tileSumSq (V c main_v44) (V c main_v45) (((cfg1.win 3).blk t).view.emb (ix3 0 0 q))
  rw [emb_out3 t q]
  refine (pay_sq_apply (iblk1 V c 0 t) (iblk1 V c 1 t) q).trans ?_
  unfold tileSumSq
  refine Finset.sum_congr rfl fun r _ => ?_
  rw [blk_0 V c t r q, blk_1 V c t q]

/-- An index of result array 0 is in point t's block iff each coordinate is in the block's range on its axis. -/
theorem mem_blk2 (t : Fin cfg1.N) (i : S10x1x64.Idx) :
    i ∈ ((cfg1.win 2).blk t).view.set ↔ ∀ a : Fin 3, win1_2.index t a * S1x1x64.size a ≤ (i a).val ∧ (i a).val < win1_2.index t a * S1x1x64.size a + S1x1x64.size a := by
  show i ∈ ((View.whole main_v46_0).slice (win1_2.rect t)).set ↔ _
  rw [View.set_slice_whole, Rect.mem_set_unit]
  exact Iff.rfl

/-- Every slot of result array 0 is some point's. -/
theorem cover_out2 (i : S10x1x64.Idx) :
    ∃ t : Fin cfg1.N, (cfg1.win 2).flush t = true ∧ i ∈ ((cfg1.win 2).blk t).view.set := by
  have hi0 : (i 0).val < 10 := (i 0).isLt
  have hi1 : (i 1).val < 1 := (i 1).isLt
  have hi2 : (i 2).val < 64 := (i 2).isLt
  have ht : (i 0).val < cfg1.N := by show _ < 10; omega
  obtain ⟨e0, e0', e1, e1', e2, e2', e2'', e3, e3', e3''⟩ := idx_facts ⟨(i 0).val, ht⟩
  refine ⟨⟨(i 0).val, ht⟩, flush1_2 _, ?_⟩
  rw [mem_blk2]
  intro a
  match a with
  | ⟨0, _⟩ => show win1_2.index _ (0 : Fin 3) * 1 ≤ (i 0).val ∧ (i 0).val < win1_2.index _ (0 : Fin 3) * 1 + 1; simp only at e2 e3; omega
  | ⟨1, _⟩ => show win1_2.index _ (1 : Fin 3) * 1 ≤ (i 1).val ∧ (i 1).val < win1_2.index _ (1 : Fin 3) * 1 + 1; omega
  | ⟨2, _⟩ => show win1_2.index _ (2 : Fin 3) * 64 ≤ (i 2).val ∧ (i 2).val < win1_2.index _ (2 : Fin 3) * 64 + 64; omega

/-- An index of result array 1 is in point t's block iff each coordinate is in the block's range on its axis. -/
theorem mem_blk3 (t : Fin cfg1.N) (i : S10x1x64.Idx) :
    i ∈ ((cfg1.win 3).blk t).view.set ↔ ∀ a : Fin 3, win1_3.index t a * S1x1x64.size a ≤ (i a).val ∧ (i a).val < win1_3.index t a * S1x1x64.size a + S1x1x64.size a := by
  show i ∈ ((View.whole main_v46_1).slice (win1_3.rect t)).set ↔ _
  rw [View.set_slice_whole, Rect.mem_set_unit]
  exact Iff.rfl

/-- Every slot of result array 1 is some point's. -/
theorem cover_out3 (i : S10x1x64.Idx) :
    ∃ t : Fin cfg1.N, (cfg1.win 3).flush t = true ∧ i ∈ ((cfg1.win 3).blk t).view.set := by
  have hi0 : (i 0).val < 10 := (i 0).isLt
  have hi1 : (i 1).val < 1 := (i 1).isLt
  have hi2 : (i 2).val < 64 := (i 2).isLt
  have ht : (i 0).val < cfg1.N := by show _ < 10; omega
  obtain ⟨e0, e0', e1, e1', e2, e2', e2'', e3, e3', e3''⟩ := idx_facts ⟨(i 0).val, ht⟩
  refine ⟨⟨(i 0).val, ht⟩, flush1_3 _, ?_⟩
  rw [mem_blk3]
  intro a
  match a with
  | ⟨0, _⟩ => show win1_3.index _ (0 : Fin 3) * 1 ≤ (i 0).val ∧ (i 0).val < win1_3.index _ (0 : Fin 3) * 1 + 1; simp only at e2 e3; omega
  | ⟨1, _⟩ => show win1_3.index _ (1 : Fin 3) * 1 ≤ (i 1).val ∧ (i 1).val < win1_3.index _ (1 : Fin 3) * 1 + 1; omega
  | ⟨2, _⟩ => show win1_3.index _ (2 : Fin 3) * 64 ≤ (i 2).val ∧ (i 2).val < win1_3.index _ (2 : Fin 3) * 64 + 64; omega

/-- The sums array after the pipeline. -/
theorem final_sum (c : Dev nD) : (dat1 V c).arrAt 2 cfg1.N = tileSum (V c main_v44) (V c main_v45) :=
  (dat1 V c).arrAt_eq_of_cover 2 _ (fun t _ => flushed_sum V c t) cover_out2

/-- The sums-of-squares array after the pipeline. -/
theorem final_sq (c : Dev nD) : (dat1 V c).arrAt 3 cfg1.N = tileSumSq (V c main_v44) (V c main_v45) :=
  (dat1 V c).arrAt_eq_of_cover 3 _ (fun t _ => flushed_sq V c t) cover_out3

end Cert.KernelIdeal.KVal1

end
-- ==== Proof.KReg2.lean ====
/-
  The middle pipeline (bias, normalisation, scale and shift, rectifier, then a matrix product; ten tiles of 5000 rows) as one
  whole-array function of the arrays it finds: every entry of the result is the rectified normalised row against the
  column of the right matrix.
-/
import proofs.«112019_j89378269429931_2_alg».proof.Proof.Gen.KernelIdeal.Frame
import proofs.«112019_j89378269429931_2_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal2

open Cert.KernelIdeal Cert.KernelIdeal.Gen Cert.KSpec
open Idealize.ShloMosaic Idealize.ShloMosaic.TcCoe Idealize.ShloMosaic.ValueIdx
open Idealize.SL Idealize.SL.Sem
open Idealize.ShloMosaic.Pipeline (Dat Cfg Window)

abbrev D2 := dot_S5000x64_S64x64_S5000x64_1_0_0_1_n_n

/-- The rectified normalised tile at an entry. -/
theorem act_apply (x0 : FVec Ideal S5000x64 .f32) (x1 x2 x3 x4 x5 : FVec Ideal S1x64 .f32) (p : Fin 5000) (k : Fin 64) :
    maximumf (addf (mulf (mulf (subf (addf x0 (broadcastTo S5000x64 x1 broadcasts_S1x64_S5000x64))
            (broadcastTo S5000x64 x2 broadcasts_S1x64_S5000x64))
          (broadcastTo S5000x64 (rsqrt (addf x3 (broadcast S1x64 (Scalar.ofBits .f32 0x3727C5AC#32)))) broadcasts_S1x64_S5000x64))
        (broadcastTo S5000x64 x4 broadcasts_S1x64_S5000x64))
      (broadcastTo S5000x64 x5 broadcasts_S1x64_S5000x64)) (broadcast S5000x64 (Scalar.ofBits .f32 0x00000000#32)) (ix2 p k)
      = max (bnEntry (x0 (ix2 p k)) (x1 (ix2 0 k)) (x2 (ix2 0 k)) (x3 (ix2 0 k)) (x4 (ix2 0 k)) (x5 (ix2 0 k))) 0 := by
  simp only [maximumf_apply, addf_apply, mulf_apply, subf_apply, broadcastTo_1b_ab_apply, broadcast_apply]
  show max _ (Ideal.ofBits .f32 0x00000000#32) = _
  rw [Ideal.ofBits_zero_f32]
  rfl

/-- The body's value at an entry of the tile: the rectified normalised row against the column of the right matrix. -/
theorem pay_apply (x0 : FVec Ideal S5000x64 .f32) (x1 x2 x3 x4 x5 : FVec Ideal S1x64 .f32) (w : FVec Ideal S64x64 .f32)
    (p : Fin 5000) (q : Fin 64) :
    k2_pay1 (F := Ideal) x0 x1 x2 x3 x4 x5 w (ix2 p q)
      = ∑ k : Fin 64, max (bnEntry (x0 (ix2 p k)) (x1 (ix2 0 k)) (x2 (ix2 0 k)) (x3 (ix2 0 k)) (x4 (ix2 0 k)) (x5 (ix2 0 k))) 0
          * w (ix2 k q) := by
  unfold k2_pay1
  simp only [shapeCast_self]
  refine (Ideal.matmul_constant_zero_apply D2 none _ _ (ix2 p q)).trans ?_
  refine ((contrEquiv1 D2 64 rfl rfl).symm.sum_comp _).symm.trans ?_
  refine Finset.sum_congr rfl fun k _ => ?_
  have hl : D2.lhsIdx (ix2 p q) ((contrEquiv1 D2 64 rfl rfl).symm k) = ix2 p k := funext fun a => Fin.ext (by
    match a with
    | ⟨0, _⟩ => rfl
    | ⟨1, _⟩ => exact (D2.lhsIdx_val_of_single rfl _ _).trans (contrEquiv1_symm_val D2 64 rfl rfl k))
  have hr : D2.rhsIdx (ix2 p q) ((contrEquiv1 D2 64 rfl rfl).symm k) = ix2 k q := funext fun a => Fin.ext (by
    match a with
    | ⟨0, _⟩ => exact (D2.rhsIdx_val_of_single rfl _ _).trans (contrEquiv1_symm_val D2 64 rfl rfl k)
    | ⟨1, _⟩ => rfl)
  rw [hl, hr]
  exact congrArg (· * w (ix2 k q)) (act_apply x0 x1 x2 x3 x4 x5 p k)

variable (V : (c : Dev nD) → (b : Ref sig .tc) → Buf (Elt Ideal) ((c : Thread nD τ).loc b))

theorem hz : (![0, 0] : Fin 2 → Nat) = fun _ => 0 := funext fun a => by fin_cases a <;> rfl

/-- Where the blocks sit at each of the ten points: the tile and the result move together down the rows, the five rows and
    the right matrix stay. -/
theorem idx_facts : ∀ t : Fin cfg2.N,
    win2_0.index t (0 : Fin 2) = win2_7.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The tile's row p is the result block's row p of the whole array. -/
theorem blk_0 (c : Dev nD) (t : Fin cfg2.N) (p : Fin 5000) (q : Fin 64) (k : Fin 64) :
    iblk2 V c 0 t (ix2 p k) = V c main_v44 (ix2 ((((cfg2.win 7).blk t).view.emb (ix2 p q)) 0) k) := by
  obtain ⟨e0, e0', e1, e1', e2, e2', e3, e3', e4, e4', e5, e5', e6, e6', e7, e7'⟩ := idx_facts t
  show V c main_v44 (((cfg2.win 0).blk t).view.emb (ix2 p k)) = _
  refine congrArg _ (funext fun a => Fin.ext ?_)
  match a with
  | ⟨0, _⟩ => show win2_0.index t (0 : Fin 2) * 5000 + 1 * p.val = win2_7.index t (0 : Fin 2) * 5000 + 1 * p.val; omega
  | ⟨1, _⟩ => show win2_0.index t (1 : Fin 2) * 64 + 1 * k.val = k.val; omega

/-- Row window 1's block is the whole row, at every point. -/
theorem blk_1 (c : Dev nD) (t : Fin cfg2.N) (k : Fin 64) :
    iblk2 V c 1 t (ix2 0 k) = V c main_v45 (ix2 (0 : Fin 1) k) := by
  obtain ⟨e0, e0', e1, e1', e2, e2', e3, e3', e4, e4', e5, e5', e6, e6', e7, e7'⟩ := idx_facts t
  show V c main_v45 (((cfg2.win 1).blk t).view.emb (ix2 0 k)) = _
  refine congrArg _ (funext fun a => Fin.ext ?_)
  match a with
  | ⟨0, _⟩ => show win2_1.index t (0 : Fin 2) * 1 + 1 * 0 = 0; omega
  | ⟨1, _⟩ => show win2_1.index t (1 : Fin 2) * 64 + 1 * k.val = k.val; omega

/-- Row window 2's block is the whole row, at every point. -/
theorem blk_2 (c : Dev nD) (t : Fin cfg2.N) (k : Fin 64) :
    iblk2 V c 2 t (ix2 0 k) = V c main_v50 (ix2 (0 : Fin 1) k) := by
  obtain ⟨e0, e0', e1, e1', e2, e2', e3, e3', e4, e4', e5, e5', e6, e6', e7, e7'⟩ := idx_facts t
  show V c main_v50 (((cfg2.win 2).blk t).view.emb (ix2 0 k)) = _
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * k.val = k.val; omega

/-- Row window 3's block is the whole row, at every point. -/
theorem blk_3 (c : Dev nD) (t : Fin cfg2.N) (k : Fin 64) :
    iblk2 V c 3 t (ix2 0 k) = V c main_v54 (ix2 (0 : Fin 1) k) := by
  obtain ⟨e0, e0', e1, e1', e2, e2', e3, e3', e4, e4', e5, e5', e6, e6', e7, e7'⟩ := idx_facts t
  show V c main_v54 (((cfg2.win 3).blk t).view.emb (ix2 0 k)) = _
  refine congrArg _ (funext fun a => Fin.ext ?_)
  match a with
  | ⟨0, _⟩ => show win2_3.index t (0 : Fin 2) * 1 + 1 * 0 = 0; omega
  | ⟨1, _⟩ => show win2_3.index t (1 : Fin 2) * 64 + 1 * k.val = k.val; omega

/-- Row window 4's block is the whole row, at every point. -/
theorem blk_4 (c : Dev nD) (t : Fin cfg2.N) (k : Fin 64) :
    iblk2 V c 4 t (ix2 0 k) = V c main_v55 (ix2 (0 : Fin 1) k) := by
  obtain ⟨e0, e0', e1, e1', e2, e2', e3, e3', e4, e4', e5, e5', e6, e6', e7, e7'⟩ := idx_facts t
  show V c main_v55 (((cfg2.win 4).blk t).view.emb (ix2 0 k)) = _
  refine congrArg _ (funext fun a => Fin.ext ?_)
  match a with
  | ⟨0, _⟩ => show win2_4.index t (0 : Fin 2) * 1 + 1 * 0 = 0; omega
  | ⟨1, _⟩ => show win2_4.index t (1 : Fin 2) * 64 + 1 * k.val = k.val; omega

/-- Row window 5's block is the whole row, at every point. -/
theorem blk_5 (c : Dev nD) (t : Fin cfg2.N) (k : Fin 64) :
    iblk2 V c 5 t (ix2 0 k) = V c main_v56 (ix2 (0 : Fin 1) k) := by
  obtain ⟨e0, e0', e1, e1', e2, e2', e3, e3', e4, e4', e5, e5', e6, e6', e7, e7'⟩ := idx_facts t
  show V c main_v56 (((cfg2.win 5).blk t).view.emb (ix2 0 k)) = _
  refine congrArg _ (funext fun a => Fin.ext ?_)
  match a with
  | ⟨0, _⟩ => show win2_5.index t (0 : Fin 2) * 1 + 1 * 0 = 0; omega
  | ⟨1, _⟩ => show win2_5.index t (1 : Fin 2) * 64 + 1 * k.val = k.val; omega

/-- The right matrix's block is the whole matrix, at every point. -/
theorem blk_6 (c : Dev nD) (t : Fin cfg2.N) (p : Fin 5000) (q : Fin 64) (k : Fin 64) :
    iblk2 V c 6 t (ix2 k q) = V c main_arg6 (ix2 k ((((cfg2.win 7).blk t).view.emb (ix2 p q)) 1)) := by
  obtain ⟨e0, e0', e1, e1', e2, e2', e3, e3', e4, e4', e5, e5', e6, e6', e7, e7'⟩ := idx_facts t
  show V c main_arg6 (((cfg2.win 6).blk t).view.emb (ix2 k q)) = _
  refine congrArg _ (funext fun a => Fin.ext ?_)
  match a with
  | ⟨0, _⟩ => show win2_6.index t (0 : Fin 2) * 64 + 1 * k.val = k.val; omega
  | ⟨1, _⟩ => show win2_6.index t (1 : Fin 2) * 64 + 1 * q.val = win2_7.index t (1 : Fin 2) * 64 + 1 * q.val; omega

/-- What point t writes back is block t of the rectified normalised array times the right matrix. -/
theorem flushed (c : Dev nD) (t : Fin cfg2.N) :
    (dat2 V c).flushed 7 t = ((cfg2.win 7).blk t).view.read (Elt Ideal)
      (bnReluMm (V c main_v44) (V c main_v45) (V c main_v50) (V c main_v54) (V c main_v55) (V c main_v56) (V c main_arg6)) := by
  show (cfg2.win 7).cut (grid2.coords t) ((dat2 V c).after 7 t) = _
  rw [after2_7]
  unfold out2_7
  rw [View.canon_unit_zero hz]
  simp only [View.ld_unit_zero (S := S5000x64) hz, View.ld_unit_zero (S := S1x64) hz, View.ld_unit_zero (S := S64x64) hz]
  funext j
  obtain ⟨p, q, rfl⟩ : ∃ (p : Fin 5000) (q : Fin 64), j = ix2 p q := ⟨j 0, j 1, eq_ix2 j⟩
  show k2_pay1 (iblk2 V c 0 t) (iblk2 V c 1 t) (iblk2 V c 2 t) (iblk2 V c 3 t) (iblk2 V c 4 t) (iblk2 V c 5 t) (iblk2 V c 6 t) (ix2 p q)
     = bnReluMm (V c main_v44) (V c main_v45) (V c main_v50) (V c main_v54) (V c main_v55) (V c main_v56) (V c main_arg6)
        (((cfg2.win 7).blk t).view.emb (ix2 p q))
  refine (pay_apply (iblk2 V c 0 t) (iblk2 V c 1 t) (iblk2 V c 2 t) (iblk2 V c 3 t) (iblk2 V c 4 t) (iblk2 V c 5 t) (iblk2 V c 6 t) p q).trans ?_
  unfold bnReluMm mmArr bnArr
  refine Finset.sum_congr rfl fun k _ => ?_
  rw [blk_0 V c t p q k, blk_1 V c t k, blk_2 V c t k, blk_3 V c t k, blk_4 V c t k, blk_5 V c t k, blk_6 V c t p q k]

/-- An index of the result is in point t's block iff each coordinate is in the block's range on its axis. -/
theorem mem_blk (t : Fin cfg2.N) (i : S50000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v57).slice (win2_7.rect t)).set ↔ _
  rw [View.set_slice_whole, Rect.mem_set_unit]
  exact Iff.rfl

/-- Every row lies in the tile of its quotient by 5000. -/
theorem cover (i : S50000x64.Idx) : ∃ t : Fin cfg2.N, (cfg2.win 7).flush t = true ∧ i ∈ ((cfg2.win 7).blk t).view.set := by
  have hi0 : (i 0).val < 50000 := (i 0).isLt
  have hi1 : (i 1).val < 64 := (i 1).isLt
  have ht : (i 0).val / 5000 < cfg2.N := by show _ < 10; omega
  obtain ⟨e0, e0', e1, e1', e2, e2', e3, e3', e4, e4', e5, e5', e6, e6', e7, e7'⟩ := idx_facts ⟨(i 0).val / 5000, ht⟩
  refine ⟨⟨(i 0).val / 5000, ht⟩, flush2_7 _, ?_⟩
  rw [mem_blk]
  intro a
  match a with
  | ⟨0, _⟩ => show win2_7.index _ (0 : Fin 2) * 5000 ≤ (i 0).val ∧ (i 0).val < win2_7.index _ (0 : Fin 2) * 5000 + 5000; simp only at e7; omega
  | ⟨1, _⟩ => show win2_7.index _ (1 : Fin 2) * 64 ≤ (i 1).val ∧ (i 1).val < win2_7.index _ (1 : Fin 2) * 64 + 64; omega

/-- The result array after the pipeline. -/
theorem final (c : Dev nD) : (dat2 V c).arrAt 7 cfg2.N
    = bnReluMm (V c main_v44) (V c main_v45) (V c main_v50) (V c main_v54) (V c main_v55) (V c main_v56) (V c main_arg6) :=
  (dat2 V c).arrAt_eq_of_cover 7 _ (fun t _ => flushed V c t) cover

end Cert.KernelIdeal.KVal2

end
-- ==== Proof.KReg3.lean ====
/-
  A pass of per-tile column sums (ten tiles of 5000 rows) as whole-array functions of the arrays it finds: for every tile and
  column, the sum over the tile's rows of the aggregated entry plus the column's bias, and the sum of the squares of the same.
-/
import proofs.«112019_j89378269429931_2_alg».proof.Proof.Gen.KernelIdeal.Frame
import proofs.«112019_j89378269429931_2_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal3

open Cert.KernelIdeal Cert.KernelIdeal.Gen Cert.KSpec
open Idealize.ShloMosaic Idealize.ShloMosaic.TcCoe Idealize.ShloMosaic.ValueIdx
open Idealize.SL Idealize.SL.Sem
open Idealize.ShloMosaic.Pipeline (Dat Cfg Window)

/-- The inserted index of the row reduction: row r, column q. -/
theorem lift_eq (q : Fin 64) (r : Fin 5000) : reduces_S5000x64_S64.lift (ix1 q) r = ix2 r q :=
  funext fun a => Fin.ext (by match a with | ⟨0, _⟩ => rfl | ⟨1, _⟩ => rfl)

/-- The body's first value: the sums of a tile's 5000 rows, bias added, column by column. -/
theorem pay_sum_apply (x0 : FVec Ideal S5000x64 .f32) (x1 : FVec Ideal S1x64 .f32) (q : Fin 64) :
    k3_pay2 x0 x1 (ix3 0 0 q) = ∑ r : Fin 5000, (x0 (ix2 r q) + x1 (ix2 0 q)) := by
  unfold k3_pay2 k3_pay1
  simp only [shapeCast_self]
  refine (shapeCast_ab_1ab_apply _ _ 0 0 q).trans ?_
  refine (shapeCast_a_1a_apply _ _ 0 q).trans ?_
  refine (Ideal.multiReduction_add_single _ _ reduces_S5000x64_S64 _ _ (ix1 q)).trans ?_
  show (∑ r : Fin 5000, addf x0 (broadcastTo S5000x64 x1 broadcasts_S1x64_S5000x64) (reduces_S5000x64_S64.lift (ix1 q) r)) = _
  refine Finset.sum_congr rfl fun r _ => ?_
  rw [lift_eq q r, addf_apply, broadcastTo_1b_ab_apply]

/-- The body's second value: the sums of the squares. -/
theorem pay_sq_apply (x0 : FVec Ideal S5000x64 .f32) (x1 : FVec Ideal S1x64 .f32) (q : Fin 64) :
    k3_pay3 x0 x1 (ix3 0 0 q)
      = ∑ r : Fin 5000, ((x0 (ix2 r q) + x1 (ix2 0 q)) * (x0 (ix2 r q) + x1 (ix2 0 q))) := by
  unfold k3_pay3 k3_pay1
  simp only [shapeCast_self]
  refine (shapeCast_ab_1ab_apply _ _ 0 0 q).trans ?_
  refine (shapeCast_a_1a_apply _ _ 0 q).trans ?_
  refine (Ideal.multiReduction_add_single _ _ reduces_S5000x64_S64 _ _ (ix1 q)).trans ?_
  show (∑ r : Fin 5000, mulf (addf x0 (broadcastTo S5000x64 x1 broadcasts_S1x64_S5000x64)) (addf x0 (broadcastTo S5000x64 x1 broadcasts_S1x64_S5000x64)) (reduces_S5000x64_S64.lift (ix1 q) r)) = _
  refine Finset.sum_congr rfl fun r _ => ?_
  rw [lift_eq q r, mulf_apply, addf_apply, broadcastTo_1b_ab_apply]

variable (V : (c : Dev nD) → (b : Ref sig .tc) → Buf (Elt Ideal) ((c : Thread nD τ).loc b))

/-- Where the blocks sit at each of the ten points: the tile moves down the rows with the point, the bias row stays, each
    result block is the point's own slot. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 3) = t.val ∧ win3_2.index t (1 : Fin 3) = 0 ∧ win3_2.index t (2 : Fin 3) = 0
    ∧ win3_3.index t (0 : Fin 3) = t.val ∧ win3_3.index t (1 : Fin 3) = 0 ∧ win3_3.index t (2 : Fin 3) = 0 :=
  (by decide +kernel : ∀ t : Fin grid3.N, _)

/-- The tile's block at point t is rows 5000 t … 5000 t + 4999. -/
theorem blk_0 (c : Dev nD) (t : Fin cfg3.N) (r : Fin 5000) (q : Fin 64) :
    iblk3 V c 0 t (ix2 r q) = V c main_v72 (ix2 (rowOf ⟨t.val, t.isLt⟩ r) q) := by
  obtain ⟨e0, e0', e1, e1', e2, e2', e2'', e3, e3', e3''⟩ := idx_facts t
  show V c main_v72 (((cfg3.win 0).blk t).view.emb (ix2 r q)) = _
  refine congrArg _ (funext fun a => Fin.ext ?_)
  match a with
  | ⟨0, _⟩ => show win3_0.index t (0 : Fin 2) * 5000 + 1 * r.val = t.val * 5000 + r.val; omega
  | ⟨1, _⟩ => show win3_0.index t (1 : Fin 2) * 64 + 1 * q.val = q.val; omega

/-- The bias row's block is the whole row, at every point. -/
theorem blk_1 (c : Dev nD) (t : Fin cfg3.N) (q : Fin 64) :
    iblk3 V c 1 t (ix2 0 q) = V c main_v73 (ix2 (0 : Fin 1) q) := by
  obtain ⟨e0, e0', e1, e1', e2, e2', e2'', e3, e3', e3''⟩ := idx_facts t
  show V c main_v73 (((cfg3.win 1).blk t).view.emb (ix2 0 q)) = _
  refine congrArg _ (funext fun a => Fin.ext ?_)
  match a with
  | ⟨0, _⟩ => show win3_1.index t (0 : Fin 2) * 1 + 1 * 0 = 0; omega
  | ⟨1, _⟩ => show win3_1.index t (1 : Fin 2) * 64 + 1 * q.val = q.val; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The slot of point t in result array 0. -/
theorem emb_out2 (t : Fin cfg3.N) (q : Fin 64) :
    ((cfg3.win 2).blk t).view.emb (ix3 0 0 q) = (ix3 (⟨t.val, t.isLt⟩ : Fin 10) (0 : Fin 1) q : S10x1x64.Idx) := by
  obtain ⟨e0, e0', e1, e1', e2, e2', e2'', e3, e3', e3''⟩ := idx_facts t
  refine funext fun a => Fin.ext ?_
  match a with
  | ⟨0, _⟩ => show win3_2.index t (0 : Fin 3) * 1 + 1 * 0 = t.val; omega
  | ⟨1, _⟩ => show win3_2.index t (1 : Fin 3) * 1 + 1 * 0 = 0; omega
  | ⟨2, _⟩ => show win3_2.index t (2 : Fin 3) * 64 + 1 * q.val = q.val; omega

/-- The slot of point t in result array 1. -/
theorem emb_out3 (t : Fin cfg3.N) (q : Fin 64) :
    ((cfg3.win 3).blk t).view.emb (ix3 0 0 q) = (ix3 (⟨t.val, t.isLt⟩ : Fin 10) (0 : Fin 1) q : S10x1x64.Idx) := by
  obtain ⟨e0, e0', e1, e1', e2, e2', e2'', e3, e3', e3''⟩ := idx_facts t
  refine funext fun a => Fin.ext ?_
  match a with
  | ⟨0, _⟩ => show win3_3.index t (0 : Fin 3) * 1 + 1 * 0 = t.val; omega
  | ⟨1, _⟩ => show win3_3.index t (1 : Fin 3) * 1 + 1 * 0 = 0; omega
  | ⟨2, _⟩ => show win3_3.index t (2 : Fin 3) * 64 + 1 * q.val = q.val; omega

/-- What point t writes back to result array 0 is slot t of the tile sum. -/
theorem flushed_sum (c : Dev nD) (t : Fin cfg3.N) :
    (dat3 V c).flushed 2 t = ((cfg3.win 2).blk t).view.read (Elt Ideal) (tileSum (V c main_v72) (V c main_v73)) := by
  show (cfg3.win 2).cut (grid3.coords t) ((dat3 V c).after 2 t) = _
  rw [after3_2]
  unfold out3_2
  rw [View.canon_unit_zero hz3]
  simp only [View.ld_unit_zero (S := S5000x64) hz2, View.ld_unit_zero (S := S1x64) hz2]
  funext j
  obtain ⟨u0, u1, q, rfl⟩ : ∃ (u0 u1 : Fin 1) (q : Fin 64), j = ix3 u0 u1 q := ⟨j 0, j 1, j 2, eq_ix3 j⟩
  obtain rfl : u0 = 0 := Subsingleton.elim _ _
  obtain rfl : u1 = 0 := Subsingleton.elim _ _
  show k3_pay2 (iblk3 V c 0 t) (iblk3 V c 1 t) (ix3 0 0 q)
     = tileSum (V c main_v72) (V c main_v73) (((cfg3.win 2).blk t).view.emb (ix3 0 0 q))
  rw [emb_out2 t q]
  refine (pay_sum_apply (iblk3 V c 0 t) (iblk3 V c 1 t) q).trans ?_
  unfold tileSum
  refine Finset.sum_congr rfl fun r _ => ?_
  rw [blk_0 V c t r q, blk_1 V c t q]

/-- What point t writes back to result array 1 is slot t of the tile sq. -/
theorem flushed_sq (c : Dev nD) (t : Fin cfg3.N) :
    (dat3 V c).flushed 3 t = ((cfg3.win 3).blk t).view.read (Elt Ideal) (tileSumSq (V c main_v72) (V c main_v73)) := by
  show (cfg3.win 3).cut (grid3.coords t) ((dat3 V c).after 3 t) = _
  rw [after3_3]
  unfold out3_3
  rw [View.canon_unit_zero hz3]
  simp only [View.ld_unit_zero (S := S5000x64) hz2, View.ld_unit_zero (S := S1x64) hz2]
  funext j
  obtain ⟨u0, u1, q, rfl⟩ : ∃ (u0 u1 : Fin 1) (q : Fin 64), j = ix3 u0 u1 q := ⟨j 0, j 1, j 2, eq_ix3 j⟩
  obtain rfl : u0 = 0 := Subsingleton.elim _ _
  obtain rfl : u1 = 0 := Subsingleton.elim _ _
  show k3_pay3 (iblk3 V c 0 t) (iblk3 V c 1 t) (ix3 0 0 q)
     = tileSumSq (V c main_v72) (V c main_v73) (((cfg3.win 3).blk t).view.emb (ix3 0 0 q))
  rw [emb_out3 t q]
  refine (pay_sq_apply (iblk3 V c 0 t) (iblk3 V c 1 t) q).trans ?_
  unfold tileSumSq
  refine Finset.sum_congr rfl fun r _ => ?_
  rw [blk_0 V c t r q, blk_1 V c t q]

/-- An index of result array 0 is in point t's block iff each coordinate is in the block's range on its axis. -/
theorem mem_blk2 (t : Fin cfg3.N) (i : S10x1x64.Idx) :
    i ∈ ((cfg3.win 2).blk t).view.set ↔ ∀ a : Fin 3, win3_2.index t a * S1x1x64.size a ≤ (i a).val ∧ (i a).val < win3_2.index t a * S1x1x64.size a + S1x1x64.size a := by
  show i ∈ ((View.whole main_v74_0).slice (win3_2.rect t)).set ↔ _
  rw [View.set_slice_whole, Rect.mem_set_unit]
  exact Iff.rfl

/-- Every slot of result array 0 is some point's. -/
theorem cover_out2 (i : S10x1x64.Idx) :
    ∃ t : Fin cfg3.N, (cfg3.win 2).flush t = true ∧ i ∈ ((cfg3.win 2).blk t).view.set := by
  have hi0 : (i 0).val < 10 := (i 0).isLt
  have hi1 : (i 1).val < 1 := (i 1).isLt
  have hi2 : (i 2).val < 64 := (i 2).isLt
  have ht : (i 0).val < cfg3.N := by show _ < 10; omega
  obtain ⟨e0, e0', e1, e1', e2, e2', e2'', e3, e3', e3''⟩ := idx_facts ⟨(i 0).val, ht⟩
  refine ⟨⟨(i 0).val, ht⟩, flush3_2 _, ?_⟩
  rw [mem_blk2]
  intro a
  match a with
  | ⟨0, _⟩ => show win3_2.index _ (0 : Fin 3) * 1 ≤ (i 0).val ∧ (i 0).val < win3_2.index _ (0 : Fin 3) * 1 + 1; simp only at e2 e3; omega
  | ⟨1, _⟩ => show win3_2.index _ (1 : Fin 3) * 1 ≤ (i 1).val ∧ (i 1).val < win3_2.index _ (1 : Fin 3) * 1 + 1; omega
  | ⟨2, _⟩ => show win3_2.index _ (2 : Fin 3) * 64 ≤ (i 2).val ∧ (i 2).val < win3_2.index _ (2 : Fin 3) * 64 + 64; omega

/-- An index of result array 1 is in point t's block iff each coordinate is in the block's range on its axis. -/
theorem mem_blk3 (t : Fin cfg3.N) (i : S10x1x64.Idx) :
    i ∈ ((cfg3.win 3).blk t).view.set ↔ ∀ a : Fin 3, win3_3.index t a * S1x1x64.size a ≤ (i a).val ∧ (i a).val < win3_3.index t a * S1x1x64.size a + S1x1x64.size a := by
  show i ∈ ((View.whole main_v74_1).slice (win3_3.rect t)).set ↔ _
  rw [View.set_slice_whole, Rect.mem_set_unit]
  exact Iff.rfl

/-- Every slot of result array 1 is some point's. -/
theorem cover_out3 (i : S10x1x64.Idx) :
    ∃ t : Fin cfg3.N, (cfg3.win 3).flush t = true ∧ i ∈ ((cfg3.win 3).blk t).view.set := by
  have hi0 : (i 0).val < 10 := (i 0).isLt
  have hi1 : (i 1).val < 1 := (i 1).isLt
  have hi2 : (i 2).val < 64 := (i 2).isLt
  have ht : (i 0).val < cfg3.N := by show _ < 10; omega
  obtain ⟨e0, e0', e1, e1', e2, e2', e2'', e3, e3', e3''⟩ := idx_facts ⟨(i 0).val, ht⟩
  refine ⟨⟨(i 0).val, ht⟩, flush3_3 _, ?_⟩
  rw [mem_blk3]
  intro a
  match a with
  | ⟨0, _⟩ => show win3_3.index _ (0 : Fin 3) * 1 ≤ (i 0).val ∧ (i 0).val < win3_3.index _ (0 : Fin 3) * 1 + 1; simp only at e2 e3; omega
  | ⟨1, _⟩ => show win3_3.index _ (1 : Fin 3) * 1 ≤ (i 1).val ∧ (i 1).val < win3_3.index _ (1 : Fin 3) * 1 + 1; omega
  | ⟨2, _⟩ => show win3_3.index _ (2 : Fin 3) * 64 ≤ (i 2).val ∧ (i 2).val < win3_3.index _ (2 : Fin 3) * 64 + 64; omega

/-- The sums array after the pipeline. -/
theorem final_sum (c : Dev nD) : (dat3 V c).arrAt 2 cfg3.N = tileSum (V c main_v72) (V c main_v73) :=
  (dat3 V c).arrAt_eq_of_cover 2 _ (fun t _ => flushed_sum V c t) cover_out2

/-- The sums-of-squares array after the pipeline. -/
theorem final_sq (c : Dev nD) : (dat3 V c).arrAt 3 cfg3.N = tileSumSq (V c main_v72) (V c main_v73) :=
  (dat3 V c).arrAt_eq_of_cover 3 _ (fun t _ => flushed_sq V c t) cover_out3

end Cert.KernelIdeal.KVal3

end
-- ==== Proof.KReg4.lean ====
/-
  The last pipeline (bias, normalisation, scale and shift; ten tiles of 5000 rows) as one whole-array function of the arrays it
  finds: every entry of its result is the entry of the aggregated array plus the bias of its column, minus the column's mean,
  times the inverse square root of the column's variance plus epsilon, times the column's scale, plus the column's shift.
-/
import proofs.«112019_j89378269429931_2_alg».proof.Proof.Gen.KernelIdeal.Frame
import proofs.«112019_j89378269429931_2_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal4

open Cert.KernelIdeal Cert.KernelIdeal.Gen Cert.KSpec
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- The body's value at an entry of the tile. -/
theorem pay4_apply (x0 : Vec Ideal S5000x64 .f32) (x1 x2 x3 x4 x5 : Vec Ideal S1x64 .f32) (p : Fin 5000) (q : Fin 64) :
    k4_pay1 x0 x1 x2 x3 x4 x5 (ix2 p q)
      = bnEntry (x0 (ix2 p q)) (x1 (ix2 0 q)) (x2 (ix2 0 q)) (x3 (ix2 0 q)) (x4 (ix2 0 q)) (x5 (ix2 0 q)) := by
  unfold k4_pay1 bnEntry
  simp only [shapeCast_self]
  simp only [addf_apply, mulf_apply, subf_apply, broadcastTo_1b_ab_apply]
  rfl

variable (V : (c : Dev nD) → (b : Ref sig .tc) → Buf (Elt Ideal) ((c : Thread nD τ).loc b))

/-- Where the windows' blocks sit at each of the ten points: the tile and the result move together down the rows, the
    six rows stay. -/
theorem idx_facts4 : ∀ t : Fin cfg4.N,
    win4_0.index t (0 : Fin 2) = win4_6.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The tile window's block at a point sits where the result's block sits. -/
theorem blk4_0 (c : Dev nD) (t : Fin cfg4.N) (p : Fin 5000) (q : Fin 64) :
    iblk4 V c 0 t (ix2 p q) = V c main_v72 (((cfg4.win 6).blk t).view.emb (ix2 p q)) := by
  obtain ⟨e0, e0', e1, e1', e2, e2', e3, e3', e4, e4', e5, e5', e6, e6'⟩ := idx_facts4 t
  show V c main_v72 (((cfg4.win 0).blk t).view.emb (ix2 p q)) = _
  refine congrArg _ (funext fun a => Fin.ext ?_)
  match a with
  | ⟨0, _⟩ => show win4_0.index t (0 : Fin 2) * 5000 + 1 * p.val = win4_6.index t (0 : Fin 2) * 5000 + 1 * p.val; omega
  | ⟨1, _⟩ => show win4_0.index t (1 : Fin 2) * 64 + 1 * q.val = win4_6.index t (1 : Fin 2) * 64 + 1 * q.val; omega

/-- Row window 1's block is the whole row, at every point. -/
theorem blk4_1 (c : Dev nD) (t : Fin cfg4.N) (p : Fin 5000) (q : Fin 64) :
    iblk4 V c 1 t (ix2 0 q) = V c main_v73 (ix2 (0 : Fin 1) ((((cfg4.win 6).blk t).view.emb (ix2 p q)) 1)) := by
  obtain ⟨e0, e0', e1, e1', e2, e2', e3, e3', e4, e4', e5, e5', e6, e6'⟩ := idx_facts4 t
  show V c main_v73 (((cfg4.win 1).blk t).view.emb (ix2 0 q)) = _
  refine congrArg _ (funext fun a => Fin.ext ?_)
  match a with
  | ⟨0, _⟩ => show win4_1.index t (0 : Fin 2) * 1 + 1 * 0 = 0; omega
  | ⟨1, _⟩ => show win4_1.index t (1 : Fin 2) * 64 + 1 * q.val = win4_6.index t (1 : Fin 2) * 64 + 1 * q.val; omega

/-- Row window 2's block is the whole row, at every point. -/
theorem blk4_2 (c : Dev nD) (t : Fin cfg4.N) (p : Fin 5000) (q : Fin 64) :
    iblk4 V c 2 t (ix2 0 q) = V c main_v78 (ix2 (0 : Fin 1) ((((cfg4.win 6).blk t).view.emb (ix2 p q)) 1)) := by
  obtain ⟨e0, e0', e1, e1', e2, e2', e3, e3', e4, e4', e5, e5', e6, e6'⟩ := idx_facts4 t
  show V c main_v78 (((cfg4.win 2).blk t).view.emb (ix2 0 q)) = _
  refine congrArg _ (funext fun a => Fin.ext ?_)
  match a with
  | ⟨0, _⟩ => show win4_2.index t (0 : Fin 2) * 1 + 1 * 0 = 0; omega
  | ⟨1, _⟩ => show win4_2.index t (1 : Fin 2) * 64 + 1 * q.val = win4_6.index t (1 : Fin 2) * 64 + 1 * q.val; omega

/-- Row window 3's block is the whole row, at every point. -/
theorem blk4_3 (c : Dev nD) (t : Fin cfg4.N) (p : Fin 5000) (q : Fin 64) :
    iblk4 V c 3 t (ix2 0 q) = V c main_v82 (ix2 (0 : Fin 1) ((((cfg4.win 6).blk t).view.emb (ix2 p q)) 1)) := by
  obtain ⟨e0, e0', e1, e1', e2, e2', e3, e3', e4, e4', e5, e5', e6, e6'⟩ := idx_facts4 t
  show V c main_v82 (((cfg4.win 3).blk t).view.emb (ix2 0 q)) = _
  refine congrArg _ (funext fun a => Fin.ext ?_)
  match a with
  | ⟨0, _⟩ => show win4_3.index t (0 : Fin 2) * 1 + 1 * 0 = 0; omega
  | ⟨1, _⟩ => show win4_3.index t (1 : Fin 2) * 64 + 1 * q.val = win4_6.index t (1 : Fin 2) * 64 + 1 * q.val; omega

/-- Row window 4's block is the whole row, at every point. -/
theorem blk4_4 (c : Dev nD) (t : Fin cfg4.N) (p : Fin 5000) (q : Fin 64) :
    iblk4 V c 4 t (ix2 0 q) = V c main_v83 (ix2 (0 : Fin 1) ((((cfg4.win 6).blk t).view.emb (ix2 p q)) 1)) := by
  obtain ⟨e0, e0', e1, e1', e2, e2', e3, e3', e4, e4', e5, e5', e6, e6'⟩ := idx_facts4 t
  show V c main_v83 (((cfg4.win 4).blk t).view.emb (ix2 0 q)) = _
  refine congrArg _ (funext fun a => Fin.ext ?_)
  match a with
  | ⟨0, _⟩ => show win4_4.index t (0 : Fin 2) * 1 + 1 * 0 = 0; omega
  | ⟨1, _⟩ => show win4_4.index t (1 : Fin 2) * 64 + 1 * q.val = win4_6.index t (1 : Fin 2) * 64 + 1 * q.val; omega

/-- Row window 5's block is the whole row, at every point. -/
theorem blk4_5 (c : Dev nD) (t : Fin cfg4.N) (p : Fin 5000) (q : Fin 64) :
    iblk4 V c 5 t (ix2 0 q) = V c main_v84 (ix2 (0 : Fin 1) ((((cfg4.win 6).blk t).view.emb (ix2 p q)) 1)) := by
  obtain ⟨e0, e0', e1, e1', e2, e2', e3, e3', e4, e4', e5, e5', e6, e6'⟩ := idx_facts4 t
  show V c main_v84 (((cfg4.win 5).blk t).view.emb (ix2 0 q)) = _
  refine congrArg _ (funext fun a => Fin.ext ?_)
  match a with
  | ⟨0, _⟩ => show win4_5.index t (0 : Fin 2) * 1 + 1 * 0 = 0; omega
  | ⟨1, _⟩ => show win4_5.index t (1 : Fin 2) * 64 + 1 * q.val = win4_6.index t (1 : Fin 2) * 64 + 1 * q.val; omega

/-- What point t writes back is block t of the normalised array. -/
theorem flushed4 (c : Dev nD) (t : Fin cfg4.N) :
    (dat4 V c).flushed 6 t = ((cfg4.win 6).blk t).view.read (Elt Ideal)
      (bnArr (V c main_v72) (V c main_v73) (V c main_v78) (V c main_v82) (V c main_v83) (V c main_v84)) := by
  show (cfg4.win 6).cut (grid4.coords t) ((dat4 V c).after 6 t) = _
  rw [after4_6]
  unfold out4_6
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  show k4_pay1 (iblk4 V c 0 t) (iblk4 V c 1 t) (iblk4 V c 2 t) (iblk4 V c 3 t) (iblk4 V c 4 t) (iblk4 V c 5 t) (ix2 p q)
     = bnArr (V c main_v72) (V c main_v73) (V c main_v78) (V c main_v82) (V c main_v83) (V c main_v84) (((cfg4.win 6).blk t).view.emb (ix2 p q))
  refine (pay4_apply (iblk4 V c 0 t) (iblk4 V c 1 t) (iblk4 V c 2 t) (iblk4 V c 3 t) (iblk4 V c 4 t) (iblk4 V c 5 t) p q).trans ?_
  unfold bnArr
  rw [blk4_0 V c t p q, blk4_1 V c t p q, blk4_2 V c t p q, blk4_3 V c t p q, blk4_4 V c t p q, blk4_5 V c t p q]

/-- An index of the result is in point t's block iff each coordinate is in the block's range on its axis. -/
theorem mem_blk4 (t : Fin cfg4.N) (i : S50000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v85).slice (win4_6.rect t)).set ↔ _
  rw [View.set_slice_whole, Rect.mem_set_unit]
  exact Iff.rfl

/-- Every row lies in the tile of its quotient by 5000. -/
theorem cover4 (i : S50000x64.Idx) : ∃ t : Fin cfg4.N, (cfg4.win 6).flush t = true ∧ i ∈ ((cfg4.win 6).blk t).view.set := by
  have hi0 : (i 0).val < 50000 := (i 0).isLt
  have hi1 : (i 1).val < 64 := (i 1).isLt
  have ht : (i 0).val / 5000 < cfg4.N := by show _ < 10; omega
  obtain ⟨e0, e0', e1, e1', e2, e2', e3, e3', e4, e4', e5, e5', e6, e6'⟩ := idx_facts4 ⟨(i 0).val / 5000, ht⟩
  refine ⟨⟨(i 0).val / 5000, ht⟩, flush4_6 _, ?_⟩
  rw [mem_blk4]
  intro a
  match a with
  | ⟨0, _⟩ => show win4_6.index _ (0 : Fin 2) * 5000 ≤ (i 0).val ∧ (i 0).val < win4_6.index _ (0 : Fin 2) * 5000 + 5000; simp only at e6; omega
  | ⟨1, _⟩ => show win4_6.index _ (1 : Fin 2) * 64 ≤ (i 1).val ∧ (i 1).val < win4_6.index _ (1 : Fin 2) * 64 + 64; omega

/-- The result array after the pipeline: the normalised array. -/
theorem final4 (c : Dev nD) : (dat4 V c).arrAt 6 cfg4.N
    = bnArr (V c main_v72) (V c main_v73) (V c main_v78) (V c main_v82) (V c main_v83) (V c main_v84) :=
  (dat4 V c).arrAt_eq_of_cover 6 _ (fun t _ => flushed4 V c t) cover4

end Cert.KernelIdeal.KVal4

end
-- ==== Proof.KChain.lean ====
/-
  The tiled program's buffers at each of the ten boundaries between its host stretches and its pipelines, as functions of the
  launch contents of the ten arguments: what each stretch computes and leaves alone, what each pipeline writes back (its
  whole-array function of the arrays it found) and leaves alone. At the last boundary the result buffer holds the program's
  result function of the arguments.
-/
import proofs.«112019_j89378269429931_2_alg».proof.Proof.KHost
import proofs.«112019_j89378269429931_2_alg».proof.Proof.KOut
import proofs.«112019_j89378269429931_2_alg».proof.Proof.KReg0
import proofs.«112019_j89378269429931_2_alg».proof.Proof.KReg1
import proofs.«112019_j89378269429931_2_alg».proof.Proof.KReg2
import proofs.«112019_j89378269429931_2_alg».proof.Proof.KReg3
import proofs.«112019_j89378269429931_2_alg».proof.Proof.KReg4

set_option maxRecDepth 16384

noncomputable section

namespace Cert.KernelIdeal.KChain

open Cert.KernelIdeal Cert.KernelIdeal.Gen Cert.Graph Cert.KSpec
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

theorem b1_v3 : W1 m ρ c (Proc.devRef .tc main_v3) = srcOf (W0 m ρ c (Proc.devRef .tc main_arg1)) :=
  KHost.h0_src _

theorem b1_v6 : W1 m ρ c (Proc.devRef .tc main_v6) = dstOf (W0 m ρ c (Proc.devRef .tc main_arg1)) :=
  KHost.h0_dst _

theorem b1_v28 : W1 m ρ c (Proc.devRef .tc main_v28) = normOf (srcOf (W0 m ρ c (Proc.devRef .tc main_arg1))) (dstOf (W0 m ρ c (Proc.devRef .tc main_arg1))) :=
  KHost.h0_norm _

theorem b1_arg0 : W1 m ρ c (Proc.devRef .tc main_arg0) = W0 m ρ c (Proc.devRef .tc main_arg0) :=
  KHost.h0_keep_arg0 _

theorem b1_arg2 : W1 m ρ c (Proc.devRef .tc main_arg2) = W0 m ρ c (Proc.devRef .tc main_arg2) :=
  KHost.h0_keep_arg2 _

theorem b1_arg3 : W1 m ρ c (Proc.devRef .tc main_arg3) = W0 m ρ c (Proc.devRef .tc main_arg3) :=
  KHost.h0_keep_arg3 _

theorem b1_arg4 : W1 m ρ c (Proc.devRef .tc main_arg4) = W0 m ρ c (Proc.devRef .tc main_arg4) :=
  KHost.h0_keep_arg4 _

theorem b1_arg5 : W1 m ρ c (Proc.devRef .tc main_arg5) = W0 m ρ c (Proc.devRef .tc main_arg5) :=
  KHost.h0_keep_arg5 _

theorem b1_arg6 : W1 m ρ c (Proc.devRef .tc main_arg6) = W0 m ρ c (Proc.devRef .tc main_arg6) :=
  KHost.h0_keep_arg6 _

theorem b1_arg7 : W1 m ρ c (Proc.devRef .tc main_arg7) = W0 m ρ c (Proc.devRef .tc main_arg7) :=
  KHost.h0_keep_arg7 _

theorem b1_arg8 : W1 m ρ c (Proc.devRef .tc main_arg8) = W0 m ρ c (Proc.devRef .tc main_arg8) :=
  KHost.h0_keep_arg8 _

theorem b1_arg9 : W1 m ρ c (Proc.devRef .tc main_arg9) = W0 m ρ c (Proc.devRef .tc main_arg9) :=
  KHost.h0_keep_arg9 _

theorem b2_v29 : W2 m ρ c (Proc.devRef .tc main_v29) = mmArr (K := 128) (W0 m ρ c (Proc.devRef .tc main_arg0)) (W0 m ρ c (Proc.devRef .tc main_arg2)) :=
  (W2_arr m ρ c 2).trans ((KVal0.final (V1 m ρ) c).trans (congrArg₂ (mmArr (K := 128)) (b1_arg0 m ρ c) (b1_arg2 m ρ c)))

theorem b2_v3 : W2 m ρ c (Proc.devRef .tc main_v3) = srcOf (W0 m ρ c (Proc.devRef .tc main_arg1)) :=
  (W2_of_ne m ρ c main_v3 (by decide)).trans (b1_v3 m ρ c)

theorem b2_v6 : W2 m ρ c (Proc.devRef .tc main_v6) = dstOf (W0 m ρ c (Proc.devRef .tc main_arg1)) :=
  (W2_of_ne m ρ c main_v6 (by decide)).trans (b1_v6 m ρ c)

theorem b2_v28 : W2 m ρ c (Proc.devRef .tc main_v28) = normOf (srcOf (W0 m ρ c (Proc.devRef .tc main_arg1))) (dstOf (W0 m ρ c (Proc.devRef .tc main_arg1))) :=
  (W2_of_ne m ρ c main_v28 (by decide)).trans (b1_v28 m ρ c)

theorem b2_arg3 : W2 m ρ c (Proc.devRef .tc main_arg3) = W0 m ρ c (Proc.devRef .tc main_arg3) :=
  (W2_of_ne m ρ c main_arg3 (by decide)).trans (b1_arg3 m ρ c)

theorem b2_arg4 : W2 m ρ c (Proc.devRef .tc main_arg4) = W0 m ρ c (Proc.devRef .tc main_arg4) :=
  (W2_of_ne m ρ c main_arg4 (by decide)).trans (b1_arg4 m ρ c)

theorem b2_arg5 : W2 m ρ c (Proc.devRef .tc main_arg5) = W0 m ρ c (Proc.devRef .tc main_arg5) :=
  (W2_of_ne m ρ c main_arg5 (by decide)).trans (b1_arg5 m ρ c)

theorem b2_arg6 : W2 m ρ c (Proc.devRef .tc main_arg6) = W0 m ρ c (Proc.devRef .tc main_arg6) :=
  (W2_of_ne m ρ c main_arg6 (by decide)).trans (b1_arg6 m ρ c)

theorem b2_arg7 : W2 m ρ c (Proc.devRef .tc main_arg7) = W0 m ρ c (Proc.devRef .tc main_arg7) :=
  (W2_of_ne m ρ c main_arg7 (by decide)).trans (b1_arg7 m ρ c)

theorem b2_arg8 : W2 m ρ c (Proc.devRef .tc main_arg8) = W0 m ρ c (Proc.devRef .tc main_arg8) :=
  (W2_of_ne m ρ c main_arg8 (by decide)).trans (b1_arg8 m ρ c)

theorem b2_arg9 : W2 m ρ c (Proc.devRef .tc main_arg9) = W0 m ρ c (Proc.devRef .tc main_arg9) :=
  (W2_of_ne m ρ c main_arg9 (by decide)).trans (b1_arg9 m ρ c)

theorem b3_v44 : W3 m ρ c (Proc.devRef .tc main_v44) = agg1 (W0 m ρ c (Proc.devRef .tc main_arg0)) (W0 m ρ c (Proc.devRef .tc main_arg1)) (W0 m ρ c (Proc.devRef .tc main_arg2)) :=
  (KHost.h1_agg _).trans (by rw [b2_v3 m ρ c, b2_v6 m ρ c, b2_v28 m ρ c, b2_v29 m ρ c]; rfl)

theorem b3_v45 : W3 m ρ c (Proc.devRef .tc main_v45) = rowOfVec (W0 m ρ c (Proc.devRef .tc main_arg3)) :=
  (KHost.h1_bias _).trans (congrArg rowOfVec (b2_arg3 m ρ c))

theorem b3_v3 : W3 m ρ c (Proc.devRef .tc main_v3) = srcOf (W0 m ρ c (Proc.devRef .tc main_arg1)) :=
  (KHost.h1_keep_v3 _).trans (b2_v3 m ρ c)

theorem b3_v6 : W3 m ρ c (Proc.devRef .tc main_v6) = dstOf (W0 m ρ c (Proc.devRef .tc main_arg1)) :=
  (KHost.h1_keep_v6 _).trans (b2_v6 m ρ c)

theorem b3_v28 : W3 m ρ c (Proc.devRef .tc main_v28) = normOf (srcOf (W0 m ρ c (Proc.devRef .tc main_arg1))) (dstOf (W0 m ρ c (Proc.devRef .tc main_arg1))) :=
  (KHost.h1_keep_v28 _).trans (b2_v28 m ρ c)

theorem b3_arg4 : W3 m ρ c (Proc.devRef .tc main_arg4) = W0 m ρ c (Proc.devRef .tc main_arg4) :=
  (KHost.h1_keep_arg4 _).trans (b2_arg4 m ρ c)

theorem b3_arg5 : W3 m ρ c (Proc.devRef .tc main_arg5) = W0 m ρ c (Proc.devRef .tc main_arg5) :=
  (KHost.h1_keep_arg5 _).trans (b2_arg5 m ρ c)

theorem b3_arg6 : W3 m ρ c (Proc.devRef .tc main_arg6) = W0 m ρ c (Proc.devRef .tc main_arg6) :=
  (KHost.h1_keep_arg6 _).trans (b2_arg6 m ρ c)

theorem b3_arg7 : W3 m ρ c (Proc.devRef .tc main_arg7) = W0 m ρ c (Proc.devRef .tc main_arg7) :=
  (KHost.h1_keep_arg7 _).trans (b2_arg7 m ρ c)

theorem b3_arg8 : W3 m ρ c (Proc.devRef .tc main_arg8) = W0 m ρ c (Proc.devRef .tc main_arg8) :=
  (KHost.h1_keep_arg8 _).trans (b2_arg8 m ρ c)

theorem b3_arg9 : W3 m ρ c (Proc.devRef .tc main_arg9) = W0 m ρ c (Proc.devRef .tc main_arg9) :=
  (KHost.h1_keep_arg9 _).trans (b2_arg9 m ρ c)

theorem b4_v46_0 : W4 m ρ c (Proc.devRef .tc main_v46_0) = tileSum (agg1 (W0 m ρ c (Proc.devRef .tc main_arg0)) (W0 m ρ c (Proc.devRef .tc main_arg1)) (W0 m ρ c (Proc.devRef .tc main_arg2))) (rowOfVec (W0 m ρ c (Proc.devRef .tc main_arg3))) :=
  (W4_arr m ρ c 2).trans ((KVal1.final_sum (V3 m ρ) c).trans (congrArg₂ tileSum (b3_v44 m ρ c) (b3_v45 m ρ c)))

theorem b4_v46_1 : W4 m ρ c (Proc.devRef .tc main_v46_1) = tileSumSq (agg1 (W0 m ρ c (Proc.devRef .tc main_arg0)) (W0 m ρ c (Proc.devRef .tc main_arg1)) (W0 m ρ c (Proc.devRef .tc main_arg2))) (rowOfVec (W0 m ρ c (Proc.devRef .tc main_arg3))) :=
  (W4_arr m ρ c 3).trans ((KVal1.final_sq (V3 m ρ) c).trans (congrArg₂ tileSumSq (b3_v44 m ρ c) (b3_v45 m ρ c)))

theorem b4_v44 : W4 m ρ c (Proc.devRef .tc main_v44) = agg1 (W0 m ρ c (Proc.devRef .tc main_arg0)) (W0 m ρ c (Proc.devRef .tc main_arg1)) (W0 m ρ c (Proc.devRef .tc main_arg2)) :=
  (W4_arr m ρ c 0).trans ((((dat1 (V3 m ρ) c).arrAt_in 0 rfl _).trans (A_eq1 (V3 m ρ) c 0)).trans (b3_v44 m ρ c))

theorem b4_v45 : W4 m ρ c (Proc.devRef .tc main_v45) = rowOfVec (W0 m ρ c (Proc.devRef .tc main_arg3)) :=
  (W4_arr m ρ c 1).trans ((((dat1 (V3 m ρ) c).arrAt_in 1 rfl _).trans (A_eq1 (V3 m ρ) c 1)).trans (b3_v45 m ρ c))

theorem b4_v3 : W4 m ρ c (Proc.devRef .tc main_v3) = srcOf (W0 m ρ c (Proc.devRef .tc main_arg1)) :=
  (W4_of_ne m ρ c main_v3 (by decide)).trans (b3_v3 m ρ c)

theorem b4_v6 : W4 m ρ c (Proc.devRef .tc main_v6) = dstOf (W0 m ρ c (Proc.devRef .tc main_arg1)) :=
  (W4_of_ne m ρ c main_v6 (by decide)).trans (b3_v6 m ρ c)

theorem b4_v28 : W4 m ρ c (Proc.devRef .tc main_v28) = normOf (srcOf (W0 m ρ c (Proc.devRef .tc main_arg1))) (dstOf (W0 m ρ c (Proc.devRef .tc main_arg1))) :=
  (W4_of_ne m ρ c main_v28 (by decide)).trans (b3_v28 m ρ c)

theorem b4_arg4 : W4 m ρ c (Proc.devRef .tc main_arg4) = W0 m ρ c (Proc.devRef .tc main_arg4) :=
  (W4_of_ne m ρ c main_arg4 (by decide)).trans (b3_arg4 m ρ c)

theorem b4_arg5 : W4 m ρ c (Proc.devRef .tc main_arg5) = W0 m ρ c (Proc.devRef .tc main_arg5) :=
  (W4_of_ne m ρ c main_arg5 (by decide)).trans (b3_arg5 m ρ c)

theorem b4_arg6 : W4 m ρ c (Proc.devRef .tc main_arg6) = W0 m ρ c (Proc.devRef .tc main_arg6) :=
  (W4_of_ne m ρ c main_arg6 (by decide)).trans (b3_arg6 m ρ c)

theorem b4_arg7 : W4 m ρ c (Proc.devRef .tc main_arg7) = W0 m ρ c (Proc.devRef .tc main_arg7) :=
  (W4_of_ne m ρ c main_arg7 (by decide)).trans (b3_arg7 m ρ c)

theorem b4_arg8 : W4 m ρ c (Proc.devRef .tc main_arg8) = W0 m ρ c (Proc.devRef .tc main_arg8) :=
  (W4_of_ne m ρ c main_arg8 (by decide)).trans (b3_arg8 m ρ c)

theorem b4_arg9 : W4 m ρ c (Proc.devRef .tc main_arg9) = W0 m ρ c (Proc.devRef .tc main_arg9) :=
  (W4_of_ne m ρ c main_arg9 (by decide)).trans (b3_arg9 m ρ c)

theorem b5_v50 : W5 m ρ c (Proc.devRef .tc main_v50) = meanOfTiles (tileSum (agg1 (W0 m ρ c (Proc.devRef .tc main_arg0)) (W0 m ρ c (Proc.devRef .tc main_arg1)) (W0 m ρ c (Proc.devRef .tc main_arg2))) (rowOfVec (W0 m ρ c (Proc.devRef .tc main_arg3)))) :=
  (KHost.h2_mean _).trans (congrArg meanOfTiles (b4_v46_0 m ρ c))

theorem b5_v54 : W5 m ρ c (Proc.devRef .tc main_v54) = varOfTiles (tileSum (agg1 (W0 m ρ c (Proc.devRef .tc main_arg0)) (W0 m ρ c (Proc.devRef .tc main_arg1)) (W0 m ρ c (Proc.devRef .tc main_arg2))) (rowOfVec (W0 m ρ c (Proc.devRef .tc main_arg3)))) (tileSumSq (agg1 (W0 m ρ c (Proc.devRef .tc main_arg0)) (W0 m ρ c (Proc.devRef .tc main_arg1)) (W0 m ρ c (Proc.devRef .tc main_arg2))) (rowOfVec (W0 m ρ c (Proc.devRef .tc main_arg3)))) :=
  (KHost.h2_var _).trans (congrArg₂ varOfTiles (b4_v46_0 m ρ c) (b4_v46_1 m ρ c))

theorem b5_v55 : W5 m ρ c (Proc.devRef .tc main_v55) = rowOfVec (W0 m ρ c (Proc.devRef .tc main_arg4)) :=
  (KHost.h2_scale _).trans (congrArg rowOfVec (b4_arg4 m ρ c))

theorem b5_v56 : W5 m ρ c (Proc.devRef .tc main_v56) = rowOfVec (W0 m ρ c (Proc.devRef .tc main_arg5)) :=
  (KHost.h2_shift _).trans (congrArg rowOfVec (b4_arg5 m ρ c))

theorem b5_v44 : W5 m ρ c (Proc.devRef .tc main_v44) = agg1 (W0 m ρ c (Proc.devRef .tc main_arg0)) (W0 m ρ c (Proc.devRef .tc main_arg1)) (W0 m ρ c (Proc.devRef .tc main_arg2)) :=
  (KHost.h2_keep_v44 _).trans (b4_v44 m ρ c)

theorem b5_v45 : W5 m ρ c (Proc.devRef .tc main_v45) = rowOfVec (W0 m ρ c (Proc.devRef .tc main_arg3)) :=
  (KHost.h2_keep_v45 _).trans (b4_v45 m ρ c)

theorem b5_v3 : W5 m ρ c (Proc.devRef .tc main_v3) = srcOf (W0 m ρ c (Proc.devRef .tc main_arg1)) :=
  (KHost.h2_keep_v3 _).trans (b4_v3 m ρ c)

theorem b5_v6 : W5 m ρ c (Proc.devRef .tc main_v6) = dstOf (W0 m ρ c (Proc.devRef .tc main_arg1)) :=
  (KHost.h2_keep_v6 _).trans (b4_v6 m ρ c)

theorem b5_v28 : W5 m ρ c (Proc.devRef .tc main_v28) = normOf (srcOf (W0 m ρ c (Proc.devRef .tc main_arg1))) (dstOf (W0 m ρ c (Proc.devRef .tc main_arg1))) :=
  (KHost.h2_keep_v28 _).trans (b4_v28 m ρ c)

theorem b5_arg6 : W5 m ρ c (Proc.devRef .tc main_arg6) = W0 m ρ c (Proc.devRef .tc main_arg6) :=
  (KHost.h2_keep_arg6 _).trans (b4_arg6 m ρ c)

theorem b5_arg7 : W5 m ρ c (Proc.devRef .tc main_arg7) = W0 m ρ c (Proc.devRef .tc main_arg7) :=
  (KHost.h2_keep_arg7 _).trans (b4_arg7 m ρ c)

theorem b5_arg8 : W5 m ρ c (Proc.devRef .tc main_arg8) = W0 m ρ c (Proc.devRef .tc main_arg8) :=
  (KHost.h2_keep_arg8 _).trans (b4_arg8 m ρ c)

theorem b5_arg9 : W5 m ρ c (Proc.devRef .tc main_arg9) = W0 m ρ c (Proc.devRef .tc main_arg9) :=
  (KHost.h2_keep_arg9 _).trans (b4_arg9 m ρ c)

theorem b6_v57 : W6 m ρ c (Proc.devRef .tc main_v57) = feat2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) :=
  (W6_arr m ρ c 7).trans ((KVal2.final (V5 m ρ) c).trans (by show bnReluMm (W5 m ρ c (Proc.devRef .tc main_v44)) (W5 m ρ c (Proc.devRef .tc main_v45)) (W5 m ρ c (Proc.devRef .tc main_v50)) (W5 m ρ c (Proc.devRef .tc main_v54)) (W5 m ρ c (Proc.devRef .tc main_v55)) (W5 m ρ c (Proc.devRef .tc main_v56)) (W5 m ρ c (Proc.devRef .tc main_arg6)) = _; rw [b5_v44 m ρ c, b5_v45 m ρ c, b5_v50 m ρ c, b5_v54 m ρ c, b5_v55 m ρ c, b5_v56 m ρ c, b5_arg6 m ρ c]; rfl))

theorem b6_v3 : W6 m ρ c (Proc.devRef .tc main_v3) = srcOf (W0 m ρ c (Proc.devRef .tc main_arg1)) :=
  (W6_of_ne m ρ c main_v3 (by decide)).trans (b5_v3 m ρ c)

theorem b6_v6 : W6 m ρ c (Proc.devRef .tc main_v6) = dstOf (W0 m ρ c (Proc.devRef .tc main_arg1)) :=
  (W6_of_ne m ρ c main_v6 (by decide)).trans (b5_v6 m ρ c)

theorem b6_v28 : W6 m ρ c (Proc.devRef .tc main_v28) = normOf (srcOf (W0 m ρ c (Proc.devRef .tc main_arg1))) (dstOf (W0 m ρ c (Proc.devRef .tc main_arg1))) :=
  (W6_of_ne m ρ c main_v28 (by decide)).trans (b5_v28 m ρ c)

theorem b6_arg7 : W6 m ρ c (Proc.devRef .tc main_arg7) = W0 m ρ c (Proc.devRef .tc main_arg7) :=
  (W6_of_ne m ρ c main_arg7 (by decide)).trans (b5_arg7 m ρ c)

theorem b6_arg8 : W6 m ρ c (Proc.devRef .tc main_arg8) = W0 m ρ c (Proc.devRef .tc main_arg8) :=
  (W6_of_ne m ρ c main_arg8 (by decide)).trans (b5_arg8 m ρ c)

theorem b6_arg9 : W6 m ρ c (Proc.devRef .tc main_arg9) = W0 m ρ c (Proc.devRef .tc main_arg9) :=
  (W6_of_ne m ρ c main_arg9 (by decide)).trans (b5_arg9 m ρ c)

theorem b7_v72 : W7 m ρ c (Proc.devRef .tc main_v72) = agg2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) :=
  (KHost.h3_agg _).trans (by rw [b6_v3 m ρ c, b6_v6 m ρ c, b6_v28 m ρ c, b6_v57 m ρ c]; rfl)

theorem b7_v73 : W7 m ρ c (Proc.devRef .tc main_v73) = rowOfVec (W0 m ρ c (Proc.devRef .tc main_arg7)) :=
  (KHost.h3_bias _).trans (congrArg rowOfVec (b6_arg7 m ρ c))

theorem b7_arg8 : W7 m ρ c (Proc.devRef .tc main_arg8) = W0 m ρ c (Proc.devRef .tc main_arg8) :=
  (KHost.h3_keep_arg8 _).trans (b6_arg8 m ρ c)

theorem b7_arg9 : W7 m ρ c (Proc.devRef .tc main_arg9) = W0 m ρ c (Proc.devRef .tc main_arg9) :=
  (KHost.h3_keep_arg9 _).trans (b6_arg9 m ρ c)

theorem b8_v74_0 : W8 m ρ c (Proc.devRef .tc main_v74_0) = tileSum (agg2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6))) (rowOfVec (W0 m ρ c (Proc.devRef .tc main_arg7))) :=
  (W8_arr m ρ c 2).trans ((KVal3.final_sum (V7 m ρ) c).trans (congrArg₂ tileSum (b7_v72 m ρ c) (b7_v73 m ρ c)))

theorem b8_v74_1 : W8 m ρ c (Proc.devRef .tc main_v74_1) = tileSumSq (agg2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6))) (rowOfVec (W0 m ρ c (Proc.devRef .tc main_arg7))) :=
  (W8_arr m ρ c 3).trans ((KVal3.final_sq (V7 m ρ) c).trans (congrArg₂ tileSumSq (b7_v72 m ρ c) (b7_v73 m ρ c)))

theorem b8_v72 : W8 m ρ c (Proc.devRef .tc main_v72) = agg2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) :=
  (W8_arr m ρ c 0).trans ((((dat3 (V7 m ρ) c).arrAt_in 0 rfl _).trans (A_eq3 (V7 m ρ) c 0)).trans (b7_v72 m ρ c))

theorem b8_v73 : W8 m ρ c (Proc.devRef .tc main_v73) = rowOfVec (W0 m ρ c (Proc.devRef .tc main_arg7)) :=
  (W8_arr m ρ c 1).trans ((((dat3 (V7 m ρ) c).arrAt_in 1 rfl _).trans (A_eq3 (V7 m ρ) c 1)).trans (b7_v73 m ρ c))

theorem b8_arg8 : W8 m ρ c (Proc.devRef .tc main_arg8) = W0 m ρ c (Proc.devRef .tc main_arg8) :=
  (W8_of_ne m ρ c main_arg8 (by decide)).trans (b7_arg8 m ρ c)

theorem b8_arg9 : W8 m ρ c (Proc.devRef .tc main_arg9) = W0 m ρ c (Proc.devRef .tc main_arg9) :=
  (W8_of_ne m ρ c main_arg9 (by decide)).trans (b7_arg9 m ρ c)

theorem b9_v78 : W9 m ρ c (Proc.devRef .tc main_v78) = meanOfTiles (tileSum (agg2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6))) (rowOfVec (W0 m ρ c (Proc.devRef .tc main_arg7)))) :=
  (KHost.h4_mean _).trans (congrArg meanOfTiles (b8_v74_0 m ρ c))

theorem b9_v82 : W9 m ρ c (Proc.devRef .tc main_v82) = varOfTiles (tileSum (agg2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6))) (rowOfVec (W0 m ρ c (Proc.devRef .tc main_arg7)))) (tileSumSq (agg2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6))) (rowOfVec (W0 m ρ c (Proc.devRef .tc main_arg7)))) :=
  (KHost.h4_var _).trans (congrArg₂ varOfTiles (b8_v74_0 m ρ c) (b8_v74_1 m ρ c))

theorem b9_v83 : W9 m ρ c (Proc.devRef .tc main_v83) = rowOfVec (W0 m ρ c (Proc.devRef .tc main_arg8)) :=
  (KHost.h4_scale _).trans (congrArg rowOfVec (b8_arg8 m ρ c))

theorem b9_v84 : W9 m ρ c (Proc.devRef .tc main_v84) = rowOfVec (W0 m ρ c (Proc.devRef .tc main_arg9)) :=
  (KHost.h4_shift _).trans (congrArg rowOfVec (b8_arg9 m ρ c))

theorem b9_v72 : W9 m ρ c (Proc.devRef .tc main_v72) = agg2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) :=
  (KHost.h4_keep_v72 _).trans (b8_v72 m ρ c)

theorem b9_v73 : W9 m ρ c (Proc.devRef .tc main_v73) = rowOfVec (W0 m ρ c (Proc.devRef .tc main_arg7)) :=
  (KHost.h4_keep_v73 _).trans (b8_v73 m ρ c)

theorem b10_v85 : W10 m ρ c (Proc.devRef .tc main_v85) = kernelOut (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) :=
  (W10_arr m ρ c 6).trans ((KVal4.final4 (V9 m ρ) c).trans (by show bnArr (W9 m ρ c (Proc.devRef .tc main_v72)) (W9 m ρ c (Proc.devRef .tc main_v73)) (W9 m ρ c (Proc.devRef .tc main_v78)) (W9 m ρ c (Proc.devRef .tc main_v82)) (W9 m ρ c (Proc.devRef .tc main_v83)) (W9 m ρ c (Proc.devRef .tc main_v84)) = _; rw [b9_v72 m ρ c, b9_v73 m ρ c, b9_v78 m ρ c, b9_v82 m ρ c, b9_v83 m ρ c, b9_v84 m ρ c]; rfl))

end Cert.KernelIdeal.KChain

end
-- ==== Proof.RefOps.lean ====
/- The reference's host operations, in program order, as five lists — the three printed windows of its entry function, the two long ones cut once more —, each
   module-local function's body written out at its call site over that call's buffers. Only the lists and the fact that every
   operation touches TensorCore buffers only; what the lists compute is stated and proved elsewhere. -/
import proofs.«112019_j89378269429931_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- 36 operations: the first window up to the edge weights. -/
abbrev opsA1 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x2B8CBCCC#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (maximumf : (⟨S50000, .f32⟩ : BufTy).Contents (Elt F) → (⟨S50000, .f32⟩ : BufTy).Contents (Elt F) → (⟨S50000, .f32⟩ : BufTy).Contents (Elt F)),
    StableHlo.unary main_v12 main_v13 (Host.rsqrt : (⟨S50000, .f32⟩ : BufTy).Contents (Elt F) → (⟨S50000, .f32⟩ : BufTy).Contents (Elt F)),
    StableHlo.nullary main_c (constantI S_ 32 0#32),
    StableHlo.unary main_c main_v14 (broadcastInDim S850000 ![] bcast_S_S850000 : (⟨S_, .i32⟩ : BufTy).Contents (Elt F) → (⟨S850000, .i32⟩ : BufTy).Contents (Elt F)),
    StableHlo.binary main_v3 main_v14 main_v15 (cmpi .slt : (⟨S850000, .i32⟩ : BufTy).Contents (Elt F) → (⟨S850000, .i32⟩ : BufTy).Contents (Elt F) → (⟨S850000, .i1⟩ : BufTy).Contents (Elt F)),
    StableHlo.nullary main_c_2 (constantI S_ 32 50000#32),
    StableHlo.unary main_c_2 main_v16 (broadcastInDim S850000 ![] bcast_S_S850000 : (⟨S_, .i32⟩ : BufTy).Contents (Elt F) → (⟨S850000, .i32⟩ : BufTy).Contents (Elt F)),
    StableHlo.binary main_v3 main_v16 main_v17 (addi : (⟨S850000, .i32⟩ : BufTy).Contents (Elt F) → (⟨S850000, .i32⟩ : BufTy).Contents (Elt F) → (⟨S850000, .i32⟩ : BufTy).Contents (Elt F)),
    StableHlo.ternary main_v15 main_v17 main_v3 main_v18 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v18 main_v19 (broadcastInDim S850000x1 ![0] bcast_S850000_S850000x1_0 : (⟨S850000, .i32⟩ : BufTy).Contents (Elt F) → (⟨S850000x1, .i32⟩ : BufTy).Contents (Elt F)),
    StableHlo.binary main_v13 main_v19 main_v20 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_3 (constantI S_ 32 0#32),
    StableHlo.unary main_c_3 main_v21 (broadcastInDim S850000 ![] bcast_S_S850000 : (⟨S_, .i32⟩ : BufTy).Contents (Elt F) → (⟨S850000, .i32⟩ : BufTy).Contents (Elt F)),
    StableHlo.binary main_v6 main_v21 main_v22 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v23 (broadcastInDim S850000 ![] bcast_S_S850000 : (⟨S_, .i32⟩ : BufTy).Contents (Elt F) → (⟨S850000, .i32⟩ : BufTy).Contents (Elt F)),
    StableHlo.binary main_v6 main_v23 main_v24 (addi : (⟨S850000, .i32⟩ : BufTy).Contents (Elt F) → (⟨S850000, .i32⟩ : BufTy).Contents (Elt F) → (⟨S850000, .i32⟩ : BufTy).Contents (Elt F)),
    StableHlo.ternary main_v22 main_v24 main_v6 main_v25 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v25 main_v26 (broadcastInDim S850000x1 ![0] bcast_S850000_S850000x1_0 : (⟨S850000, .i32⟩ : BufTy).Contents (Elt F) → (⟨S850000x1, .i32⟩ : BufTy).Contents (Elt F)),
    StableHlo.binary main_v13 main_v26 main_v27 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v20 main_v27 main_v28 (mulf : (⟨S850000, .f32⟩ : BufTy).Contents (Elt F) → (⟨S850000, .f32⟩ : BufTy).Contents (Elt F) → (⟨S850000, .f32⟩ : BufTy).Contents (Elt F)) ]

theorem opsA1_sub : (opsA1 : List (HloOp τ sig (Elt F))).Forall fun op => op.bufs ⊆ tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- 24 operations: the rest of the first window. -/
abbrev opsA2 : List (HloOp τ sig (Elt F)) :=
  [ StableHlo.binary main_arg0 main_arg2 main_v29 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_5 (constantI S_ 32 0#32),
    StableHlo.unary main_c_5 main_v30 (broadcastInDim S850000 ![] bcast_S_S850000 : (⟨S_, .i32⟩ : BufTy).Contents (Elt F) → (⟨S850000, .i32⟩ : BufTy).Contents (Elt F)),
    StableHlo.binary main_v3 main_v30 main_v31 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v32 (broadcastInDim S850000 ![] bcast_S_S850000 : (⟨S_, .i32⟩ : BufTy).Contents (Elt F) → (⟨S850000, .i32⟩ : BufTy).Contents (Elt F)),
    StableHlo.binary main_v3 main_v32 main_v33 (addi : (⟨S850000, .i32⟩ : BufTy).Contents (Elt F) → (⟨S850000, .i32⟩ : BufTy).Contents (Elt F) → (⟨S850000, .i32⟩ : BufTy).Contents (Elt F)),
    StableHlo.ternary main_v31 main_v33 main_v3 main_v34 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v34 main_v35 (broadcastInDim S850000x1 ![0] bcast_S850000_S850000x1_0 : (⟨S850000, .i32⟩ : BufTy).Contents (Elt F) → (⟨S850000x1, .i32⟩ : BufTy).Contents (Elt F)),
    StableHlo.binary main_v29 main_v35 main_v36 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v28 main_v37 (broadcastInDim S850000x1 ![0] bcast_S850000_S850000x1_0 : (⟨S850000, .f32⟩ : BufTy).Contents (Elt F) → (⟨S850000x1, .f32⟩ : BufTy).Contents (Elt F)),
    StableHlo.unary main_v37 main_v38 (broadcastInDim S850000x64 ![0, 1] bcast_S850000x1_S850000x64_0_1 : (⟨S850000x1, .f32⟩ : BufTy).Contents (Elt F) → (⟨S850000x64, .f32⟩ : BufTy).Contents (Elt F)),
    StableHlo.binary main_v36 main_v38 main_v39 (mulf : (⟨S850000x64, .f32⟩ : BufTy).Contents (Elt F) → (⟨S850000x64, .f32⟩ : BufTy).Contents (Elt F) → (⟨S850000x64, .f32⟩ : BufTy).Contents (Elt F)),
    StableHlo.nullary main_cst_7 (constant S_ .f32 0x00000000#32),
    StableHlo.unary main_cst_7 main_v40 (broadcastInDim S50000x64 ![] bcast_S_S50000x64 : (⟨S_, .f32⟩ : BufTy).Contents (Elt F) → (⟨S50000x64, .f32⟩ : BufTy).Contents (Elt F)),
    StableHlo.unary main_v6 main_v41 (broadcastInDim S850000x1 ![0] bcast_S850000_S850000x1_0 : (⟨S850000, .i32⟩ : BufTy).Contents (Elt F) → (⟨S850000x1, .i32⟩ : BufTy).Contents (Elt F)),
    StableHlo.ternary main_v40 main_v41 main_v39 main_v42 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg3 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S50000x64 ![0, 1] bcast_S1x64_S50000x64_0_1 : (⟨S1x64, .f32⟩ : BufTy).Contents (Elt F) → (⟨S50000x64, .f32⟩ : BufTy).Contents (Elt F)),
    StableHlo.binary main_v42 main_v44 main_v45 (addf : (⟨S50000x64, .f32⟩ : BufTy).Contents (Elt F) → (⟨S50000x64, .f32⟩ : BufTy).Contents (Elt F) → (⟨S50000x64, .f32⟩ : BufTy).Contents (Elt F)),
    StableHlo.nullary main_cst_8 (constant S_ .f32 0x00000000#32),
    StableHlo.binary main_v45 main_cst_8 main_v46 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_9 (constant S_ .f32 0x47435000#32),
    StableHlo.unary main_cst_9 main_v47 (broadcastInDim S64 ![] bcast_S_S64 : (⟨S_, .f32⟩ : BufTy).Contents (Elt F) → (⟨S64, .f32⟩ : BufTy).Contents (Elt F)) ]

theorem opsA2_sub : (opsA2 : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub ..⟩

/-- 63 operations: the second window up to the second layer before normalisation, the variance, the selection and the rectifier written out. -/
abbrev opsB1 : List (HloOp τ sig (Elt F)) :=
  [ StableHlo.binary main_v46 main_v47 main_v48 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32),
    StableHlo.TRef.nullary main_call0.cst (constant S_ .f32 0x00000000#32),
    StableHlo.TRef.binary (.of main_v45) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (.of main_v45) main_call0.v4 main_call0.v5 subf,
    StableHlo.TRef.binary main_call0.v5 main_call0.v5 main_call0.v6 mulf,
    StableHlo.TRef.unary (.of main_c_10) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v48 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S50000x64 ![0, 1] bcast_S1x64_S50000x64_0_1 : (⟨S1x64, .f32⟩ : BufTy).Contents (Elt F) → (⟨S50000x64, .f32⟩ : BufTy).Contents (Elt F)),
    StableHlo.binary main_v45 main_v51 main_v52 (subf : (⟨S50000x64, .f32⟩ : BufTy).Contents (Elt F) → (⟨S50000x64, .f32⟩ : BufTy).Contents (Elt F) → (⟨S50000x64, .f32⟩ : BufTy).Contents (Elt F)),
    StableHlo.nullary main_cst_11 (constant S_ .f32 0x3727C5AC#32),
    StableHlo.unary main_cst_11 main_v53 (broadcastInDim S64 ![] bcast_S_S64 : (⟨S_, .f32⟩ : BufTy).Contents (Elt F) → (⟨S64, .f32⟩ : BufTy).Contents (Elt F)),
    StableHlo.binary main_v49 main_v53 main_v54 (addf : (⟨S64, .f32⟩ : BufTy).Contents (Elt F) → (⟨S64, .f32⟩ : BufTy).Contents (Elt F) → (⟨S64, .f32⟩ : BufTy).Contents (Elt F)),
    StableHlo.unary main_v54 main_v55 (Host.rsqrt : (⟨S64, .f32⟩ : BufTy).Contents (Elt F) → (⟨S64, .f32⟩ : BufTy).Contents (Elt F)),
    StableHlo.unary main_v55 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S50000x64 ![0, 1] bcast_S1x64_S50000x64_0_1 : (⟨S1x64, .f32⟩ : BufTy).Contents (Elt F) → (⟨S50000x64, .f32⟩ : BufTy).Contents (Elt F)),
    StableHlo.binary main_v52 main_v57 main_v58 (mulf : (⟨S50000x64, .f32⟩ : BufTy).Contents (Elt F) → (⟨S50000x64, .f32⟩ : BufTy).Contents (Elt F) → (⟨S50000x64, .f32⟩ : BufTy).Contents (Elt F)),
    StableHlo.unary main_arg4 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S50000x64 ![0, 1] bcast_S1x64_S50000x64_0_1 : (⟨S1x64, .f32⟩ : BufTy).Contents (Elt F) → (⟨S50000x64, .f32⟩ : BufTy).Contents (Elt F)),
    StableHlo.binary main_v58 main_v60 main_v61 (mulf : (⟨S50000x64, .f32⟩ : BufTy).Contents (Elt F) → (⟨S50000x64, .f32⟩ : BufTy).Contents (Elt F) → (⟨S50000x64, .f32⟩ : BufTy).Contents (Elt F)),
    StableHlo.unary main_arg5 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v61 main_v63 main_v64 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v64) main_call1.v0 main_call1.v1 maximumf,
    StableHlo.binary main_v65 main_arg6 main_v66 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_c_12 (constantI S_ 32 0#32),
    StableHlo.unary main_c_12 main_v67 (broadcastInDim S850000 ![] bcast_S_S850000 : (⟨S_, .i32⟩ : BufTy).Contents (Elt F) → (⟨S850000, .i32⟩ : BufTy).Contents (Elt F)),
    StableHlo.binary main_v3 main_v67 main_v68 (cmpi .slt : (⟨S850000, .i32⟩ : BufTy).Contents (Elt F) → (⟨S850000, .i32⟩ : BufTy).Contents (Elt F) → (⟨S850000, .i1⟩ : BufTy).Contents (Elt F)),
    StableHlo.nullary main_c_13 (constantI S_ 32 50000#32),
    StableHlo.unary main_c_13 main_v69 (broadcastInDim S850000 ![] bcast_S_S850000 : (⟨S_, .i32⟩ : BufTy).Contents (Elt F) → (⟨S850000, .i32⟩ : BufTy).Contents (Elt F)),
    StableHlo.binary main_v3 main_v69 main_v70 (addi : (⟨S850000, .i32⟩ : BufTy).Contents (Elt F) → (⟨S850000, .i32⟩ : BufTy).Contents (Elt F) → (⟨S850000, .i32⟩ : BufTy).Contents (Elt F)),
    StableHlo.ternary main_v68 main_v70 main_v3 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v71 main_v72 (broadcastInDim S850000x1 ![0] bcast_S850000_S850000x1_0 : (⟨S850000, .i32⟩ : BufTy).Contents (Elt F) → (⟨S850000x1, .i32⟩ : BufTy).Contents (Elt F)),
    StableHlo.binary main_v66 main_v72 main_v73 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v28 main_v74 (broadcastInDim S850000x1 ![0] bcast_S850000_S850000x1_0 : (⟨S850000, .f32⟩ : BufTy).Contents (Elt F) → (⟨S850000x1, .f32⟩ : BufTy).Contents (Elt F)),
    StableHlo.unary main_v74 main_v75 (broadcastInDim S850000x64 ![0, 1] bcast_S850000x1_S850000x64_0_1 : (⟨S850000x1, .f32⟩ : BufTy).Contents (Elt F) → (⟨S850000x64, .f32⟩ : BufTy).Contents (Elt F)),
    StableHlo.binary main_v73 main_v75 main_v76 (mulf : (⟨S850000x64, .f32⟩ : BufTy).Contents (Elt F) → (⟨S850000x64, .f32⟩ : BufTy).Contents (Elt F) → (⟨S850000x64, .f32⟩ : BufTy).Contents (Elt F)),
    StableHlo.nullary main_cst_14 (constant S_ .f32 0x00000000#32),
    StableHlo.unary main_cst_14 main_v77 (broadcastInDim S50000x64 ![] bcast_S_S50000x64 : (⟨S_, .f32⟩ : BufTy).Contents (Elt F) → (⟨S50000x64, .f32⟩ : BufTy).Contents (Elt F)),
    StableHlo.unary main_v6 main_v78 (broadcastInDim S850000x1 ![0] bcast_S850000_S850000x1_0 : (⟨S850000, .i32⟩ : BufTy).Contents (Elt F) → (⟨S850000x1, .i32⟩ : BufTy).Contents (Elt F)),
    StableHlo.ternary main_v77 main_v78 main_v76 main_v79 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg7 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S50000x64 ![0, 1] bcast_S1x64_S50000x64_0_1 : (⟨S1x64, .f32⟩ : BufTy).Contents (Elt F) → (⟨S50000x64, .f32⟩ : BufTy).Contents (Elt F)),
    StableHlo.binary main_v79 main_v81 main_v82 (addf : (⟨S50000x64, .f32⟩ : BufTy).Contents (Elt F) → (⟨S50000x64, .f32⟩ : BufTy).Contents (Elt F) → (⟨S50000x64, .f32⟩ : BufTy).Contents (Elt F)) ]

theorem opsB1_sub : (opsB1 : List (HloOp τ sig (Elt F))).Forall fun op => op.bufs ⊆ tcRefs τ sig :=
  ⟨StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-- 41 operations: the rest of the second window, the variance and the selection written out. -/
abbrev opsB2 : List (HloOp τ sig (Elt F)) :=
  [ StableHlo.nullary main_cst_15 (constant S_ .f32 0x00000000#32),
    StableHlo.binary main_v82 main_cst_15 main_v83 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_16 (constant S_ .f32 0x47435000#32),
    StableHlo.unary main_cst_16 main_v84 (broadcastInDim S64 ![] bcast_S_S64 : (⟨S_, .f32⟩ : BufTy).Contents (Elt F) → (⟨S64, .f32⟩ : BufTy).Contents (Elt F)),
    StableHlo.binary main_v83 main_v84 main_v85 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32),
    StableHlo.TRef.nullary main_call2.cst (constant S_ .f32 0x00000000#32),
    StableHlo.TRef.binary (.of main_v82) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v82) main_call2.v4 main_call2.v5 subf,
    StableHlo.TRef.binary main_call2.v5 main_call2.v5 main_call2.v6 mulf,
    StableHlo.TRef.unary (.of main_c_17) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v85 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S50000x64 ![0, 1] bcast_S1x64_S50000x64_0_1 : (⟨S1x64, .f32⟩ : BufTy).Contents (Elt F) → (⟨S50000x64, .f32⟩ : BufTy).Contents (Elt F)),
    StableHlo.binary main_v82 main_v88 main_v89 (subf : (⟨S50000x64, .f32⟩ : BufTy).Contents (Elt F) → (⟨S50000x64, .f32⟩ : BufTy).Contents (Elt F) → (⟨S50000x64, .f32⟩ : BufTy).Contents (Elt F)),
    StableHlo.nullary main_cst_18 (constant S_ .f32 0x3727C5AC#32),
    StableHlo.unary main_cst_18 main_v90 (broadcastInDim S64 ![] bcast_S_S64 : (⟨S_, .f32⟩ : BufTy).Contents (Elt F) → (⟨S64, .f32⟩ : BufTy).Contents (Elt F)),
    StableHlo.binary main_v86 main_v90 main_v91 (addf : (⟨S64, .f32⟩ : BufTy).Contents (Elt F) → (⟨S64, .f32⟩ : BufTy).Contents (Elt F) → (⟨S64, .f32⟩ : BufTy).Contents (Elt F)),
    StableHlo.unary main_v91 main_v92 (Host.rsqrt : (⟨S64, .f32⟩ : BufTy).Contents (Elt F) → (⟨S64, .f32⟩ : BufTy).Contents (Elt F)),
    StableHlo.unary main_v92 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S50000x64 ![0, 1] bcast_S1x64_S50000x64_0_1 : (⟨S1x64, .f32⟩ : BufTy).Contents (Elt F) → (⟨S50000x64, .f32⟩ : BufTy).Contents (Elt F)),
    StableHlo.binary main_v89 main_v94 main_v95 (mulf : (⟨S50000x64, .f32⟩ : BufTy).Contents (Elt F) → (⟨S50000x64, .f32⟩ : BufTy).Contents (Elt F) → (⟨S50000x64, .f32⟩ : BufTy).Contents (Elt F)),
    StableHlo.unary main_arg8 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S50000x64 ![0, 1] bcast_S1x64_S50000x64_0_1 : (⟨S1x64, .f32⟩ : BufTy).Contents (Elt F) → (⟨S50000x64, .f32⟩ : BufTy).Contents (Elt F)),
    StableHlo.binary main_v95 main_v97 main_v98 (mulf : (⟨S50000x64, .f32⟩ : BufTy).Contents (Elt F) → (⟨S50000x64, .f32⟩ : BufTy).Contents (Elt F) → (⟨S50000x64, .f32⟩ : BufTy).Contents (Elt F)) ]

theorem opsB2_sub : (opsB2 : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩

/-- 3 operations: the last window. -/
abbrev opsC : List (HloOp τ sig (Elt F)) :=
  [ StableHlo.unary main_arg9 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S50000x64 ![0, 1] bcast_S1x64_S50000x64_0_1 : (⟨S1x64, .f32⟩ : BufTy).Contents (Elt F) → (⟨S50000x64, .f32⟩ : BufTy).Contents (Elt F)),
    StableHlo.binary main_v98 main_v100 main_v101 (addf : (⟨S50000x64, .f32⟩ : BufTy).Contents (Elt F) → (⟨S50000x64, .f32⟩ : BufTy).Contents (Elt F) → (⟨S50000x64, .f32⟩ : BufTy).Contents (Elt F)) ]

theorem opsC_sub : (opsC : List (HloOp τ sig (Elt F))).Forall fun op => op.bufs ⊆ tcRefs τ sig :=
  ⟨StableHlo.unary_bufs_sub .., StableHlo.unary_bufs_sub .., StableHlo.binary_bufs_sub ..⟩

end Cert.ReferenceIdeal.RefOps

end
-- ==== Proof.RefRun.lean ====
/-
  The reference program as a straight line of host operations, and its run: every weakly fair execution ends, nothing faulting,
  with each TensorCore buffer holding what folding the operations over the launch contents leaves there.

  The entry function is printed in three consecutive windows, and calls three module-local functions (a variance, the
  selection inside it, a rectifier). Each window is the line of its operations — a called function's body standing at the call,
  over that call's own buffers —, and the whole is the three lines one after the other.
-/
import proofs.«112019_j89378269429931_2_alg».proof.Proof.RefOps
import Idealize.ShloMosaic.Lib.Pipeline.Frame

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-- The first window's sixty operations, cut after the edge weights. -/
abbrev opsA : List (HloOp τ sig (Elt F)) := opsA1 ++ opsA2

/-- The second window's operations, cut after the second layer's array before normalisation. -/
abbrev opsB : List (HloOp τ sig (Elt F)) := opsB1 ++ opsB2

/-- The first window is its sixty operations in order. -/
theorem partA_eq (c : Dev nD) : main_part0 (F := F) c = seq opsA := rfl

set_option maxRecDepth 8192 in
/-- The second window: the two variance calls and the rectifier call unfolded where they stand, the sequencing re-associated. -/
theorem partB_eq (c : Dev nD) : main_part1 (F := F) c = seq opsB := by
  simp only [main_part1, fn_var.body, fn_where.body, fn_relu.body, seq, bind_assoc, pure_bind]
  rfl

/-- The last window is its three operations. -/
theorem partC_eq (c : Dev nD) : main_part2 (F := F) c = seq opsC := rfl

/-- All the reference's operations, in program order. -/
abbrev ops : List (HloOp τ sig (Elt F)) := opsA ++ (opsB ++ opsC)

/-- The entry function runs the three windows in order, which is the one line of all the operations. -/
theorem main_eq (c : Dev nD) : main (F := F) c = seq ops := by
  show (main_part0 (F := F) c >>= fun _ => main_part1 (F := F) c >>= fun _ => main_part2 (F := F) c) = _
  rw [partA_eq, partB_eq, partC_eq]
  exact ((seq_append opsA (opsB ++ opsC)).trans (congrArg (seq opsA >>= ·) (funext fun _ => seq_append opsB opsC))).symm

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig := by
  rw [List.forall_iff_forall_mem]
  intro op h
  rcases List.mem_append.mp h with h | h
  · rcases List.mem_append.mp h with h | h
    · exact List.forall_iff_forall_mem.mp opsA1_sub op h
    · exact List.forall_iff_forall_mem.mp opsA2_sub op h
  rcases List.mem_append.mp h with h | h
  · rcases List.mem_append.mp h with h | h
    · exact List.forall_iff_forall_mem.mp opsB1_sub op h
    · exact List.forall_iff_forall_mem.mp opsB2_sub op h
  · exact List.forall_iff_forall_mem.mp opsC_sub op h

theorem opsA1_fresh : (opsA1 : List (HloOp τ sig (Elt F))).Forall fun op => op.fresh = ∅ := by
  simp only [List.Forall]; repeat' constructor
theorem opsA2_fresh : (opsA2 : List (HloOp τ sig (Elt F))).Forall fun op => op.fresh = ∅ := by
  simp only [List.Forall]; repeat' constructor
theorem opsB1_fresh : (opsB1 : List (HloOp τ sig (Elt F))).Forall fun op => op.fresh = ∅ := by
  simp only [List.Forall]; repeat' constructor
theorem opsB2_fresh : (opsB2 : List (HloOp τ sig (Elt F))).Forall fun op => op.fresh = ∅ := by
  simp only [List.Forall]; repeat' constructor
theorem opsC_fresh : (opsC : List (HloOp τ sig (Elt F))).Forall fun op => op.fresh = ∅ := by
  simp only [List.Forall]; repeat' constructor

/-- No operation allocates a buffer: each determines what it writes. -/
theorem ops_fresh : ∀ op ∈ (ops : List (HloOp τ sig (Elt F))), op.fresh = ∅ := by
  intro op h
  rcases List.mem_append.mp h with h | h
  · rcases List.mem_append.mp h with h | h
    · exact List.forall_iff_forall_mem.mp opsA1_fresh op h
    · exact List.forall_iff_forall_mem.mp opsA2_fresh op h
  rcases List.mem_append.mp h with h | h
  · rcases List.mem_append.mp h with h | h
    · exact List.forall_iff_forall_mem.mp opsB1_fresh op h
    · exact List.forall_iff_forall_mem.mp opsB2_fresh op h
  · exact List.forall_iff_forall_mem.mp opsC_fresh op h

/-- What the five lists leave, one after the other, from contents V. -/
theorem after_ops (V : Valuation τ sig (Elt F)) :
    after ops V = after opsC (after opsB2 (after opsB1 (after opsA2 (after opsA1 V)))) := by
  rw [StableHlo.after_append, StableHlo.after_append, StableHlo.after_append, StableHlo.after_append]

/-- On every device, from any memory with zero counters: every weakly fair execution of the reference ends, nothing faulting,
    with every TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefKept.lean ====
/-
  No operation of the reference writes an argument array: folding the operations over any contents leaves each of the ten
  argument buffers as it was. Per window, the buffer is compared with the one buffer each operation writes.
-/
import proofs.«112019_j89378269429931_2_alg».proof.Proof.RefRun

set_option maxRecDepth 8192

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-- The buffer in the goal is written by no operation of the named list. -/
macro "not_written " l:ident : tactic => `(tactic| (
  refine StableHlo.after_of_forall_not_mem _ _ (List.forall_iff_forall_mem.mp ?_)
  simp only [$l:ident, List.Forall, nullary_writes, unary_writes, binary_writes, ternary_writes, quaternary_writes,
    reshape_writes, Finset.mem_singleton]
  repeat' apply And.intro
  all_goals exact devRef_ne_of_ne (by decide)))

theorem kept_arg0 (V : Valuation τ sig (Elt F)) : after ops V (Proc.devRef .tc main_arg0) = V (Proc.devRef .tc main_arg0) := by
  rw [after_ops]
  refine Eq.trans (by not_written opsC) (Eq.trans (by not_written opsB2) (Eq.trans (by not_written opsB1) (Eq.trans (by not_written opsA2) (by not_written opsA1))))
theorem kept_arg1 (V : Valuation τ sig (Elt F)) : after ops V (Proc.devRef .tc main_arg1) = V (Proc.devRef .tc main_arg1) := by
  rw [after_ops]
  refine Eq.trans (by not_written opsC) (Eq.trans (by not_written opsB) (by not_written opsA))
theorem kept_arg2 (V : Valuation τ sig (Elt F)) : after ops V (Proc.devRef .tc main_arg2) = V (Proc.devRef .tc main_arg2) := by
  rw [after_ops]
  refine Eq.trans (by not_written opsC) (Eq.trans (by not_written opsB) (by not_written opsA))
theorem kept_arg3 (V : Valuation τ sig (Elt F)) : after ops V (Proc.devRef .tc main_arg3) = V (Proc.devRef .tc main_arg3) := by
  rw [after_ops]
  refine Eq.trans (by not_written opsC) (Eq.trans (by not_written opsB) (by not_written opsA))
theorem kept_arg4 (V : Valuation τ sig (Elt F)) : after ops V (Proc.devRef .tc main_arg4) = V (Proc.devRef .tc main_arg4) := by
  rw [after_ops]
  refine Eq.trans (by not_written opsC) (Eq.trans (by not_written opsB) (by not_written opsA))
theorem kept_arg5 (V : Valuation τ sig (Elt F)) : after ops V (Proc.devRef .tc main_arg5) = V (Proc.devRef .tc main_arg5) := by
  rw [after_ops]
  refine Eq.trans (by not_written opsC) (Eq.trans (by not_written opsB) (by not_written opsA))
theorem kept_arg6 (V : Valuation τ sig (Elt F)) : after ops V (Proc.devRef .tc main_arg6) = V (Proc.devRef .tc main_arg6) := by
  rw [after_ops]
  refine Eq.trans (by not_written opsC) (Eq.trans (by not_written opsB) (by not_written opsA))
theorem kept_arg7 (V : Valuation τ sig (Elt F)) : after ops V (Proc.devRef .tc main_arg7) = V (Proc.devRef .tc main_arg7) := by
  rw [after_ops]
  refine Eq.trans (by not_written opsC) (Eq.trans (by not_written opsB) (by not_written opsA))
theorem kept_arg8 (V : Valuation τ sig (Elt F)) : after ops V (Proc.devRef .tc main_arg8) = V (Proc.devRef .tc main_arg8) := by
  rw [after_ops]
  refine Eq.trans (by not_written opsC) (Eq.trans (by not_written opsB) (by not_written opsA))
theorem kept_arg9 (V : Valuation τ sig (Elt F)) : after ops V (Proc.devRef .tc main_arg9) = V (Proc.devRef .tc main_arg9) := by
  rw [after_ops]
  refine Eq.trans (by not_written opsC) (Eq.trans (by not_written opsB) (by not_written opsA))

end Cert.ReferenceIdeal.RefRun

end
-- ==== Proof.RefSpec.lean ====
/-
  The reference's result as one function of its ten arguments, in the reference's own whole-array operations: each layer is
  the aggregation of a matrix product along the edges plus a bias, then a batch normalisation by the column means and the
  column variances (mean squared deviations); the first layer rectified.
-/
import proofs.«112019_j89378269429931_2_alg».proof.ReferenceIdeal
import proofs.«112019_j89378269429931_2_alg».proof.Proof.Gen.ReferenceIdeal
import proofs.«112019_j89378269429931_2_alg».proof.Proof.Graph

noncomputable section

namespace Cert.RefSpec

open Cert.ReferenceIdeal Cert.ReferenceIdeal.Gen Cert.Graph
open Idealize.ShloMosaic Idealize.ShloMosaic.TcCoe

/-- A vector of 64 repeated down the 50000 rows. -/
def rows (u : FVec Ideal S64 .f32) : FVec Ideal S50000x64 .f32 :=
  broadcastInDim S50000x64 ![0, 1] bcast_S1x64_S50000x64_0_1 (broadcastInDim S1x64 ![1] bcast_S64_S1x64_1 u)

/-- The column sums. -/
def colSum (v : FVec Ideal S50000x64 .f32) : FVec Ideal S64 .f32 :=
  Host.reduceAdd v (constant S_ .f32 0x00000000#32) reducesTo_S50000x64_S64_d0 h_S_

/-- The row count, 64 times. -/
def n64 : FVec Ideal S64 .f32 := broadcastInDim S64 ![] bcast_S_S64 (constant S_ .f32 0x47435000#32)

/-- The column means. -/
def colMean (v : FVec Ideal S50000x64 .f32) : FVec Ideal S64 .f32 := Host.divf (colSum v) n64

/-- The row count less the zero degrees of freedom taken off. -/
def cnt : FVec Ideal S_ .f32 := subf (constant S_ .f32 0x47435000#32) (sitofp .f32 (constantI S_ 32 0#32))

/-- The deviations from the column means. -/
def dev (v : FVec Ideal S50000x64 .f32) : FVec Ideal S50000x64 .f32 :=
  subf v (broadcastInDim S50000x64 ![0, 1] bcast_S1x64_S50000x64_0_1
    (Host.divf (broadcastInDim S1x64 ![1] bcast_S64_S1x64_1 (colSum v)) (broadcastInDim S1x64 ![] bcast_S_S1x64 (constant S_ .f32 0x47435000#32))))

/-- The column variances: the mean squared deviation where the count is positive. -/
def colVar (v : FVec Ideal S50000x64 .f32) : FVec Ideal S64 .f32 :=
  select (broadcastInDim S64 ![] bcast_S_S64 (cmpf .ogt cnt (constant S_ .f32 0x00000000#32)))
    (Host.divf (Host.reduceAdd (mulf (dev v) (dev v)) (constant S_ .f32 0x00000000#32) reducesTo_S50000x64_S64_d0 h_S_)
      (broadcastInDim S64 ![] bcast_S_S64 cnt))
    (broadcastInDim S64 ![] bcast_S_S64 (id (constant S_ .f32 0x7FC00000#32)))

/-- Epsilon, 64 times. -/
def eps64 : FVec Ideal S64 .f32 := broadcastInDim S64 ![] bcast_S_S64 (constant S_ .f32 0x3727C5AC#32)

/-- The batch normalisation with the mean given. -/
def bnWith (v : FVec Ideal S50000x64 .f32) (μ g be : FVec Ideal S64 .f32) : FVec Ideal S50000x64 .f32 :=
  addf (mulf (mulf (subf v (rows μ)) (rows (Host.rsqrt (addf (colVar v) eps64)))) (rows g)) (rows be)

/-- A layer before normalisation: the aggregation of the features plus the bias. -/
def layer (src dst : IVec S850000 32) (norm : FVec Ideal S850000 .f32) (h : FVec Ideal S50000x64 .f32) (b : FVec Ideal S64 .f32) :
    FVec Ideal S50000x64 .f32 :=
  addf (aggOf src dst norm h) (rows b)

/-- The rectifier. -/
def relu (v : FVec Ideal S50000x64 .f32) : FVec Ideal S50000x64 .f32 :=
  maximumf v (broadcastInDim S50000x64 ![] bcast_S_S50000x64 (constant S_ .f32 0x00000000#32))

/-- The first layer's features: the node features times the first matrix. -/
def feat1 (x : FVec Ideal S50000x128 .f32) (w1 : FVec Ideal S128x64 .f32) : FVec Ideal S50000x64 .f32 :=
  Host.dotGeneral dot_S50000x128_S128x64_S50000x64_1_0_0_1_n_n none x w1

/-- The first layer before normalisation. -/
def pre1 (x : FVec Ideal S50000x128 .f32) (E : IVec S2x800000 32) (w1 : FVec Ideal S128x64 .f32) (b1 : FVec Ideal S64 .f32) :
    FVec Ideal S50000x64 .f32 :=
  layer (srcOf E) (dstOf E) (normOf (srcOf E) (dstOf E)) (feat1 x w1) b1

/-- The second layer before normalisation, from the first layer's pre-normalisation array and its mean. -/
def pre2of (src dst : IVec S850000 32) (norm : FVec Ideal S850000 .f32) (p1 : FVec Ideal S50000x64 .f32) (μ1 g1 be1 : FVec Ideal S64 .f32)
    (w2 : FVec Ideal S64x64 .f32) (b2 : FVec Ideal S64 .f32) : FVec Ideal S50000x64 .f32 :=
  layer src dst norm (Host.dotGeneral dot_S50000x64_S64x64_S50000x64_1_0_0_1_n_n none (relu (bnWith p1 μ1 g1 be1)) w2) b2

/-- The second layer before normalisation. -/
def pre2 (x : FVec Ideal S50000x128 .f32) (E : IVec S2x800000 32) (w1 : FVec Ideal S128x64 .f32) (b1 g1 be1 : FVec Ideal S64 .f32)
    (w2 : FVec Ideal S64x64 .f32) (b2 : FVec Ideal S64 .f32) : FVec Ideal S50000x64 .f32 :=
  pre2of (srcOf E) (dstOf E) (normOf (srcOf E) (dstOf E)) (pre1 x E w1 b1) (colMean (pre1 x E w1 b1)) g1 be1 w2 b2

/-- The reference's result. -/
def refOut (x : FVec Ideal S50000x128 .f32) (E : IVec S2x800000 32) (w1 : FVec Ideal S128x64 .f32) (b1 g1 be1 : FVec Ideal S64 .f32)
    (w2 : FVec Ideal S64x64 .f32) (b2 g2 be2 : FVec Ideal S64 .f32) : FVec Ideal S50000x64 .f32 :=
  bnWith (pre2 x E w1 b1 g1 be1 w2 b2) (colMean (pre2 x E w1 b1 g1 be1 w2 b2)) g2 be2

end Cert.RefSpec

end
-- ==== Proof.RefVal.lean ====
/-
  What the reference's three windows of host operations leave in the buffers later windows read, from any contents; and,
  composed, the result buffer after all the operations: the reference's result function of the ten arguments.
-/
import proofs.«112019_j89378269429931_2_alg».proof.Proof.RefRun
import proofs.«112019_j89378269429931_2_alg».proof.Proof.RefSpec

set_option maxRecDepth 16384

noncomputable section

namespace Cert.ReferenceIdeal.RefVal

open Cert.ReferenceIdeal Cert.ReferenceIdeal.Gen Cert.ReferenceIdeal.RefOps Cert.ReferenceIdeal.RefRun Cert.Graph Cert.RefSpec Cert.HostLine
open Idealize.ShloMosaic Idealize.ShloMosaic.TcCoe Idealize.SL.Sem Idealize.ShloMosaic.StableHlo

variable (V : Valuation τ sig (Elt Ideal))

/-- The buffer in the goal is written by no operation of the named window. -/
macro "kept " l:ident : tactic => `(tactic| (
  refine StableHlo.after_of_forall_not_mem _ _ (List.forall_iff_forall_mem.mp ?_)
  simp only [$l:ident, List.Forall, nullary_writes, unary_writes, binary_writes, ternary_writes, quaternary_writes,
    reshape_writes, Finset.mem_singleton]
  repeat' apply And.intro
  all_goals exact devRef_ne_of_ne (by decide)))

/-! ## The first window, up to the edge weights -/

theorem ra1_src : after opsA1 V (Proc.devRef .tc main_v3) = srcOf (V (Proc.devRef .tc main_arg1)) := by
  host_line; rfl
theorem ra1_dst : after opsA1 V (Proc.devRef .tc main_v6) = dstOf (V (Proc.devRef .tc main_arg1)) := by
  host_line; rfl
theorem ra1_norm : after opsA1 V (Proc.devRef .tc main_v28) = normOf (srcOf (V (Proc.devRef .tc main_arg1))) (dstOf (V (Proc.devRef .tc main_arg1))) := by
  host_line; rfl
theorem ra1_keep_arg0 : after opsA1 V (Proc.devRef .tc main_arg0) = V (Proc.devRef .tc main_arg0) := by kept opsA1
theorem ra1_keep_arg2 : after opsA1 V (Proc.devRef .tc main_arg2) = V (Proc.devRef .tc main_arg2) := by kept opsA1
theorem ra1_keep_arg3 : after opsA1 V (Proc.devRef .tc main_arg3) = V (Proc.devRef .tc main_arg3) := by kept opsA1
theorem ra1_keep_arg4 : after opsA1 V (Proc.devRef .tc main_arg4) = V (Proc.devRef .tc main_arg4) := by kept opsA1
theorem ra1_keep_arg5 : after opsA1 V (Proc.devRef .tc main_arg5) = V (Proc.devRef .tc main_arg5) := by kept opsA1
theorem ra1_keep_arg6 : after opsA1 V (Proc.devRef .tc main_arg6) = V (Proc.devRef .tc main_arg6) := by kept opsA1
theorem ra1_keep_arg7 : after opsA1 V (Proc.devRef .tc main_arg7) = V (Proc.devRef .tc main_arg7) := by kept opsA1
theorem ra1_keep_arg8 : after opsA1 V (Proc.devRef .tc main_arg8) = V (Proc.devRef .tc main_arg8) := by kept opsA1
theorem ra1_keep_arg9 : after opsA1 V (Proc.devRef .tc main_arg9) = V (Proc.devRef .tc main_arg9) := by kept opsA1

/-! ## The rest of the first window: the first layer before normalisation, its column sums, the row count -/

theorem ra2_pre : after opsA2 V (Proc.devRef .tc main_v45)
    = layer (V (Proc.devRef .tc main_v3)) (V (Proc.devRef .tc main_v6)) (V (Proc.devRef .tc main_v28))
        (feat1 (V (Proc.devRef .tc main_arg0)) (V (Proc.devRef .tc main_arg2))) (V (Proc.devRef .tc main_arg3)) := by
  host_line; rfl
theorem ra2_sum : after opsA2 V (Proc.devRef .tc main_v46)
    = colSum (layer (V (Proc.devRef .tc main_v3)) (V (Proc.devRef .tc main_v6)) (V (Proc.devRef .tc main_v28))
        (feat1 (V (Proc.devRef .tc main_arg0)) (V (Proc.devRef .tc main_arg2))) (V (Proc.devRef .tc main_arg3))) := by
  host_line; rfl
theorem ra2_n : after opsA2 V (Proc.devRef .tc main_v47) = n64 := by
  host_line; rfl
theorem ra2_keep_v3 : after opsA2 V (Proc.devRef .tc main_v3) = V (Proc.devRef .tc main_v3) := by kept opsA2
theorem ra2_keep_v6 : after opsA2 V (Proc.devRef .tc main_v6) = V (Proc.devRef .tc main_v6) := by kept opsA2
theorem ra2_keep_v28 : after opsA2 V (Proc.devRef .tc main_v28) = V (Proc.devRef .tc main_v28) := by kept opsA2
theorem ra2_keep_arg4 : after opsA2 V (Proc.devRef .tc main_arg4) = V (Proc.devRef .tc main_arg4) := by kept opsA2
theorem ra2_keep_arg5 : after opsA2 V (Proc.devRef .tc main_arg5) = V (Proc.devRef .tc main_arg5) := by kept opsA2
theorem ra2_keep_arg6 : after opsA2 V (Proc.devRef .tc main_arg6) = V (Proc.devRef .tc main_arg6) := by kept opsA2
theorem ra2_keep_arg7 : after opsA2 V (Proc.devRef .tc main_arg7) = V (Proc.devRef .tc main_arg7) := by kept opsA2
theorem ra2_keep_arg8 : after opsA2 V (Proc.devRef .tc main_arg8) = V (Proc.devRef .tc main_arg8) := by kept opsA2
theorem ra2_keep_arg9 : after opsA2 V (Proc.devRef .tc main_arg9) = V (Proc.devRef .tc main_arg9) := by kept opsA2

/-! ## The second window up to the second layer before normalisation -/

theorem rb1_pre : after opsB1 V (Proc.devRef .tc main_v82)
    = pre2of (V (Proc.devRef .tc main_v3)) (V (Proc.devRef .tc main_v6)) (V (Proc.devRef .tc main_v28)) (V (Proc.devRef .tc main_v45))
        (Host.divf (V (Proc.devRef .tc main_v46)) (V (Proc.devRef .tc main_v47))) (V (Proc.devRef .tc main_arg4)) (V (Proc.devRef .tc main_arg5)) (V (Proc.devRef .tc main_arg6)) (V (Proc.devRef .tc main_arg7)) := by
  host_line; rfl
theorem rb1_keep_arg8 : after opsB1 V (Proc.devRef .tc main_arg8) = V (Proc.devRef .tc main_arg8) := by kept opsB1
theorem rb1_keep_arg9 : after opsB1 V (Proc.devRef .tc main_arg9) = V (Proc.devRef .tc main_arg9) := by kept opsB1

/-! ## The rest of the second window: the second normalisation up to the scale -/

theorem rb2_out : after opsB2 V (Proc.devRef .tc main_v98)
    = mulf (mulf (subf (V (Proc.devRef .tc main_v82)) (rows (colMean (V (Proc.devRef .tc main_v82)))))
        (rows (Host.rsqrt (addf (colVar (V (Proc.devRef .tc main_v82))) eps64)))) (rows (V (Proc.devRef .tc main_arg8))) := by
  host_line; rfl
theorem rb2_keep_arg9 : after opsB2 V (Proc.devRef .tc main_arg9) = V (Proc.devRef .tc main_arg9) := by kept opsB2

/-! ## The last window -/

theorem rc_out : after opsC V (Proc.devRef .tc main_v101) = addf (V (Proc.devRef .tc main_v98)) (rows (V (Proc.devRef .tc main_arg9))) := by
  host_line; rfl

/-! ## All the operations -/

/-- The result buffer after all the reference's operations holds the reference's result function of the arguments. -/
theorem out_eq : after ops V (Proc.devRef .tc main_v101)
    = refOut (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) (V (Proc.devRef .tc main_arg9)) := by
  rw [after_ops, rc_out, rb2_out, rb2_keep_arg9, rb1_pre, rb1_keep_arg8, rb1_keep_arg9,
    ra2_pre, ra2_sum, ra2_n, ra2_keep_v3, ra2_keep_v6, ra2_keep_v28, ra2_keep_arg4, ra2_keep_arg5, ra2_keep_arg6, ra2_keep_arg7, ra2_keep_arg8,
    ra2_keep_arg9, ra1_src, ra1_dst, ra1_norm, ra1_keep_arg0, ra1_keep_arg2, ra1_keep_arg3, ra1_keep_arg4, ra1_keep_arg5, ra1_keep_arg6,
    ra1_keep_arg7, ra1_keep_arg8, ra1_keep_arg9]
  rfl

end Cert.ReferenceIdeal.RefVal

end
-- ==== Proof.BConst.lean ====
/-
  The float constants the two programs spell, as the extended reals their patterns denote: zero, one, the row count 50000,
  the normalisation's epsilon and the degree floor (two small positive reals), and plus infinity.
-/
import Idealize.ShloMosaic.PureOps.Ideal
import Mathlib.Tactic

noncomputable section

namespace Cert.BConst

open Idealize.ShloMosaic

theorem c_zero : Ideal.ofBits .f32 0x00000000#32 = 0 := by
  simp [Ideal.ofBits, Ideal.ieee]

theorem c_one : Ideal.ofBits .f32 0x3F800000#32 = ((1 : ℝ) : EReal) := by
  simp [Ideal.ofBits, Ideal.ieee, -EReal.coe_mul]; norm_num

theorem c_n : Ideal.ofBits .f32 0x47435000#32 = ((50000 : ℝ) : EReal) := by
  simp [Ideal.ofBits, Ideal.ieee, -EReal.coe_mul]; norm_num

theorem c_eps : Ideal.ofBits .f32 0x3727C5AC#32 = ((10995116 / 1099511627776 : ℝ) : EReal) := by
  simp [Ideal.ofBits, Ideal.ieee, -EReal.coe_mul]; norm_num

theorem c_floor : Ideal.ofBits .f32 0x2B8CBCCC#32 = ((9223372 / 9223372036854775808 : ℝ) : EReal) := by
  simp [Ideal.ofBits, Ideal.ieee, -EReal.coe_mul]; norm_num

theorem c_inf : Ideal.ofBits .f32 0x7F800000#32 = ⊤ := by
  simp [Ideal.ofBits, Ideal.ieee]

end Cert.BConst

end
-- ==== Proof.BRead.lean ====
/-
  The whole-array functions of the two programs read at an index: a vector laid along the rows, the column sums, means,
  deviations and variances of the reference, the means and variances the tiled program forms from its per-tile sums, and the
  two matrix products of the reference as plain sums.
-/
import proofs.«112019_j89378269429931_2_alg».proof.Proof.RefSpec
import proofs.«112019_j89378269429931_2_alg».proof.Proof.KOut
import proofs.«112019_j89378269429931_2_alg».proof.Proof.BConst
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.BRead

open Cert.RefSpec Cert.Graph Cert.KSpec Cert.BConst
open Idealize.ShloMosaic Idealize.ShloMosaic.ValueIdx

abbrev Arr := (⟨2, ![50000, 64]⟩ : Shape).Idx → EReal
abbrev Vec64 := (⟨1, ![64]⟩ : Shape).Idx → EReal
abbrev Row64 := (⟨2, ![1, 64]⟩ : Shape).Idx → EReal
abbrev Tiles := (⟨3, ![10, 1, 64]⟩ : Shape).Idx → EReal

/-- A vector as a one-row matrix, read at a column. -/
theorem bcast_vec_row (h : (⟨1, ![64]⟩ : Shape).BroadcastsInDim ⟨2, ![1, 64]⟩ ![1]) (u : Vec64) (j : Fin 64) :
    broadcastInDim ⟨2, ![1, 64]⟩ ![1] h u (ix2 (0 : Fin 1) j) = u (ix1 j) :=
  broadcastInDim_apply ![1] h u (ix2 (0 : Fin 1) j) (ix1 j) (fun a => by match a with | ⟨0, _⟩ => rfl)

/-- A vector laid along the rows, read at an entry, is the vector at the entry's column. -/
theorem rows_apply (u : Vec64) (i : Fin 50000) (j : Fin 64) : rows u (ix2 i j) = u (ix1 j) := by
  unfold rows
  exact (broadcastInDim_oneRow_apply _ _ i j).trans (bcast_vec_row _ u j)

/-- A vector as a row, read at a column. -/
theorem rowOfVec_apply (b : Vec64) (j : Fin 64) : rowOfVec b (ix2 (0 : Fin 1) j) = b (ix1 j) :=
  shapeCast_a_1a_apply b _ 0 j

theorem hRed2 : (⟨2, ![50000, 64]⟩ : Shape).Reduces [0] ⟨1, ![64]⟩ := by decide
theorem hRed3 : (⟨3, ![10, 1, 64]⟩ : Shape).Reduces [0] ⟨2, ![1, 64]⟩ := by decide

theorem lift2 (j : Fin 64) (i : Fin 50000) : hRed2.lift (ix1 j) i = ix2 i j :=
  funext fun a => Fin.ext (by match a with | ⟨0, _⟩ => rfl | ⟨1, _⟩ => rfl)
theorem lift3 (j : Fin 64) (t : Fin 10) : hRed3.lift (ix2 (0 : Fin 1) j) t = ix3 t (0 : Fin 1) j :=
  funext fun a => Fin.ext (by match a with | ⟨0, _⟩ => rfl | ⟨1, _⟩ => rfl | ⟨2, _⟩ => rfl)

/-- The column sums at a column. -/
theorem colSum_apply (v : Arr) (j : Fin 64) : colSum v (ix1 j) = 0 + ∑ i : Fin 50000, v (ix2 i j) := by
  unfold colSum
  refine (Ideal.hostReduceAdd_single _ hRed2 v _ (ix1 j)).trans ?_
  show Ideal.ofBits .f32 0x00000000#32 + (∑ i : Fin 50000, v (hRed2.lift (ix1 j) i)) = _
  rw [c_zero]
  exact congrArg (0 + ·) (Finset.sum_congr rfl fun i _ => by rw [lift2])

/-- The column means at a column. -/
theorem colMean_apply (v : Arr) (j : Fin 64) :
    colMean v (ix1 j) = Ideal.div (0 + ∑ i : Fin 50000, v (ix2 i j)) ((50000 : ℝ) : EReal) := by
  unfold colMean n64
  rw [hostDivf_apply, colSum_apply, broadcastInDim_scalar_apply]
  show Ideal.div _ (Ideal.ofBits .f32 0x47435000#32) = _
  rw [c_n]

/-- The deviation from the column mean at an entry. -/
theorem dev_apply (v : Arr) (i : Fin 50000) (j : Fin 64) :
    dev v (ix2 i j) = v (ix2 i j) - Ideal.div (0 + ∑ i : Fin 50000, v (ix2 i j)) ((50000 : ℝ) : EReal) := by
  unfold dev
  rw [subf_apply, broadcastInDim_oneRow_apply, hostDivf_apply, bcast_vec_row, colSum_apply, broadcastInDim_scalar_apply]
  show _ - Ideal.div _ (Ideal.ofBits .f32 0x47435000#32) = _
  rw [c_n]

/-- The count the variance divides by is the row count. -/
theorem cnt_eq : cnt ix0 = ((50000 : ℝ) : EReal) := by
  show Ideal.ofBits .f32 0x47435000#32 - (Scalar.sitofp .f32 (0#32 : BitVec 32) : Ideal .f32) = _
  rw [sitofp_zero, c_n, sub_zero]

/-- Selecting on "the count is positive" takes the first branch. -/
theorem select_cnt (h : (⟨0, ![]⟩ : Shape).BroadcastsInDim ⟨1, ![64]⟩ ![]) (A B : Vec64) (j : Fin 64) :
    select (broadcastInDim ⟨1, ![64]⟩ ![] h (cmpf .ogt cnt (constant (F := Ideal) ⟨0, ![]⟩ .f32 0x00000000#32))) A B (ix1 j) = A (ix1 j) := by
  rw [select_apply, broadcastInDim_scalar_apply]
  have hc : cmpf .ogt cnt (constant (F := Ideal) ⟨0, ![]⟩ .f32 0x00000000#32) ix0 = 1#1 := by
    show Ideal.cmp .ogt (cnt ix0) (Ideal.ofBits .f32 0x00000000#32) = 1#1
    rw [cnt_eq, c_zero]
    show BitVec.ofBool (decide ((0 : EReal) < ((50000 : ℝ) : EReal))) = 1#1
    rw [decide_eq_true (by exact_mod_cast (by norm_num : (0 : ℝ) < 50000))]
    rfl
  rw [hc, select_one]

/-- Dividing by the count, 64 times. -/
theorem divf_cnt (h : (⟨0, ![]⟩ : Shape).BroadcastsInDim ⟨1, ![64]⟩ ![]) (A : Vec64) (j : Fin 64) :
    Host.divf A (broadcastInDim ⟨1, ![64]⟩ ![] h cnt) (ix1 j) = Ideal.div (A (ix1 j)) ((50000 : ℝ) : EReal) := by
  rw [hostDivf_apply, broadcastInDim_scalar_apply, cnt_eq]

/-- A host sum down the rows, at a column. -/
theorem hostSum_apply (A : Arr) (h : (⟨2, ![50000, 64]⟩ : Shape).ReducesTo [0] ⟨1, ![64]⟩) (hu : 0 < (⟨0, ![]⟩ : Shape).numel) (j : Fin 64) :
    Host.reduceAdd A (constant (F := Ideal) ⟨0, ![]⟩ .f32 0x00000000#32) h hu (ix1 j) = 0 + ∑ i : Fin 50000, A (ix2 i j) := by
  refine (Ideal.hostReduceAdd_single h hRed2 A _ (ix1 j)).trans ?_
  show Ideal.ofBits .f32 0x00000000#32 + (∑ i : Fin 50000, A (hRed2.lift (ix1 j) i)) = _
  rw [c_zero]
  exact congrArg (0 + ·) (Finset.sum_congr rfl fun i _ => by rw [lift2])

set_option maxRecDepth 65536 in
/-- The column variances at a column: the mean squared deviation. -/
theorem colVar_apply (v : Arr) (j : Fin 64) :
    colVar v (ix1 j) = Ideal.div (0 + ∑ i : Fin 50000, dev v (ix2 i j) * dev v (ix2 i j)) ((50000 : ℝ) : EReal) := by
  unfold colVar
  refine (select_cnt _ _ _ j).trans ?_
  refine (divf_cnt _ _ j).trans ?_
  refine congrArg (fun z => Ideal.div z ((50000 : ℝ) : EReal)) ((hostSum_apply _ _ _ j).trans ?_)
  exact congrArg (0 + ·) (Finset.sum_congr rfl fun i _ => mulf_apply _ _ _)

/-- The tiled program's mean at a column: the sum of the ten per-tile sums over the row count. -/
theorem meanOfTiles_apply (s : Tiles) (j : Fin 64) :
    meanOfTiles s (ix2 (0 : Fin 1) j) = Ideal.div (0 + ∑ t : Fin 10, s (ix3 t (0 : Fin 1) j)) ((50000 : ℝ) : EReal) := by
  unfold meanOfTiles
  rw [hostDivf_apply, broadcastInDim_scalar_apply]
  show Ideal.div _ (Ideal.ofBits .f32 0x47435000#32) = _
  rw [c_n]
  refine congrArg (Ideal.div · _) ?_
  refine (Ideal.hostReduceAdd_single _ hRed3 s _ (ix2 (0 : Fin 1) j)).trans ?_
  show Ideal.ofBits .f32 0x00000000#32 + (∑ t : Fin 10, s (hRed3.lift (ix2 (0 : Fin 1) j) t)) = _
  rw [c_zero]
  exact congrArg (0 + ·) (Finset.sum_congr rfl fun t _ => by rw [lift3])

/-- The tiled program's variance at a column: the mean square minus the squared mean. -/
theorem varOfTiles_apply (s q : Tiles) (j : Fin 64) :
    varOfTiles s q (ix2 (0 : Fin 1) j)
      = meanOfTiles q (ix2 (0 : Fin 1) j) - meanOfTiles s (ix2 (0 : Fin 1) j) * meanOfTiles s (ix2 (0 : Fin 1) j) := rfl

end Cert.BRead

end
-- ==== Proof.GcnMath.lean ====
/-
  The arithmetic that joins the two programs, on the extended reals.

  Sums of reals stay real, so for a column of real entries the mean is a real, and the two ways of taking the variance —
  the mean square minus the squared mean, and the mean squared deviation — are the same real: expanding the square,
  the cross term is twice the mean times the sum, which is twice the count times the squared mean. On the extended reals
  this needs the entries real: with an infinite entry one side is plus infinity and the other minus infinity.

  Also: the ten tiles of 5000 rows are the 50000 rows, so a sum over tiles of sums over a tile's rows is the sum over all rows.
-/
import Idealize.ShloMosaic.PureOps.Ideal
import Mathlib.Tactic

noncomputable section

namespace Cert.GcnMath

open Idealize.ShloMosaic

/-- A finite sum of reals, read on the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two variances of n reals agree. -/
theorem var_real (n : ℕ) (hn : (n : ℝ) ≠ 0) (f : Fin n → ℝ) :
    (∑ i, (f i - (∑ i, f i) / n) * (f i - (∑ i, f i) / n)) / n
      = (∑ i, f i * f i) / n - ((∑ i, f i) / n) * ((∑ i, f i) / n) := by
  set S := ∑ i, f i with hS
  have h1 : ∑ i, (f i - S / n) * (f i - S / n) = ∑ i, f i * f i - 2 * (S / n) * S + n * ((S / n) * (S / n)) := by
    have : ∀ i, (f i - S / n) * (f i - S / n) = f i * f i - 2 * (S / n) * f i + (S / n) * (S / n) := fun i => by ring
    simp only [this, Finset.sum_add_distrib, Finset.sum_sub_distrib, ← Finset.mul_sum, Finset.sum_const, Finset.card_univ,
      Fintype.card_fin, nsmul_eq_mul, ← hS]
    ring
  rw [h1]
  field_simp
  ring

/-- Division by a nonzero real constant, of a real. -/
theorem div_coe_coe (x y : ℝ) (hy : y ≠ 0) : Ideal.div (x : EReal) (y : EReal) = ((x / y : ℝ) : EReal) := by
  rw [Ideal.div_coe hy, ← EReal.coe_mul, mul_one_div]

/-- The mean of 50000 real entries is a real. -/
theorem mean_coe (f : Fin 50000 → ℝ) :
    Ideal.div (0 + ∑ i, (f i : EReal)) ((50000 : ℝ) : EReal) = (((∑ i, f i) / 50000 : ℝ) : EReal) := by
  rw [zero_add, ← coe_sum, div_coe_coe _ _ (by norm_num)]

/-- The mean square minus the squared mean is the mean squared deviation, for 50000 real entries. -/
theorem var_bridge (f : Fin 50000 → ℝ) :
    Ideal.div (0 + ∑ i, (f i : EReal) * (f i : EReal)) ((50000 : ℝ) : EReal)
        - Ideal.div (0 + ∑ i, (f i : EReal)) ((50000 : ℝ) : EReal) * Ideal.div (0 + ∑ i, (f i : EReal)) ((50000 : ℝ) : EReal)
      = Ideal.div (0 + ∑ i, ((f i : EReal) - Ideal.div (0 + ∑ i, (f i : EReal)) ((50000 : ℝ) : EReal))
            * ((f i : EReal) - Ideal.div (0 + ∑ i, (f i : EReal)) ((50000 : ℝ) : EReal))) ((50000 : ℝ) : EReal) := by
  rw [mean_coe]
  simp only [← EReal.coe_mul, ← EReal.coe_sub]
  rw [zero_add, zero_add, ← coe_sum, ← coe_sum, div_coe_coe _ _ (by norm_num), div_coe_coe _ _ (by norm_num),
    ← EReal.coe_sub]
  have := var_real 50000 (by norm_num) f
  push_cast at this
  rw [this]

/-- The variance of 50000 real entries is a nonnegative real. -/
theorem var_coe (f : Fin 50000 → ℝ) :
    ∃ v : ℝ, 0 ≤ v ∧ Ideal.div (0 + ∑ i, (f i : EReal) * (f i : EReal)) ((50000 : ℝ) : EReal)
        - Ideal.div (0 + ∑ i, (f i : EReal)) ((50000 : ℝ) : EReal) * Ideal.div (0 + ∑ i, (f i : EReal)) ((50000 : ℝ) : EReal)
      = (v : EReal) := by
  refine ⟨(∑ i, (f i - (∑ i, f i) / 50000) * (f i - (∑ i, f i) / 50000)) / 50000, ?_, ?_⟩
  · exact div_nonneg (Finset.sum_nonneg fun i _ => mul_self_nonneg _) (by norm_num)
  · rw [var_bridge, mean_coe]
    simp only [← EReal.coe_mul, ← EReal.coe_sub]
    rw [zero_add, ← coe_sum, div_coe_coe _ _ (by norm_num)]

/-- Row r of tile t among the 50000 rows. -/
def rowOf (t : Fin 10) (r : Fin 5000) : Fin 50000 := ⟨t.val * 5000 + r.val, by omega⟩

/-- Summing tile by tile is summing over all rows. -/
theorem sum_tiles {M : Type} [AddCommMonoid M] (f : Fin 50000 → M) :
    ∑ t : Fin 10, ∑ r : Fin 5000, f (rowOf t r) = ∑ i : Fin 50000, f i := by
  rw [← Fintype.sum_prod_type']
  refine Fintype.sum_equiv (finProdFinEquiv (m := 10) (n := 5000)) _ _ fun ⟨t, r⟩ => ?_
  refine congrArg f (Fin.ext ?_)
  show t.val * 5000 + r.val = r.val + 5000 * t.val
  omega

end Cert.GcnMath

end
-- ==== Proof.BFin.lean ====
/-
  Real entries stay real: through a gather (each entry of the result is an entry of the operand), through an accumulating
  scatter (an entry plus a finite sum of update entries), through broadcasts, sums, differences, products and matrix products;
  the inverse square root of a positive real is a real. So the inverse root degrees, the edge weights and the aggregation of a
  real array are real.
-/
import proofs.«112019_j89378269429931_2_alg».proof.Proof.BRead
import proofs.«112019_j89378269429931_2_alg».proof.Proof.GcnMath

set_option maxRecDepth 65536

noncomputable section

namespace Cert.BFin

open Cert.RefSpec Cert.Graph Cert.KSpec Cert.BConst Cert.BRead
open Idealize.ShloMosaic Idealize.ShloMosaic.ValueIdx

/-- Every entry is a real number. -/
def IsReal {s : Shape} (v : s.Idx → EReal) : Prop := ∀ i, ∃ r : ℝ, v i = (r : EReal)

/-- A finite sum of reals is a real. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r1, h1⟩ := h a (Finset.mem_insert_self a s)
    obtain ⟨r2, h2⟩ := ih fun i hi => h i (Finset.mem_insert_of_mem hi)
    exact ⟨r1 + r2, by rw [Finset.sum_insert ha, h1, h2, EReal.coe_add]⟩

theorem real_add {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩
theorem real_sub {x y : EReal} (hx : ∃ r : ℝ, x = (r : EReal)) (hy : ∃ r : ℝ, y = (r : EReal)) : ∃ r : ℝ, x - y = (r : EReal) := by
  obtain ⟨a, rfl⟩ := hx; obtain ⟨b, rfl⟩ := hy; exact ⟨a - b, (EReal.coe_sub a b).symm⟩
theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩
theorem real_max {x y : EReal} (hx : ∃ r : ℝ, x = (r : EReal)) (hy : ∃ r : ℝ, y = (r : EReal)) : ∃ r : ℝ, max x y = (r : EReal) := by
  obtain ⟨a, rfl⟩ := hx; obtain ⟨b, rfl⟩ := hy
  refine ⟨max a b, ?_⟩
  rcases le_total a b with h | h
  · rw [max_eq_right h, max_eq_right (EReal.coe_le_coe_iff.mpr h)]
  · rw [max_eq_left h, max_eq_left (EReal.coe_le_coe_iff.mpr h)]

/-- The inverse square root of a positive real is a real. -/
theorem real_rsqrt {x : EReal} (hx : ∃ r : ℝ, 0 < r ∧ x = (r : EReal)) : ∃ r : ℝ, Ideal.rsqrt x = (r : EReal) := by
  obtain ⟨a, ha, rfl⟩ := hx
  refine ⟨(Real.sqrt a)⁻¹, ?_⟩
  rw [Ideal.rsqrt_coe, if_neg (not_lt.mpr ha.le), if_neg ha.ne']

theorem isReal_gather {s si t : Shape} {w : Nat} (d : GatherDims s si t) (x : s.Idx → EReal) (idx : IVec si w) (hx : IsReal x) :
    IsReal (Host.gather d x idx) := fun j => hx _

theorem isReal_bcast {s t : Shape} (dims : Fin s.rank → Fin t.rank) (h : s.BroadcastsInDim t dims) (x : s.Idx → EReal) (hx : IsReal x) :
    IsReal (broadcastInDim t dims h x) := fun j => hx _

theorem isReal_scatterAdd {s si su : Shape} {w : Nat} (d : ScatterDims s si su) (x : FVec Ideal s .f32) (idx : IVec si w)
    (u : FVec Ideal su .f32) (hx : IsReal x) (hu : IsReal u) : IsReal (Host.scatterAdd d x idx u) := fun i =>
  real_add (hx i) (real_sum _ _ fun j _ => hu j)

theorem isReal_mulf {s : Shape} (a b : FVec Ideal s .f32) (ha : IsReal a) (hb : IsReal b) : IsReal (mulf a b) :=
  fun i => real_mul (ha i) (hb i)
theorem isReal_addf {s : Shape} (a b : FVec Ideal s .f32) (ha : IsReal a) (hb : IsReal b) : IsReal (addf a b) :=
  fun i => real_add (ha i) (hb i)

theorem isReal_zero (s : Shape) : IsReal (constant (F := Ideal) s .f32 0x00000000#32) := fun _ => ⟨0, c_zero⟩
theorem isReal_one (s : Shape) : IsReal (constant (F := Ideal) s .f32 0x3F800000#32) := fun _ => ⟨1, c_one⟩

/-- The inverse square root of a real raised to the positive floor is a real. -/
theorem real_rsqrt_floor {x : EReal} (hx : ∃ r : ℝ, x = (r : EReal)) :
    ∃ r : ℝ, Ideal.rsqrt (max x (Ideal.ofBits .f32 0x2B8CBCCC#32)) = (r : EReal) := by
  obtain ⟨d, rfl⟩ := hx
  refine real_rsqrt ⟨max d (9223372 / 9223372036854775808), lt_max_of_lt_right (by norm_num), ?_⟩
  rw [c_floor]
  rcases le_total d (9223372 / 9223372036854775808) with h | h
  · rw [max_eq_right h, max_eq_right (EReal.coe_le_coe_iff.mpr h)]
  · rw [max_eq_left h, max_eq_left (EReal.coe_le_coe_iff.mpr h)]

/-- The inverse square root of a real array raised to the positive floor is real. -/
theorem isReal_rsqrt_floor {s : Shape} (X B : FVec Ideal s .f32) (hX : IsReal X) (hB : ∀ i, B i = Ideal.ofBits .f32 0x2B8CBCCC#32) :
    IsReal (Host.rsqrt (maximumf X B)) := fun i => by
  show ∃ r : ℝ, Ideal.rsqrt (max (X i) (B i)) = (r : EReal)
  rw [hB i]
  exact real_rsqrt_floor (hX i)

/-- The inverse root degrees are real: a degree is a finite sum of ones, and never below the positive floor. -/
theorem isReal_dinv (dst : IVec Cert.KernelIdeal.S850000 32) : IsReal (dinvOf dst) :=
  isReal_rsqrt_floor _ _ (isReal_scatterAdd _ _ _ _ (isReal_bcast _ _ _ (isReal_zero _)) (isReal_bcast _ _ _ (isReal_one _)))
    (fun _ => rfl)

/-- The edge weights are real. -/
theorem isReal_norm (src dst : IVec Cert.KernelIdeal.S850000 32) : IsReal (normOf src dst) :=
  isReal_mulf _ _ (isReal_gather _ _ _ (isReal_dinv dst)) (isReal_gather _ _ _ (isReal_dinv dst))

/-- The aggregation of a real array with real edge weights is real. -/
theorem isReal_agg (src dst : IVec Cert.KernelIdeal.S850000 32) (norm : FVec Ideal Cert.KernelIdeal.S850000 .f32)
    (h : FVec Ideal Cert.KernelIdeal.S50000x64 .f32) (hn : IsReal norm) (hh : IsReal h) : IsReal (aggOf src dst norm h) :=
  isReal_scatterAdd _ _ _ _ (isReal_bcast _ _ _ (isReal_zero _))
    (isReal_mulf _ _ (isReal_gather _ _ _ hh) (isReal_bcast _ _ _ (isReal_bcast _ _ _ hn)))

/-- A matrix product of real matrices is real. -/
theorem isReal_mm {K : Nat} (x : (⟨2, ![50000, K]⟩ : Shape).Idx → EReal) (w : (⟨2, ![K, 64]⟩ : Shape).Idx → EReal)
    (hx : IsReal x) (hw : IsReal w) : IsReal (mmArr x w) := fun i =>
  real_sum _ _ fun k _ => real_mul (hx _) (hw _)

theorem isReal_rows (u : Vec64) (hu : IsReal u) : IsReal (rows u) := isReal_bcast _ _ _ (isReal_bcast _ _ _ hu)

end Cert.BFin

end
-- ==== Proof.BStats.lean ====
/-
  One layer's statistics and normalisation, the same in both programs when the entries are real.

  For an aggregated array a and a bias b, the reference normalises pre = a + b by its column means and its column mean squared
  deviations; the tiled program normalises by the means and by (mean square − squared mean) it forms from ten per-tile sums.
  Tile by tile or all at once the sums agree; the two variances agree because the entries are real; and then every entry of
  the two normalised arrays is the same expression. The reference's two matrix products are the tiled program's.
-/
import proofs.«112019_j89378269429931_2_alg».proof.Proof.BFin

noncomputable section

namespace Cert.BStats

open Cert.RefSpec Cert.Graph Cert.KSpec Cert.BConst Cert.BRead Cert.BFin
open Idealize.ShloMosaic Idealize.ShloMosaic.ValueIdx

/-! ## One column -/

theorem col_sum {M : Type} [AddCommMonoid M] (p : Fin 50000 → M) :
    ∑ t : Fin 10, ∑ r : Fin 5000, p (rowOf t r) = ∑ i, p i := Cert.GcnMath.sum_tiles p

/-- The two variances of a real column. -/
theorem col_var (p : Fin 50000 → EReal) (hp : ∀ i, ∃ r : ℝ, p i = (r : EReal)) :
    Ideal.div (0 + ∑ t : Fin 10, ∑ r : Fin 5000, p (rowOf t r) * p (rowOf t r)) ((50000 : ℝ) : EReal)
        - Ideal.div (0 + ∑ t : Fin 10, ∑ r : Fin 5000, p (rowOf t r)) ((50000 : ℝ) : EReal)
          * Ideal.div (0 + ∑ t : Fin 10, ∑ r : Fin 5000, p (rowOf t r)) ((50000 : ℝ) : EReal)
      = Ideal.div (0 + ∑ i, (p i - Ideal.div (0 + ∑ i, p i) ((50000 : ℝ) : EReal))
          * (p i - Ideal.div (0 + ∑ i, p i) ((50000 : ℝ) : EReal))) ((50000 : ℝ) : EReal) := by
  have h2 : ∑ t : Fin 10, ∑ r : Fin 5000, p (rowOf t r) * p (rowOf t r) = ∑ i, p i * p i := col_sum fun i => p i * p i
  rw [h2, col_sum p]
  choose f hf using hp
  obtain rfl : p = fun i => (f i : EReal) := funext hf
  exact Cert.GcnMath.var_bridge f

/-- The mean of a real column is a real, and its variance a nonnegative real. -/
theorem col_real (p : Fin 50000 → EReal) (hp : ∀ i, ∃ r : ℝ, p i = (r : EReal)) :
    (∃ μ : ℝ, Ideal.div (0 + ∑ i, p i) ((50000 : ℝ) : EReal) = (μ : EReal))
    ∧ ∃ v : ℝ, 0 ≤ v ∧ Ideal.div (0 + ∑ i, (p i - Ideal.div (0 + ∑ i, p i) ((50000 : ℝ) : EReal))
          * (p i - Ideal.div (0 + ∑ i, p i) ((50000 : ℝ) : EReal))) ((50000 : ℝ) : EReal) = (v : EReal) := by
  choose f hf using hp
  obtain rfl : p = fun i => (f i : EReal) := funext hf
  refine ⟨⟨_, Cert.GcnMath.mean_coe f⟩, ?_⟩
  obtain ⟨v, hv, e⟩ := Cert.GcnMath.var_coe f
  exact ⟨v, hv, (Cert.GcnMath.var_bridge f).symm.trans e⟩

/-! ## One layer's array -/

variable (a : Arr) (b : Vec64)

theorem pre_apply (i : Fin 50000) (j : Fin 64) : addf a (rows b) (ix2 i j) = a (ix2 i j) + b (ix1 j) := by
  rw [addf_apply, rows_apply]

theorem tileSum_apply (t : Fin 10) (j : Fin 64) :
    tileSum a (rowOfVec b) (ix3 t (0 : Fin 1) j) = ∑ r : Fin 5000, addf a (rows b) (ix2 (rowOf t r) j) := by
  show (∑ r : Fin 5000, (a (ix2 (rowOf t r) j) + rowOfVec b (ix2 (0 : Fin 1) j))) = _
  exact Finset.sum_congr rfl fun r _ => by rw [rowOfVec_apply, pre_apply]

theorem tileSumSq_apply (t : Fin 10) (j : Fin 64) :
    tileSumSq a (rowOfVec b) (ix3 t (0 : Fin 1) j)
      = ∑ r : Fin 5000, addf a (rows b) (ix2 (rowOf t r) j) * addf a (rows b) (ix2 (rowOf t r) j) := by
  show (∑ r : Fin 5000, ((a (ix2 (rowOf t r) j) + rowOfVec b (ix2 (0 : Fin 1) j)) * (a (ix2 (rowOf t r) j) + rowOfVec b (ix2 (0 : Fin 1) j)))) = _
  exact Finset.sum_congr rfl fun r _ => by rw [rowOfVec_apply, pre_apply]

/-- The two means of a layer's array agree. -/
theorem mean_bridge (j : Fin 64) :
    meanOfTiles (tileSum a (rowOfVec b)) (ix2 (0 : Fin 1) j) = colMean (addf a (rows b)) (ix1 j) := by
  rw [meanOfTiles_apply, colMean_apply]
  simp only [tileSum_apply]
  have h := col_sum fun i => addf a (rows b) (ix2 i j)
  beta_reduce at h
  rw [h]

theorem pre_real (ha : IsReal a) (hb : IsReal b) (j : Fin 64) (i : Fin 50000) : ∃ r : ℝ, addf a (rows b) (ix2 i j) = (r : EReal) := by
  rw [pre_apply]; exact real_add (ha _) (hb _)

/-- The two variances of a layer's array agree when its entries are real. -/
theorem var_bridge (ha : IsReal a) (hb : IsReal b) (j : Fin 64) :
    varOfTiles (tileSum a (rowOfVec b)) (tileSumSq a (rowOfVec b)) (ix2 (0 : Fin 1) j) = colVar (addf a (rows b)) (ix1 j) := by
  rw [varOfTiles_apply, meanOfTiles_apply, meanOfTiles_apply, colVar_apply]
  simp only [tileSum_apply, tileSumSq_apply, dev_apply]
  have h := col_var (fun i => addf a (rows b) (ix2 i j)) (pre_real a b ha hb j)
  beta_reduce at h
  exact h

/-- The mean of a real layer's array is real, and the inverse deviation too. -/
theorem stats_real (ha : IsReal a) (hb : IsReal b) (j : Fin 64) :
    (∃ μ : ℝ, colMean (addf a (rows b)) (ix1 j) = (μ : EReal))
    ∧ ∃ s : ℝ, Ideal.rsqrt (colVar (addf a (rows b)) (ix1 j) + Ideal.ofBits .f32 0x3727C5AC#32) = (s : EReal) := by
  obtain ⟨hμ, v, hv, e⟩ := col_real (fun i => addf a (rows b) (ix2 i j)) (pre_real a b ha hb j)
  beta_reduce at hμ e
  refine ⟨by rw [colMean_apply]; exact hμ, ?_⟩
  refine real_rsqrt ⟨v + 10995116 / 1099511627776, by positivity, ?_⟩
  rw [colVar_apply, c_eps, EReal.coe_add]
  simp only [dev_apply]
  rw [e]

variable (g be : Vec64)

/-- The reference's normalised entry. -/
theorem bnWith_apply (v : Arr) (μ : Vec64) (i : Fin 50000) (j : Fin 64) :
    bnWith v μ g be (ix2 i j)
      = (v (ix2 i j) - μ (ix1 j)) * Ideal.rsqrt (colVar v (ix1 j) + Ideal.ofBits .f32 0x3727C5AC#32) * g (ix1 j) + be (ix1 j) := by
  unfold bnWith
  rw [addf_apply, mulf_apply, mulf_apply, subf_apply, rows_apply, rows_apply, rows_apply, rows_apply]
  rfl

/-- The two normalised arrays of a layer agree when the entries are real. -/
theorem bn_bridge (ha : IsReal a) (hb : IsReal b) :
    bnWith (addf a (rows b)) (colMean (addf a (rows b))) g be
      = bnArr a (rowOfVec b) (meanOfTiles (tileSum a (rowOfVec b)))
          (varOfTiles (tileSum a (rowOfVec b)) (tileSumSq a (rowOfVec b))) (rowOfVec g) (rowOfVec be) := by
  funext idx
  obtain ⟨i, j, rfl⟩ : ∃ (i : Fin 50000) (j : Fin 64), idx = ix2 i j := ⟨idx 0, idx 1, eq_ix2 idx⟩
  rw [bnWith_apply]
  show _ = bnEntry (a (ix2 i j)) (rowOfVec b (ix2 (0 : Fin 1) j)) (meanOfTiles (tileSum a (rowOfVec b)) (ix2 (0 : Fin 1) j))
    (varOfTiles (tileSum a (rowOfVec b)) (tileSumSq a (rowOfVec b)) (ix2 (0 : Fin 1) j)) (rowOfVec g (ix2 (0 : Fin 1) j))
    (rowOfVec be (ix2 (0 : Fin 1) j))
  rw [mean_bridge, var_bridge a b ha hb, rowOfVec_apply, rowOfVec_apply, rowOfVec_apply, pre_apply]
  rfl

/-- The normalised array is real when everything going in is. -/
theorem bn_real (ha : IsReal a) (hb : IsReal b) (hg : IsReal g) (hbe : IsReal be) :
    IsReal (bnWith (addf a (rows b)) (colMean (addf a (rows b))) g be) := fun idx => by
  obtain ⟨i, j, rfl⟩ : ∃ (i : Fin 50000) (j : Fin 64), idx = ix2 i j := ⟨idx 0, idx 1, eq_ix2 idx⟩
  rw [bnWith_apply]
  obtain ⟨hμ, hs⟩ := stats_real a b ha hb j
  exact real_add (real_mul (real_mul (real_sub (pre_real a b ha hb j i) hμ) hs) (hg _)) (hbe _)

end Cert.BStats

end
-- ==== Proof.BDot.lean ====
/-
  The reference's two matrix products read at an entry: the row of the left matrix against the column of the right one.
-/
import proofs.«112019_j89378269429931_2_alg».proof.Proof.RefSpec
import Idealize.ShloMosaic.Lib.ValueIdx
import Idealize.ShloMosaic.PureOps.Ideal.Laws

noncomputable section

namespace Cert.BDot

open Cert.ReferenceIdeal Cert.ReferenceIdeal.Gen
open Idealize.ShloMosaic Idealize.ShloMosaic.ValueIdx

abbrev D1 := dot_S50000x128_S128x64_S50000x64_1_0_0_1_n_n
abbrev D2 := dot_S50000x64_S64x64_S50000x64_1_0_0_1_n_n

theorem dot1_apply (x : FVec Ideal S50000x128 .f32) (w : FVec Ideal S128x64 .f32) (i : Fin 50000) (j : Fin 64) :
    Host.dotGeneral D1 none x w (ix2 i j) = ∑ k : Fin 128, x (ix2 i k) * w (ix2 k j) := by
  refine (Ideal.dotGeneral_apply D1 none _ x w (ix2 i j)).trans ?_
  refine ((contrEquiv1 D1 128 rfl rfl).symm.sum_comp _).symm.trans ?_
  refine Finset.sum_congr rfl fun k _ => ?_
  have hl : D1.lhsIdx (ix2 i j) ((contrEquiv1 D1 128 rfl rfl).symm k) = ix2 i k := funext fun a => Fin.ext (by
    match a with
    | ⟨0, _⟩ => rfl
    | ⟨1, _⟩ => exact (D1.lhsIdx_val_of_single rfl _ _).trans (contrEquiv1_symm_val D1 128 rfl rfl k))
  have hr : D1.rhsIdx (ix2 i j) ((contrEquiv1 D1 128 rfl rfl).symm k) = ix2 k j := funext fun a => Fin.ext (by
    match a with
    | ⟨0, _⟩ => exact (D1.rhsIdx_val_of_single rfl _ _).trans (contrEquiv1_symm_val D1 128 rfl rfl k)
    | ⟨1, _⟩ => rfl)
  rw [hl, hr]

theorem dot2_apply (x : FVec Ideal S50000x64 .f32) (w : FVec Ideal S64x64 .f32) (i : Fin 50000) (j : Fin 64) :
    Host.dotGeneral D2 none x w (ix2 i j) = ∑ k : Fin 64, x (ix2 i k) * w (ix2 k j) := by
  refine (Ideal.dotGeneral_apply D2 none _ x w (ix2 i j)).trans ?_
  refine ((contrEquiv1 D2 64 rfl rfl).symm.sum_comp _).symm.trans ?_
  refine Finset.sum_congr rfl fun k _ => ?_
  have hl : D2.lhsIdx (ix2 i j) ((contrEquiv1 D2 64 rfl rfl).symm k) = ix2 i k := funext fun a => Fin.ext (by
    match a with
    | ⟨0, _⟩ => rfl
    | ⟨1, _⟩ => exact (D2.lhsIdx_val_of_single rfl _ _).trans (contrEquiv1_symm_val D2 64 rfl rfl k))
  have hr : D2.rhsIdx (ix2 i j) ((contrEquiv1 D2 64 rfl rfl).symm k) = ix2 k j := funext fun a => Fin.ext (by
    match a with
    | ⟨0, _⟩ => exact (D2.rhsIdx_val_of_single rfl _ _).trans (contrEquiv1_symm_val D2 64 rfl rfl k)
    | ⟨1, _⟩ => rfl)
  rw [hl, hr]

end Cert.BDot

end
-- ==== Proof.BOut.lean ====
/-
  The two programs' results are one function of the ten arguments, when the nine float arguments are real.

  Layer by layer: the reference's matrix product is the tiled one; the aggregation is shared; a real array stays real
  through it; so the first layer's two normalisations agree, hence the rectified second features, hence — real again — the
  second layer's two normalisations.
-/
import proofs.«112019_j89378269429931_2_alg».proof.Proof.BStats
import proofs.«112019_j89378269429931_2_alg».proof.Proof.BDot

set_option maxRecDepth 65536

noncomputable section

namespace Cert.BOut

open Cert.RefSpec Cert.Graph Cert.KSpec Cert.BConst Cert.BRead Cert.BFin Cert.BStats
open Idealize.ShloMosaic Idealize.ShloMosaic.ValueIdx

variable (x : (⟨2, ![50000, 128]⟩ : Shape).Idx → EReal) (E : (⟨2, ![2, 800000]⟩ : Shape).Idx → BitVec 32)
  (w1 : (⟨2, ![128, 64]⟩ : Shape).Idx → EReal) (b1 g1 be1 : Vec64) (w2 : (⟨2, ![64, 64]⟩ : Shape).Idx → EReal) (b2 g2 be2 : Vec64)

/-- The reference's first product is the tiled one. -/
theorem feat1_eq : feat1 x w1 = mmArr (K := 128) x w1 := by
  funext idx
  obtain ⟨i, j, rfl⟩ : ∃ (i : Fin 50000) (j : Fin 64), idx = ix2 i j := ⟨idx 0, idx 1, eq_ix2 idx⟩
  exact Cert.BDot.dot1_apply x w1 i j

theorem pre1_eq : pre1 x E w1 b1 = addf (agg1 x E w1) (rows b1) := by
  unfold pre1 layer agg1
  rw [feat1_eq]

theorem agg1_real (hx : IsReal x) (hw1 : IsReal w1) : IsReal (agg1 x E w1) :=
  isReal_agg _ _ _ _ (isReal_norm _ _) (isReal_mm x w1 hx hw1)

/-- The rectifier at an entry. -/
theorem relu_apply (v : Arr) (i : Fin 50000) (k : Fin 64) : relu v (ix2 i k) = max (v (ix2 i k)) 0 := by
  unfold relu
  rw [maximumf_apply, broadcastInDim_scalar_apply]
  show max _ (Ideal.ofBits .f32 0x00000000#32) = _
  rw [c_zero]

/-- The second layer's features agree. -/
theorem feat2_eq (hx : IsReal x) (hw1 : IsReal w1) (hb1 : IsReal b1) :
    Host.dotGeneral (φ₁ := .f32) (φ₂ := .f32) Cert.BDot.D2 none (relu (bnWith (pre1 x E w1 b1) (colMean (pre1 x E w1 b1)) g1 be1)) w2
      = feat2 x E w1 b1 g1 be1 w2 := by
  rw [pre1_eq, bn_bridge (agg1 x E w1) b1 g1 be1 (agg1_real x E w1 hx hw1) hb1]
  funext idx
  obtain ⟨i, j, rfl⟩ : ∃ (i : Fin 50000) (j : Fin 64), idx = ix2 i j := ⟨idx 0, idx 1, eq_ix2 idx⟩
  rw [Cert.BDot.dot2_apply]
  show _ = ∑ k : Fin 64, max (bnArr (agg1 x E w1) (rowOfVec b1) (meanOfTiles (tileSum (agg1 x E w1) (rowOfVec b1)))
      (varOfTiles (tileSum (agg1 x E w1) (rowOfVec b1)) (tileSumSq (agg1 x E w1) (rowOfVec b1))) (rowOfVec g1) (rowOfVec be1) (ix2 i k)) 0
    * w2 (ix2 k j)
  exact Finset.sum_congr rfl fun k _ => by rw [relu_apply]

/-- The second layer's features are real. -/
theorem feat2_real (hx : IsReal x) (hw1 : IsReal w1) (hb1 : IsReal b1) (hg1 : IsReal g1) (hbe1 : IsReal be1) (hw2 : IsReal w2) :
    IsReal (feat2 x E w1 b1 g1 be1 w2) := by
  have hbn := bn_real (agg1 x E w1) b1 g1 be1 (agg1_real x E w1 hx hw1) hb1 hg1 hbe1
  have e := bn_bridge (agg1 x E w1) b1 g1 be1 (agg1_real x E w1 hx hw1) hb1
  have hact : IsReal (fun i => max (bnArr (agg1 x E w1) (rowOfVec b1) (meanOfTiles (tileSum (agg1 x E w1) (rowOfVec b1)))
      (varOfTiles (tileSum (agg1 x E w1) (rowOfVec b1)) (tileSumSq (agg1 x E w1) (rowOfVec b1))) (rowOfVec g1) (rowOfVec be1) i) 0) :=
    fun i => real_max (by obtain ⟨r, hr⟩ := hbn i; exact ⟨r, (congrFun e i).symm.trans hr⟩) ⟨0, rfl⟩
  unfold feat2 bnReluMm
  exact isReal_mm (K := 64) _ w2 hact hw2

theorem agg2_real (hx : IsReal x) (hw1 : IsReal w1) (hb1 : IsReal b1) (hg1 : IsReal g1) (hbe1 : IsReal be1) (hw2 : IsReal w2) :
    IsReal (agg2 x E w1 b1 g1 be1 w2) :=
  isReal_agg _ _ _ _ (isReal_norm _ _) (feat2_real x E w1 b1 g1 be1 w2 hx hw1 hb1 hg1 hbe1 hw2)

theorem pre2_eq (hx : IsReal x) (hw1 : IsReal w1) (hb1 : IsReal b1) :
    pre2 x E w1 b1 g1 be1 w2 b2 = addf (agg2 x E w1 b1 g1 be1 w2) (rows b2) := by
  unfold pre2 pre2of layer agg2
  rw [feat2_eq x E w1 b1 g1 be1 w2 hx hw1 hb1]

/-- The two programs' results agree on real arguments. -/
theorem out_eq (hx : IsReal x) (hw1 : IsReal w1) (hb1 : IsReal b1) (hg1 : IsReal g1) (hbe1 : IsReal be1) (hw2 : IsReal w2)
    (hb2 : IsReal b2) :
    refOut x E w1 b1 g1 be1 w2 b2 g2 be2 = kernelOut x E w1 b1 g1 be1 w2 b2 g2 be2 := by
  unfold refOut kernelOut
  rw [pre2_eq x E w1 b1 g1 be1 w2 b2 hx hw1 hb1]
  exact bn_bridge (agg2 x E w1 b1 g1 be1 w2) b2 g2 be2 (agg2_real x E w1 b1 g1 be1 w2 hx hw1 hb1 hg1 hbe1 hw2) hb2

end Cert.BOut

end
-- ==== Proof.PreFin.lean ====
/-
  What the precondition says: each of the nine float arguments has only real entries. The precondition is a conjunction of
  nine "all entries have absolute value below plus infinity"; an extended real whose absolute value is below plus infinity
  is neither infinity, hence a real.
-/
import proofs.«112019_j89378269429931_2_alg».proof.Pre_finite_inputs
import proofs.«112019_j89378269429931_2_alg».proof.Proof.Gen.Pre_finite_inputs
import proofs.«112019_j89378269429931_2_alg».proof.Proof.BConst
import Idealize.ShloMosaic.Lib.ReduceAll
import Idealize.ShloMosaic.Lib.Affine
import Idealize.ShloMosaic.Lib.ValueIdx
import Idealize.ShloMosaic.PureOps.Ideal.Laws

set_option maxRecDepth 16384

noncomputable section

namespace Cert.PreFin

open Cert.Pre_finite_inputs Cert.Pre_finite_inputs.Gen Cert.BConst
open Idealize.ShloMosaic Idealize.ShloMosaic.ValueIdx

instance : Subsingleton S_.Idx := ⟨fun a b => funext fun d => d.elim0⟩

/-- An extended real whose absolute value is below plus infinity is a real. -/
theorem real_of_abs_lt_inf (x : EReal) (h : Ideal.cmp .olt (max x (-x)) (Ideal.ofBits .f32 0x7F800000#32) = 1#1) :
    ∃ r : ℝ, x = (r : EReal) := by
  rw [c_inf] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := fun e => by rw [e] at h'; simp at h'
  have h2 : x ≠ ⊥ := fun e => by rw [e] at h'; simp at h'
  exact ⟨x.toReal, (EReal.coe_toReal h1 h2).symm⟩

/-- One conjunct of the precondition: every entry of the array is a real. -/
theorem real_of_all {s : Shape} {axes : List (Fin s.rank)} (x : FVec Ideal s .f32) (hb : S_.BroadcastsInDim s ![])
    (h : s.ReducesTo axes S_) (hu : 0 < S_.numel)
    (e : Host.reduce IntOp.andi (cmpf .olt (Host.absf x) (broadcastInDim s ![] hb (constant S_ .f32 0x7F800000#32)))
      (constantI S_ 1 1#1) h hu ix0 = 1#1) (i : s.Idx) : ∃ r : ℝ, x i = (r : EReal) :=
  real_of_abs_lt_inf (x i) (Host.reduce_andi_all _ _ h hu ix0 e i)

variable (a0 : FVec Ideal S50000x128 .f32) (a1 : IVec S2x800000 32) (a2 : FVec Ideal S128x64 .f32) (a3 a4 a5 : FVec Ideal S64 .f32)
  (a6 : FVec Ideal S64x64 .f32) (a7 a8 a9 : FVec Ideal S64 .f32)

/-- The precondition gives the nine float arguments real entries. -/
theorem reals (h : fn (F := Ideal) a0 a1 a2 a3 a4 a5 a6 a7 a8 a9 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal)) := by
  have h0 := congrFun h ix0
  dsimp only [fn, fn_part1, fn_part2] at h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨e0, e2⟩ := IntOp.andi_eq_one.mp h0
  exact ⟨real_of_all a0 _ _ _ e0, real_of_all a2 _ _ _ e2, real_of_all a3 _ _ _ e3, real_of_all a4 _ _ _ e4,
    real_of_all a5 _ _ _ e5, real_of_all a6 _ _ _ e6, real_of_all a7 _ _ _ e7, real_of_all a8 _ _ _ e8, real_of_all a9 _ _ _ e9⟩

end Cert.PreFin

end
-- ==== Proof.lean ====
/-
  The certificate of a two-layer graph convolution network with batch normalisation: five tiled pipelines (two matrix
  products, two passes of per-tile column sums, one normalisation) among host stretches that gather along the edges and
  add into the nodes, against a plain reference that does the same with whole-array operations.

  The three frame claims: the two kernel programs by their generated frame certificates, the reference by its run as a
  straight line of host operations, none of which writes an argument. The idealisation rewrote nothing, so what it must
  preserve is nothing.

  The value claim, on the extended reals. The tiled program's result buffer ends at one function of the ten arguments
  (each pipeline's whole-array function, each host stretch's operations, composed), the reference's at another. They are
  the same function where the nine float arguments are real — which the precondition says —: the matrix products and the
  aggregation along the edges are shared; a batch normalisation's mean is the same sum taken tile by tile; and its
  variance, which the tiled program takes as the mean square minus the squared mean and the reference as the mean squared
  deviation, is the same real number because every entry that is summed is real.
-/
import proofs.«112019_j89378269429931_2_alg».proof.Defs
import proofs.«112019_j89378269429931_2_alg».proof.Proof.Gen.Kernel
import proofs.«112019_j89378269429931_2_alg».proof.Proof.Gen.Kernel.Frame
import proofs.«112019_j89378269429931_2_alg».proof.Proof.Gen.KernelIdeal
import proofs.«112019_j89378269429931_2_alg».proof.Proof.Gen.KernelIdeal.Frame
import proofs.«112019_j89378269429931_2_alg».proof.Proof.Gen.ReferenceIdeal
import proofs.«112019_j89378269429931_2_alg».proof.Proof.Gen.Pre_finite_inputs
import proofs.«112019_j89378269429931_2_alg».proof.Proof.KRun
import proofs.«112019_j89378269429931_2_alg».proof.Proof.KChain
import proofs.«112019_j89378269429931_2_alg».proof.Proof.RefKept
import proofs.«112019_j89378269429931_2_alg».proof.Proof.RefVal
import proofs.«112019_j89378269429931_2_alg».proof.Proof.BOut
import proofs.«112019_j89378269429931_2_alg».proof.Proof.PreFin
import Idealize.ShloMosaic.Adequacy
import Idealize.ShloMosaic.Init

set_option maxRecDepth 16384

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference ends with every buffer at the fold of its operations over the launch contents, and the fold leaves the
    arguments alone. -/
theorem frame_ri : @Cert.frame_ReferenceIdeal Cert.ReferenceIdeal.Gen.facts Cert.Pre_finite_inputs.Gen.facts :=
  fun m ρ _ => (θ_run Cert.ReferenceIdeal.defs _ _).mono
    (fun _ h c =>
      ⟨(h c _).trans (Cert.ReferenceIdeal.RefRun.kept_arg0 _), (h c _).trans (Cert.ReferenceIdeal.RefRun.kept_arg1 _),
       (h c _).trans (Cert.ReferenceIdeal.RefRun.kept_arg2 _), (h c _).trans (Cert.ReferenceIdeal.RefRun.kept_arg3 _),
       (h c _).trans (Cert.ReferenceIdeal.RefRun.kept_arg4 _), (h c _).trans (Cert.ReferenceIdeal.RefRun.kept_arg5 _),
       (h c _).trans (Cert.ReferenceIdeal.RefRun.kept_arg6 _), (h c _).trans (Cert.ReferenceIdeal.RefRun.kept_arg7 _),
       (h c _).trans (Cert.ReferenceIdeal.RefRun.kept_arg8 _), (h c _).trans (Cert.ReferenceIdeal.RefRun.kept_arg9 _)⟩)
    (Cert.ReferenceIdeal.RefRun.run_main (F := Ideal) m ρ)

/-- On real float arguments, the reference's result function of arguments that agree with the tiled program's is the tiled
    program's result function. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = fun _ => 1#1)
    (a0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (a1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (a2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) (a3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (a4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))) (a5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))) (a6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))) (a7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (a8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))) (a9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))) :
    Cert.RefSpec.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      = Cert.Graph.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  rw [a0, a1, a2, a3, a4, a5, a6, a7, a8, a9]
  obtain ⟨r0, r2, r3, r4, r5, r6, r7, r8, r9⟩ := Cert.PreFin.reals _ _ _ _ _ _ _ _ _ _ hpre
  exact Cert.BOut.out_eq _ _ _ _ _ _ _ _ _ _ r0 r2 r3 r4 r5 r6 r7

/-- Both idealised programs run; the tiled one ends with its result buffer at its result function of the arguments, the
    reference at its own, and the two are equal on arguments that agree and satisfy the precondition. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Gen.W10 m ρ c (Proc.devRef .tc Cert.KernelIdeal.main_v85),
    Cert.KernelIdeal.KRun.run (F := Ideal) m ρ, ?_⟩
  refine (θ_run Cert.ReferenceIdeal.defs _ _).mono (fun _ h c => ⟨?_,
      (h c _).trans (Cert.ReferenceIdeal.RefRun.kept_arg0 _), (h c _).trans (Cert.ReferenceIdeal.RefRun.kept_arg1 _),
      (h c _).trans (Cert.ReferenceIdeal.RefRun.kept_arg2 _), (h c _).trans (Cert.ReferenceIdeal.RefRun.kept_arg3 _),
      (h c _).trans (Cert.ReferenceIdeal.RefRun.kept_arg4 _), (h c _).trans (Cert.ReferenceIdeal.RefRun.kept_arg5 _),
      (h c _).trans (Cert.ReferenceIdeal.RefRun.kept_arg6 _), (h c _).trans (Cert.ReferenceIdeal.RefRun.kept_arg7 _),
      (h c _).trans (Cert.ReferenceIdeal.RefRun.kept_arg8 _), (h c _).trans (Cert.ReferenceIdeal.RefRun.kept_arg9 _)⟩)
    (Cert.ReferenceIdeal.RefRun.run_main (F := Ideal) m' ρ')
  obtain ⟨a0, a1, a2, a3, a4, a5, a6, a7, a8, a9⟩ := hagree c
  refine (h c Cert.ReferenceIdeal.main_v101).trans ?_
  refine (Cert.ReferenceIdeal.RefVal.out_eq _).trans ?_
  refine Eq.trans ?_ (Cert.KernelIdeal.KChain.b10_v85 m ρ c).symm
  exact value_eq m m' c (hpre c) a0 a1 a2 a3 a4 a5 a6 a7 a8 a9

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
